-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S32x128 .f32) (main_arg3 : FVec F S32 .f32) (main_arg4 : FVec F S32x32 .f32) (main_arg5 : FVec F S32 .f32) (main_arg6 : FVec F S32x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S128x32 : Shape := ⟨2, ![128, 32]⟩
abbrev S10000x32 : Shape := ⟨2, ![10000, 32]⟩
abbrev S200x128 : Shape := ⟨2, ![200, 128]⟩
abbrev S200x10000 : Shape := ⟨2, ![200, 10000]⟩
abbrev S200x32 : Shape := ⟨2, ![200, 32]⟩
abbrev S32x10000 : Shape := ⟨2, ![32, 10000]⟩
abbrev S400x10000 : Shape := ⟨2, ![400, 10000]⟩
abbrev S400x32 : Shape := ⟨2, ![400, 32]⟩

abbrev nBuf : Space → Nat
  | .hbm => 21
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S128x32, .f32⟩
  | .hbm, ⟨12, _⟩ => ⟨S10000x32, .f32⟩
  | .hbm, ⟨13, _⟩ => ⟨S10000x10000, .bf16⟩
  | .hbm, ⟨14, _⟩ => ⟨S10000x32, .bf16⟩
  | .hbm, ⟨15, _⟩ => ⟨S32x32, .f32⟩
  | .hbm, ⟨16, _⟩ => ⟨S10000x32, .f32⟩
  | .hbm, ⟨17, _⟩ => ⟨S10000x32, .f32⟩
  | .hbm, ⟨18, _⟩ => ⟨S10000x32, .bf16⟩
  | .hbm, ⟨19, _⟩ => ⟨S32x32, .f32⟩
  | .hbm, ⟨20, _⟩ => ⟨S10000x32, .f32⟩
  | .local _ .vmem, ⟨0, _⟩ => ⟨S200x128, .f32⟩
  | .local _ .vmem, ⟨1, _⟩ => ⟨S200x128, .f32⟩
  | .local _ .vmem, ⟨2, _⟩ => ⟨S200x10000, .f32⟩
  | .local _ .vmem, ⟨3, _⟩ => ⟨S200x10000, .f32⟩
  | .local _ .vmem, ⟨4, _⟩ => ⟨S128x32, .f32⟩
  | .local _ .vmem, ⟨5, _⟩ => ⟨S1x32, .f32⟩
  | .local _ .vmem, ⟨6, _⟩ => ⟨S200x32, .f32⟩
  | .local _ .vmem, ⟨7, _⟩ => ⟨S200x32, .f32⟩
  | .local _ .vmem, ⟨8, _⟩ => ⟨S200x10000, .bf16⟩
  | .local _ .vmem, ⟨9, _⟩ => ⟨S200x10000, .bf16⟩
  | .local _ .vmem, ⟨10, _⟩ => ⟨S10000x32, .bf16⟩
  | .local _ .vmem, ⟨11, _⟩ => ⟨S32x10000, .f32⟩
  | .local _ .vmem, ⟨12, _⟩ => ⟨S400x10000, .bf16⟩
  | .local _ .vmem, ⟨13, _⟩ => ⟨S400x10000, .bf16⟩
  | .local _ .vmem, ⟨14, _⟩ => ⟨S400x32, .f32⟩
  | .local _ .vmem, ⟨15, _⟩ => ⟨S400x32, .f32⟩
  | .local _ .vmem, ⟨16, _⟩ => ⟨S10000x32, .bf16⟩
  | .local _ .vmem, ⟨17, _⟩ => ⟨S32x32, .f32⟩
  | .local _ .vmem, ⟨18, _⟩ => ⟨S1x32, .f32⟩
  | .local _ .vmem, ⟨19, _⟩ => ⟨S400x32, .f32⟩
  | .local _ .vmem, ⟨20, _⟩ => ⟨S400x32, .f32⟩
  | .local _ .vmem, ⟨21, _⟩ => ⟨S10000x32, .f32⟩
  | .local _ .vmem, ⟨22, _⟩ => ⟨S10000x32, .bf16⟩
  | .local _ .vmem, ⟨23, _⟩ => ⟨S32x10000, .f32⟩
  | .local _ .vmem, ⟨24, _⟩ => ⟨S400x10000, .bf16⟩
  | .local _ .vmem, ⟨25, _⟩ => ⟨S400x10000, .bf16⟩
  | .local _ .vmem, ⟨26, _⟩ => ⟨S400x32, .f32⟩
  | .local _ .vmem, ⟨27, _⟩ => ⟨S400x32, .f32⟩
  | .local _ .vmem, ⟨28, _⟩ => ⟨S10000x32, .bf16⟩
  | .local _ .vmem, ⟨29, _⟩ => ⟨S32x32, .f32⟩
  | .local _ .vmem, ⟨30, _⟩ => ⟨S1x32, .f32⟩
  | .local _ .vmem, ⟨31, _⟩ => ⟨S400x32, .f32⟩
  | .local _ .vmem, ⟨32, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10000x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_21 : BitVec 32 := 0#32
  let v33 : BitVec 1 := Scalar.cmpi .ne v32 c0_i32_21
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S10000x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10000x32 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S32_S1x32 : S32.ShapeCasts S1x32
  transposes_S32x128_S128x32_1_0 : S32x128.Transposes [1, 0] S128x32
  inb_S200x128_S200x128_0_0 : ∀ a, (![0, 0] : Fin 2 → Nat) a + S200x128.size a ≤ S200x128.size a
  h_S200x128 : 0 < S200x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S200x32 : S1x32.Broadcasts S200x32
  inb_S200x32_S200x32_0_0 : ∀ a, (![0, 0] : Fin 2 → Nat) a + S200x32.size a ≤ S200x32.size a
  h_S200x32 : 0 < S200x32.numel
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  shapeCasts_S200x10000_S200x10000 : S200x10000.ShapeCasts S200x10000
  transposes_S32x10000_p1_0_S10000x32 : S32x10000.Transposes [1, 0] S10000x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  transposes_S32x32_S32x32_1_0 : S32x32.Transposes [1, 0] S32x32
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S400x32 : S1x32.Broadcasts S400x32
  dot_S200x128_S128x32_S200x32_1_0_0_1_n_n_wf : DotDims.WF S200x128 S128x32 S200x32 [1] [0] [0] [1] [] []
  dot_S200x32_S200x10000_S32x10000_0_0_1_1_n_n_wf : DotDims.WF S200x32 S200x10000 S32x10000 [0] [0] [1] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x32_S400x10000_S32x10000_0_0_1_1_n_n_wf : DotDims.WF S400x32 S400x10000 S32x10000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x32.size a ≤ S10000x32.size a
  hwx0_4 : ∀ i : grid0.Coords, EltTy.bits .f32 = 32 ∨ (Rect.block (s := S10000x32) S200x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S10000x32.size a
  hwx0_6 : ∀ i : grid0.Coords, EltTy.bits .bf16 = 32 ∨ (Rect.block (s := S10000x32) S10000x32.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x32.size a ≤ S10000x32.size a
  hwx1_1 : ∀ i : grid1.Coords, EltTy.bits .f32 = 32 ∨ (Rect.block (s := S10000x32) S400x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S10000x32.size a
  hwx1_2 : ∀ i : grid1.Coords, EltTy.bits .bf16 = 32 ∨ (Rect.block (s := S10000x32) S10000x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x32.size a ≤ S10000x32.size a
  hwx1_5 : ∀ i : grid1.Coords, EltTy.bits .f32 = 32 ∨ (Rect.block (s := S10000x32) S400x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S10000x32.size a
  hwx1_6 : ∀ i : grid1.Coords, EltTy.bits .f32 = 32 ∨ (Rect.block (s := S10000x32) S10000x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S10000x32.size a
  hwx1_7 : ∀ i : grid1.Coords, EltTy.bits .bf16 = 32 ∨ (Rect.block (s := S10000x32) S10000x32.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x32.size a ≤ S10000x32.size a
  hwx2_1 : ∀ i : grid2.Coords, EltTy.bits .f32 = 32 ∨ (Rect.block (s := S10000x32) S400x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .bf16 = 32 ∨ (Rect.block (s := S10000x32) S10000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x32.size a ≤ S10000x32.size a
  hwx2_5 : ∀ i : grid2.Coords, EltTy.bits .f32 = 32 ∨ (Rect.block (s := S10000x32) S400x32.size (cc2_transform_5 i) (hinb2_5 i)).WholeWords (EltTy.packing .f32)

variable [Facts₀]

def dot_S200x128_S128x32_S200x32_1_0_0_1_n_n : DotDims S200x128 S128x32 S200x32 where
  lhsContracting := [1]
  rhsContracting := [0]
  lhsNonContracting := [0]
  rhsNonContracting := [1]
  lhsBatch := []
  rhsBatch := []
  wf := dot_S200x128_S128x32_S200x32_1_0_0_1_n_n_wf
def dot_S200x32_S200x10000_S32x10000_0_0_1_1_n_n : DotDims S200x32 S200x10000 S32x10000 where
  lhsContracting := [0]
  rhsContracting := [0]
  lhsNonContracting := [1]
  rhsNonContracting := [1]
  lhsBatch := []
  rhsBatch := []
  wf := dot_S200x32_S200x10000_S32x10000_0_0_1_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x32_S400x10000_S32x10000_0_0_1_1_n_n : DotDims S400x32 S400x10000 S32x10000 where
  lhsContracting := [0]
  rhsContracting := [0]
  lhsNonContracting := [1]
  rhsNonContracting := [1]
  lhsBatch := []
  rhsBatch := []
  wf := dot_S400x32_S400x10000_S32x10000_0_0_1_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S200x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S200x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S10000x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v4_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S10000x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S400x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S10000x32.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_2) S10000x32.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v4_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S400x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S10000x32 : Shape := ⟨2, ![10000, 32]⟩
abbrev S1x32 : Shape := ⟨2, ![1, 32]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S128x32, .f32⟩
  | .hbm, ⟨9, _⟩ => ⟨S10000x32, .f32⟩
  | .hbm, ⟨10, _⟩ => ⟨S1x32, .f32⟩
  | .hbm, ⟨11, _⟩ => ⟨S10000x32, .f32⟩
  | .hbm, ⟨12, _⟩ => ⟨S10000x32, .f32⟩
  | .hbm, ⟨13, _⟩ => ⟨S10000x10000, .f32⟩
  | .hbm, ⟨14, _⟩ => ⟨S10000x32, .f32⟩
  | .hbm, ⟨15, _⟩ => ⟨S10000x32, .f32⟩
  | .hbm, ⟨16, _⟩ => ⟨S_, .f32⟩
  | .hbm, ⟨17, _⟩ => ⟨S10000x32, .f32⟩
  | .hbm, ⟨18, _⟩ => ⟨S10000x32, .f32⟩
  | .hbm, ⟨19, _⟩ => ⟨S10000x32, .f32⟩
  | .hbm, ⟨20, _⟩ => ⟨S32x32, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S_, .f32⟩
  | .hbm, ⟨26, _⟩ => ⟨S10000x32, .f32⟩
  | .hbm, ⟨27, _⟩ => ⟨S10000x32, .f32⟩
  | .hbm, ⟨28, _⟩ => ⟨S10000x10000, .f32⟩
  | .hbm, ⟨29, _⟩ => ⟨S10000x32, .f32⟩
  | .hbm, ⟨30, _⟩ => ⟨S10000x32, .f32⟩
  | .hbm, ⟨31, _⟩ => ⟨S_, .f32⟩
  | .hbm, ⟨32, _⟩ => ⟨S10000x32, .f32⟩
  | .hbm, ⟨33, _⟩ => ⟨S10000x32, .f32⟩
  | .hbm, ⟨34, _⟩ => ⟨S10000x32, .f32⟩
  | .hbm, ⟨35, _⟩ => ⟨S32x32, .f32⟩
  | .hbm, ⟨36, _⟩ => ⟨S10000x32, .f32⟩
  | .hbm, ⟨37, _⟩ => ⟨S1x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  transposes_S10000x10000_S10000x10000_1_0 : S10000x10000.Transposes [1, 0] S10000x10000
  bcast_S_S10000x32 : S_.BroadcastsInDim S10000x32 (![] : Fin 0 → Fin S10000x32.rank)
  transposes_S32x32_S32x32_1_0 : S32x32.Transposes [1, 0] S32x32
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.KbR0a.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what its three kinds of grid point share

    The body branches twice on the grid position: at the first point it clears its accumulator, at the last point it
    copies the accumulator out. So a point is of one of three kinds: first (A), middle (B), last (C). -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-- "This is the first grid point", as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last grid point". -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-! Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-! The staging buffers at a point, the scratch buffer, and the views contents are stated through -/
abbrev ms0_0 (t : Fin cfg0.N) : Memref sig .tc .vmem S200x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10000x32 .bf16 := win0_6.stage (cfg0.slots t 6)
abbrev hs0_6 (t : Fin cfg0.N) : (ms0_6 t).IsWhole := hstage0_6 ((cfg0.slots t 6).cast nbuf0_6)
abbrev VO0_4 : View sig .tc .vmem S200x32 .f32 := (Memref.whole cc0_stg4_0 : Memref sig .tc .vmem S200x32 .f32).view
abbrev VO0_5 : View sig .tc .vmem S200x10000 .bf16 := (Memref.whole cc0_stg5_0 : Memref sig .tc .vmem S200x10000 .bf16).view
abbrev VO0_6 : View sig .tc .vmem S10000x32 .bf16 := (Memref.whole cc0_stg6_0 : Memref sig .tc .vmem S10000x32 .bf16).view
abbrev scM0 : Memref sig .tc .vmem S32x10000 .f32 := Memref.whole cc0_scratch0
abbrev VS0 : View sig .tc .vmem S32x10000 .f32 := scM0.view

/-- The scoped buffers the region does not stage, split into the accumulator and all the others. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.Kernel.Fr

end
-- ==== Proof.KbR0A.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first grid point, on whole staging buffers: the inputs at their contents, the accumulator at anything; it runs to the
    end, leaves the inputs as found, and leaves in each buffer it stores into the pieces its stores leave (last store first). -/
noncomputable def kernelRun0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i)
    (x0 : Vec F S200x128 .f32) (x1 : Vec F S200x10000 .f32) (x2 : Vec F S128x32 .f32) (x3 : Vec F S1x32 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀ (xi6 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xi6
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xi6
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, [], ?_, fun xi6 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%g6, %hg6, G6⟩, ⟨%ds, %fs, -, HS⟩, Hk⟩
    obtain rfl := harg1.eq_unread hf0; obtain rfl := harg2.eq_unread hf1; obtain rfl := harg3.eq_unread hf2; obtain rfl := harg4.eq_unread hf3; obtain rfl := harg7.eq_unread hg6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]
    · iexists _; isplitr; · ipureintro; exact harg7.read_unread _
      iexact G6
    iexists _; iexact HS

end Cert.Kernel.Fr

end
-- ==== Proof.KbR0B.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle grid point, on whole staging buffers: the inputs at their contents, the accumulator at what the point before left; it runs to the
    end, leaves the inputs as found, and leaves in each buffer it stores into the pieces its stores leave (last store first). -/
noncomputable def kernelRun0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i)
    (x0 : Vec F S200x128 .f32) (x1 : Vec F S200x10000 .f32) (x2 : Vec F S128x32 .f32) (x3 : Vec F S1x32 .f32) (xs : Vec F S32x10000 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀ (xi6 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xi6
            ∗ owns (c : Thread nD τ) arg8 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xi6
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, [], ?_, fun xi6 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%g6, %hg6, G6⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hg6; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]
    · iexists _; isplitr; · ipureintro; exact harg7.read_unread _
      iexact G6
    iexists _; iexact HS

end Cert.Kernel.Fr

end
-- ==== Proof.KbR0C.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last grid point, on whole staging buffers: the inputs at their contents, the accumulator at what the point before left; it runs to the
    end, leaves the inputs as found, and leaves in each buffer it stores into the pieces its stores leave (last store first). -/
noncomputable def kernelRun0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i)
    (x0 : Vec F S200x128 .f32) (x1 : Vec F S200x10000 .f32) (x2 : Vec F S128x32 .f32) (x3 : Vec F S1x32 .f32) (xs : Vec F S32x10000 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀  (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, ?_, ?_, fun  E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%d6, %g6, -, G6⟩, ⟨%fs, %hfs, HS⟩, Hk⟩
    obtain rfl := harg1.eq_unread hf0; obtain rfl := harg2.eq_unread hf1; obtain rfl := harg3.eq_unread hf2; obtain rfl := harg4.eq_unread hf3; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]; · iexists _; iexact G6
    iexists _; iexact HS

end Cert.Kernel.Fr

end
-- ==== Proof.KbR0.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR0A
import proofs.«149919_g68453188763984_cont_9to1_m_933_13_alg».proof.Proof.KbR0B
import proofs.«149919_g68453188763984_cont_9to1_m_933_13_alg».proof.Proof.KbR0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what every buffer holds after each grid point, the proof data, the body obligation -/

section Region0

variable (V : (c : Dev nD) → (b : Ref sig .tc) → Buf (Elt F) ((c : Thread nD τ).loc b))

/-- The stores of a point of kind A into output window 4 tile its buffer. -/
theorem cover0_A_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S200x32.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S200x32.size (by sl_kernel_rfl) y
/-- What a point of kind A leaves in output window 4's buffer. -/
def out0_A_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S200x32 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- The stores of a point of kind A into output window 5 tile its buffer. -/
theorem cover0_A_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S200x10000.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S200x10000.size (by sl_kernel_rfl) y
/-- What a point of kind A leaves in output window 5's buffer. -/
def out0_A_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S200x10000 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- The stores of a point of kind A into the accumulator tile it. -/
theorem scover0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S32x10000.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S32x10000.size (by sl_kernel_rfl) y
/-- What a point of kind A leaves in the accumulator. -/
def sout0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S32x10000 .f32 :=
  VS0.read (Elt F) (VS0.writes (Elt F) VS0.junk (kernelRun0_A c i arg1 harg1 arg2 harg2 arg3 harg3 arg4 harg4 arg5 harg5 arg6 harg6 arg7 harg7 arg8 harg8 hc0 hc1 x0 x1 x2 x3).2.2.2.1)

/-- The stores of a point of kind B into output window 4 tile its buffer. -/
theorem cover0_B_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S200x32.Idx) :
    ∃ pc ∈ (kernelRun0_B c i arg1 harg1 arg2 harg2 arg3 harg3 arg4 harg4 arg5 harg5 arg6 harg6 arg7 harg7 arg8 harg8 hc0 hc1 x0 x1 x2 x3 xs).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).1 S200x32.size (by sl_kernel_rfl) y
/-- What a point of kind B leaves in output window 4's buffer. -/
def out0_B_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S200x32 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs).1)

/-- The stores of a point of kind B into output window 5 tile its buffer. -/
theorem cover0_B_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S200x10000.Idx) :
    ∃ pc ∈ (kernelRun0_B c i arg1 harg1 arg2 harg2 arg3 harg3 arg4 harg4 arg5 harg5 arg6 harg6 arg7 harg7 arg8 harg8 hc0 hc1 x0 x1 x2 x3 xs).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).2.1 S200x10000.size (by sl_kernel_rfl) y
/-- What a point of kind B leaves in output window 5's buffer. -/
def out0_B_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S200x10000 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs).2.1)

/-- The stores of a point of kind B into the accumulator tile it. -/
theorem scover0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S32x10000.Idx) :
    ∃ pc ∈ (kernelRun0_B c i arg1 harg1 arg2 harg2 arg3 harg3 arg4 harg4 arg5 harg5 arg6 harg6 arg7 harg7 arg8 harg8 hc0 hc1 x0 x1 x2 x3 xs).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).2.2.2.1 S32x10000.size (by sl_kernel_rfl) y
/-- What a point of kind B leaves in the accumulator. -/
def sout0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S32x10000 .f32 :=
  VS0.read (Elt F) (VS0.writes (Elt F) VS0.junk (kernelRun0_B c i arg1 harg1 arg2 harg2 arg3 harg3 arg4 harg4 arg5 harg5 arg6 harg6 arg7 harg7 arg8 harg8 hc0 hc1 x0 x1 x2 x3 xs).2.2.2.1)

/-- The stores of a point of kind C into output window 4 tile its buffer. -/
theorem cover0_C_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S200x32.Idx) :
    ∃ pc ∈ (kernelRun0_C c i arg1 harg1 arg2 harg2 arg3 harg3 arg4 harg4 arg5 harg5 arg6 harg6 arg7 harg7 arg8 harg8 hc0 hc1 x0 x1 x2 x3 xs).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).1 S200x32.size (by sl_kernel_rfl) y
/-- What a point of kind C leaves in output window 4's buffer. -/
def out0_C_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S200x32 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs).1)

/-- The stores of a point of kind C into output window 5 tile its buffer. -/
theorem cover0_C_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S200x10000.Idx) :
    ∃ pc ∈ (kernelRun0_C c i arg1 harg1 arg2 harg2 arg3 harg3 arg4 harg4 arg5 harg5 arg6 harg6 arg7 harg7 arg8 harg8 hc0 hc1 x0 x1 x2 x3 xs).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.1 S200x10000.size (by sl_kernel_rfl) y
/-- What a point of kind C leaves in output window 5's buffer. -/
def out0_C_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S200x10000 .bf16 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs).2.1)

/-- The stores of a point of kind C into output window 6 tile its buffer. -/
theorem cover0_C_6 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S10000x32.Idx) :
    ∃ pc ∈ (kernelRun0_C c i arg1 harg1 arg2 harg2 arg3 harg3 arg4 harg4 arg5 harg5 arg6 harg6 arg7 harg7 arg8 harg8 hc0 hc1 x0 x1 x2 x3 xs).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.2.1 S10000x32.size (by sl_kernel_rfl) y
/-- What a point of kind C leaves in output window 6's buffer. -/
def out0_C_6 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S10000x32 .bf16 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 xs).2.2.1)

/-- The stores of a point of kind C into the accumulator tile it. -/
theorem scover0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S32x10000.Idx) :
    ∃ pc ∈ (kernelRun0_C c i arg1 harg1 arg2 harg2 arg3 harg3 arg4 harg4 arg5 harg5 arg6 harg6 arg7 harg7 arg8 harg8 hc0 hc1 x0 x1 x2 x3 xs).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.2.2.1 S32x10000.size (by sl_kernel_rfl) y
/-- What a point of kind C leaves in the accumulator. -/
def sout0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S32x10000 .f32 :=
  VS0.read (Elt F) (VS0.writes (Elt F) VS0.junk (kernelRun0_C c i arg1 harg1 arg2 harg2 arg3 harg3 arg4 harg4 arg5 harg5 arg6 harg6 arg7 harg7 arg8 harg8 hc0 hc1 x0 x1 x2 x3 xs).2.2.2.1)

/-- THE ACCUMULATION: what the output windows' buffers and the accumulator hold after the body at point `n`: the first
    point's run from an accumulator at anything, every later point's from what the point before left in it. -/
def outsAt0 (c : Dev nD) : (n : ℕ) → n < cfg0.N → Vec F S200x32 .f32 × Vec F S200x10000 .bf16 × Vec F S10000x32 .bf16 × Vec F S32x10000 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩),
      VO0_6.read (Elt F) VO0_6.junk,
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : n + 1 = 49 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      VO0_6.read (Elt F) VO0_6.junk,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

theorem outsAt0_A (c : Dev nD) (t : Fin cfg0.N) (h0 : t.val = 0) (h1 : ¬t.val = 49) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t),
      VO0_6.read (Elt F) VO0_6.junk,
      sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 49) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2,
      VO0_6.read (Elt F) VO0_6.junk,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 49) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point every scoped buffer at anything; afterwards the
    accumulator at what the point before left in it, every other scoped buffer at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2.2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point: the closed forms say which kind the point is of; that kind's run applies; the invariant hands the
    body the accumulator at what the point before left (at anything at the first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val = 0
  · have h1 : ¬t.val = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 out0_A_5 sout0_A; (try dsimp only)
    rw [PhiS0_castSucc V c t, PhiS0_zero V c _ _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS]; · iexact HS
    iintro ⟨H0, H1, H2, H3, ⟨%e4, H4⟩, ⟨%e5, H5⟩, H6, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    iexists _; iexact H6
  · by_cases h1 : t.val = 49
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [outsAt0_C V c t h0 h1]
      unfold out0_C_4 out0_C_5 out0_C_6 sout0_C; (try dsimp only)
      rw [PhiS0_castSucc V c t, PhiS0_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2  Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, ⟨%e4, H4⟩, ⟨%e5, H5⟩, ⟨%e6, H6⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_4 out0_B_5 sout0_B; (try dsimp only)
      rw [PhiS0_castSucc V c t, PhiS0_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2.2 _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS]; · iexact HS
      iintro ⟨H0, H1, H2, H3, ⟨%e4, H4⟩, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 50 := N_0; omega)

end Region0

end Cert.Kernel.Fr

end
-- ==== Proof.KbR1a.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what its three kinds of grid point share

    The body branches twice on the grid position: at the first point it clears its accumulator, at the last point it
    copies the accumulator out. So a point is of one of three kinds: first (A), middle (B), last (C). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- "This is the first grid point", as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last grid point". -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-! Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6_C : ∀ t : Fin cfg1.N, cond1_1 (grid1.coords t) → cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

/-! The staging buffers at a point, the scratch buffer, and the views contents are stated through -/
abbrev ms1_0 (t : Fin cfg1.N) : Memref sig .tc .vmem S400x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S400x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x32 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x32 .bf16 := win1_7.stage (cfg1.slots t 7)
abbrev hs1_7 (t : Fin cfg1.N) : (ms1_7 t).IsWhole := hstage1_7 ((cfg1.slots t 7).cast nbuf1_7)
abbrev VO1_5 : View sig .tc .vmem S400x32 .f32 := (Memref.whole cc1_stg5_0 : Memref sig .tc .vmem S400x32 .f32).view
abbrev VO1_6 : View sig .tc .vmem S10000x32 .f32 := (Memref.whole cc1_stg6_0 : Memref sig .tc .vmem S10000x32 .f32).view
abbrev VO1_7 : View sig .tc .vmem S10000x32 .bf16 := (Memref.whole cc1_stg7_0 : Memref sig .tc .vmem S10000x32 .bf16).view
abbrev scM1 : Memref sig .tc .vmem S32x10000 .f32 := Memref.whole cc1_scratch0
abbrev VS1 : View sig .tc .vmem S32x10000 .f32 := scM1.view

/-- The scoped buffers the region does not stage, split into the accumulator and all the others. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.Kernel.Fr

end
-- ==== Proof.KbR1A.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first grid point, on whole staging buffers: the inputs at their contents, the accumulator at anything; it runs to the
    end, leaves the inputs as found, and leaves in each buffer it stores into the pieces its stores leave (last store first). -/
noncomputable def kernelRun1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i)
    (x0 : Vec F S400x10000 .bf16) (x1 : Vec F S400x32 .f32) (x2 : Vec F S10000x32 .bf16) (x3 : Vec F S32x32 .f32) (x4 : Vec F S1x32 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀ (xi6 : Vec F S10000x32 .f32) (xi7 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ (∃ d, owns (c : Thread nD τ) arg9 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, [], [], ?_, fun xi6 xi7 E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%g6, %hg6, G6⟩, ⟨%g7, %hg7, G7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hg6; obtain rfl := harg8.eq_unread hg7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]
    · iexists _; isplitr; · ipureintro; exact harg7.read_unread _
      iexact G6
    isplitl [G7]
    · iexists _; isplitr; · ipureintro; exact harg8.read_unread _
      iexact G7
    iexists _; iexact HS

end Cert.Kernel.Fr

end
-- ==== Proof.KbR1B.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle grid point, on whole staging buffers: the inputs at their contents, the accumulator at what the point before left; it runs to the
    end, leaves the inputs as found, and leaves in each buffer it stores into the pieces its stores leave (last store first). -/
noncomputable def kernelRun1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i)
    (x0 : Vec F S400x10000 .bf16) (x1 : Vec F S400x32 .f32) (x2 : Vec F S10000x32 .bf16) (x3 : Vec F S32x32 .f32) (x4 : Vec F S1x32 .f32) (xs : Vec F S32x10000 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀ (xi6 : Vec F S10000x32 .f32) (xi7 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ owns (c : Thread nD τ) arg9 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, [], [], ?_, fun xi6 xi7 E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%g6, %hg6, G6⟩, ⟨%g7, %hg7, G7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hg6; obtain rfl := harg8.eq_unread hg7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]
    · iexists _; isplitr; · ipureintro; exact harg7.read_unread _
      iexact G6
    isplitl [G7]
    · iexists _; isplitr; · ipureintro; exact harg8.read_unread _
      iexact G7
    iexists _; iexact HS

end Cert.Kernel.Fr

end
-- ==== Proof.KbR1C.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last grid point, on whole staging buffers: the inputs at their contents, the accumulator at what the point before left; it runs to the
    end, leaves the inputs as found, and leaves in each buffer it stores into the pieces its stores leave (last store first). -/
noncomputable def kernelRun1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i)
    (x0 : Vec F S400x10000 .bf16) (x1 : Vec F S400x32 .f32) (x2 : Vec F S10000x32 .bf16) (x3 : Vec F S32x32 .f32) (x4 : Vec F S1x32 .f32) (xs : Vec F S32x10000 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀  (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, ?_, ?_, ?_, fun  E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%d6, %g6, -, G6⟩, ⟨%d7, %g7, -, G7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]; · iexists _; iexact G6
    isplitl [G7]; · iexists _; iexact G7
    iexists _; iexact HS

end Cert.Kernel.Fr

end
-- ==== Proof.KbR1.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points
import proofs.«149919_g68453188763984_cont_9to1_m_933_13_alg».proof.Proof.KbR1A
import proofs.«149919_g68453188763984_cont_9to1_m_933_13_alg».proof.Proof.KbR1B
import proofs.«149919_g68453188763984_cont_9to1_m_933_13_alg».proof.Proof.KbR1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what every buffer holds after each grid point, the proof data, the body obligation -/

section Region1

variable (V : (c : Dev nD) → (b : Ref sig .tc) → Buf (Elt F) ((c : Thread nD τ).loc b))

/-- The stores of a point of kind A into output window 5 tile its buffer. -/
theorem cover1_A_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) (y : S400x32.Idx) :
    ∃ pc ∈ (kernelRun1_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4).1 S400x32.size (by sl_kernel_rfl) y
/-- What a point of kind A leaves in output window 5's buffer. -/
def out1_A_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) : Vec F S400x32 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 hc1 x0 x1 x2 x3 x4).1)

/-- The stores of a point of kind A into the accumulator tile it. -/
theorem scover1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) (y : S32x10000.Idx) :
    ∃ pc ∈ (kernelRun1_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4).2.2.2.1 S32x10000.size (by sl_kernel_rfl) y
/-- What a point of kind A leaves in the accumulator. -/
def sout1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) : Vec F S32x10000 .f32 :=
  VS1.read (Elt F) (VS1.writes (Elt F) VS1.junk (kernelRun1_A c i arg1 harg1 arg2 harg2 arg3 harg3 arg4 harg4 arg5 harg5 arg6 harg6 arg7 harg7 arg8 harg8 arg9 harg9 hc0 hc1 x0 x1 x2 x3 x4).2.2.2.1)

/-- The stores of a point of kind B into output window 5 tile its buffer. -/
theorem cover1_B_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) (y : S400x32.Idx) :
    ∃ pc ∈ (kernelRun1_B c i arg1 harg1 arg2 harg2 arg3 harg3 arg4 harg4 arg5 harg5 arg6 harg6 arg7 harg7 arg8 harg8 arg9 harg9 hc0 hc1 x0 x1 x2 x3 x4 xs).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 xs).1 S400x32.size (by sl_kernel_rfl) y
/-- What a point of kind B leaves in output window 5's buffer. -/
def out1_B_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S400x32 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 hc1 x0 x1 x2 x3 x4 xs).1)

/-- The stores of a point of kind B into the accumulator tile it. -/
theorem scover1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) (y : S32x10000.Idx) :
    ∃ pc ∈ (kernelRun1_B c i arg1 harg1 arg2 harg2 arg3 harg3 arg4 harg4 arg5 harg5 arg6 harg6 arg7 harg7 arg8 harg8 arg9 harg9 hc0 hc1 x0 x1 x2 x3 x4 xs).2.2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 xs).2.2.2.1 S32x10000.size (by sl_kernel_rfl) y
/-- What a point of kind B leaves in the accumulator. -/
def sout1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S32x10000 .f32 :=
  VS1.read (Elt F) (VS1.writes (Elt F) VS1.junk (kernelRun1_B c i arg1 harg1 arg2 harg2 arg3 harg3 arg4 harg4 arg5 harg5 arg6 harg6 arg7 harg7 arg8 harg8 arg9 harg9 hc0 hc1 x0 x1 x2 x3 x4 xs).2.2.2.1)

/-- The stores of a point of kind C into output window 5 tile its buffer. -/
theorem cover1_C_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S400x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).1 S400x32.size (by sl_kernel_rfl) y
/-- What a point of kind C leaves in output window 5's buffer. -/
def out1_C_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S400x32 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 x4 xs).1)

/-- The stores of a point of kind C into output window 6 tile its buffer. -/
theorem cover1_C_6 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S10000x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.1 S10000x32.size (by sl_kernel_rfl) y
/-- What a point of kind C leaves in output window 6's buffer. -/
def out1_C_6 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S10000x32 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 xs).2.1)

/-- The stores of a point of kind C into output window 7 tile its buffer. -/
theorem cover1_C_7 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S10000x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.2.1 S10000x32.size (by sl_kernel_rfl) y
/-- What a point of kind C leaves in output window 7's buffer. -/
def out1_C_7 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S10000x32 .bf16 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 xs).2.2.1)

/-- The stores of a point of kind C into the accumulator tile it. -/
theorem scover1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S32x10000.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.2.2.1 S32x10000.size (by sl_kernel_rfl) y
/-- What a point of kind C leaves in the accumulator. -/
def sout1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S32x10000 .f32 :=
  VS1.read (Elt F) (VS1.writes (Elt F) VS1.junk (kernelRun1_C c i arg1 harg1 arg2 harg2 arg3 harg3 arg4 harg4 arg5 harg5 arg6 harg6 arg7 harg7 arg8 harg8 arg9 harg9 hc0 hc1 x0 x1 x2 x3 x4 xs).2.2.2.1)

/-- THE ACCUMULATION: what the output windows' buffers and the accumulator hold after the body at point `n`: the first
    point's run from an accumulator at anything, every later point's from what the point before left in it. -/
def outsAt1 (c : Dev nD) : (n : ℕ) → n < cfg1.N → Vec F S400x32 .f32 × Vec F S10000x32 .f32 × Vec F S10000x32 .bf16 × Vec F S32x10000 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      VO1_6.read (Elt F) VO1_6.junk,
      VO1_7.read (Elt F) VO1_7.junk,
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 24 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      VO1_6.read (Elt F) VO1_6.junk,
      VO1_7.read (Elt F) VO1_7.junk,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)

theorem outsAt1_A (c : Dev nD) (t : Fin cfg1.N) (h0 : t.val = 0) (h1 : ¬t.val = 24) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t),
      VO1_6.read (Elt F) VO1_6.junk,
      VO1_7.read (Elt F) VO1_7.junk,
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 24) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      VO1_6.read (Elt F) VO1_6.junk,
      VO1_7.read (Elt F) VO1_7.junk,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 24) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point every scoped buffer at anything; afterwards the
    accumulator at what the point before left in it, every other scoped buffer at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 16000000 in
/-- The body at any point: the closed forms say which kind the point is of; that kind's run applies; the invariant hands the
    body the accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val = 0
  · have h1 : ¬t.val = 24 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_A_5 sout1_A; (try dsimp only)
    rw [PhiS1_castSucc V c t, PhiS1_zero V c _ _ h0, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, ⟨%e5, H5⟩, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _ _ _ _ _ _)
    isplitl [H6]
    · iexists _; iexact H6
    iexists _; iexact H7
  · by_cases h1 : t.val = 24
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t ((hcond1_1 t).mpr h1)], after1_6]
      rw [show (dat1 V c).leavesExact 7 t = owns (c : Thread nD τ) (ms1_7 t) fullShare ((dat1 V c).after 7 t) from by
        unfold Dat.leavesExact; rw [liveAt1_7_C t ((hcond1_1 t).mpr h1)], after1_7]
      rw [outsAt1_C V c t h0 h1]
      unfold out1_C_5 out1_C_6 out1_C_7 sout1_C; (try dsimp only)
      rw [PhiS1_castSucc V c t, PhiS1_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2.2  Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, ⟨%e5, H5⟩, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_B_5 sout1_B; (try dsimp only)
      rw [PhiS1_castSucc V c t, PhiS1_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, ⟨%e5, H5⟩, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _)
      isplitl [H6]
      · iexists _; iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]; · iexists _; iexact HS
    iexact Hrest
  iexact Hg

theorem hout1 (c : Dev nD) : (dat1 V c).Φ (Fin.last cfg1.N) ⊢ Pipeline.ΦA spec1 c :=
  Phi_out1 V c _ (by rw [Fin.val_last]; have : cfg1.N = 25 := N_1; omega)

end Region1

end Cert.Kernel.Fr

end
-- ==== Proof.KbR2.lean ====
import proofs.«149919_g68453188763984_cont_9to1_m_933_13_alg».proof.Proof.Gen.Kernel.Launch
import proofs.«149919_g68453188763984_cont_9to1_m_933_13_alg».proof.Proof.Gen.Kernel.Skeleton
import proofs.«149919_g68453188763984_cont_9to1_m_933_13_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel region: every point reads a slab of 400 rows of the incidence matrix, the same rows of the
    node features, the whole hyperedge features, the weights and the bias, and writes the slab's 400 rows of the
    updated node features. Nothing is kept between points. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rr_S400x32 : Rect S400x32 := Rect.unit (s := S400x32) ![0, 0] S400x32.size inb_S400x32_S400x32_0_0
abbrev rr_S400x10000 : Rect S400x10000 := Rect.unit (s := S400x10000) ![0, 0] S400x10000.size inb_S400x10000_S400x10000_0_0
abbrev rr_S10000x32 : Rect S10000x32 := Rect.unit (s := S10000x32) ![0, 0] S10000x32.size inb_S10000x32_S10000x32_0_0
abbrev rr_S32x32 : Rect S32x32 := Rect.unit (s := S32x32) ![0, 0] S32x32.size inb_S32x32_S32x32_0_0
abbrev rr_S1x32 : Rect S1x32 := Rect.unit (s := S1x32) ![0, 0] S1x32.size inb_S1x32_S1x32_0_0
abbrev r2_0 : Rect S400x32 := rr_S400x32

/-- What the body leaves in the output window's buffer: its one store, of the body's arithmetic on the input blocks. -/
def out2_5 (x0 : Vec F S400x10000 .bf16) (x1 : Vec F S400x32 .f32) (x2 : Vec F S10000x32 .bf16) (x3 : Vec F S32x32 .f32) (x4 : Vec F S1x32 .f32) : Vec F S400x32 .f32 :=
  View.canon [⟨r2_0, k2_pay1 (View.ld x0 rr_S400x10000) (View.ld x2 rr_S10000x32) (View.ld x1 rr_S400x32) (View.ld x3 rr_S32x32) (View.ld x4 rr_S1x32)⟩]

theorem cover2_5 (p0 : Vec F S400x32 .f32) (y : S400x32.Idx) :
    ∃ pc ∈ ([⟨r2_0, p0⟩] : List (View.Piece (Elt F) S400x32 .f32)), y ∈ pc.1.set :=
  View.cover_of_tiled [⟨r2_0, p0⟩] S400x32.size (by rfl) y

set_option maxHeartbeats 4000000 in
/-- The body on whole staging buffers: the inputs are left as found, the output holds `out2_5` of them. -/
theorem sound_kernel2 (c : Dev nD) (E : Set ℕ) (i : grid2.Coords)
    (arg1 : Memref sig .tc .vmem S400x10000 .bf16) (harg1 : arg1.IsWhole) (arg2 : Memref sig .tc .vmem S400x32 .f32) (harg2 : arg2.IsWhole)
    (arg3 : Memref sig .tc .vmem S10000x32 .bf16) (harg3 : arg3.IsWhole) (arg4 : Memref sig .tc .vmem S32x32 .f32) (harg4 : arg4.IsWhole)
    (arg5 : Memref sig .tc .vmem S1x32 .f32) (harg5 : arg5.IsWhole) (arg6 : Memref sig .tc .vmem S400x32 .f32) (harg6 : arg6.IsWhole)
    (x0 : Vec F S400x10000 .bf16) (x1 : Vec F S400x32 .f32) (x2 : Vec F S10000x32 .bf16) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__pass3_kernel i arg1 harg1 arg2 harg2 arg3 harg3 arg4 harg4 arg5 harg5 arg6 harg6) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 (F := F) _)

/-- The proof data of the third region on core `c`: the arrays as the region finds them; after the body each input's
    buffer at its block and the output's at `out2_5` of the input blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.KbRun.lean ====
import proofs.«149919_g68453188763984_cont_9to1_m_933_13_alg».proof.Proof.KbR0
import proofs.«149919_g68453188763984_cont_9to1_m_933_13_alg».proof.Proof.KbR1
import proofs.«149919_g68453188763984_cont_9to1_m_933_13_alg».proof.Proof.KbR2
import proofs.«149919_g68453188763984_cont_9to1_m_933_13_alg».proof.Proof.Gen.Kernel.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program through its three regions

The program is three stretches of host operations, each followed by a kernel region. The buffer contents at each
boundary are a fold from the launch memory: a stretch of host operations leaves what its operations compute; a
region leaves its arrays at what its write-backs fold to and every other buffer as it found it. -/

/-- Core `c`'s buffers at launch. -/
abbrev W0 (ρ : Dev nD → PrngReg) : Dev nD → Valuation τ sig (Elt F) := fun c b => m (c, b)

/-- After the host operations before region 0 (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host operations before region 0 do not write is as before them. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- After the host operations before region 1 (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host operations before region 1 do not write is as before them. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- After the host operations before region 2 (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host operations before region 2 do not write is as before them. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-! ## The arguments end as launched: no host operation writes one and no region writes one (a region reads an
    argument through an input window or not at all) -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- The last region's output array ends at what that region's write-backs fold to. -/
theorem W6_main_v8 (c : Dev nD) : W6 m ρ c (Proc.devRef .tc main_v8) = (dat2 (V5 m ρ) c).arrAt 5 cfg2.N :=
  W6_arr m ρ c 5

/-- The second region's second output array is written by nothing after that region. -/
theorem W6_main_v6_1 (c : Dev nD) : W6 m ρ c (Proc.devRef .tc main_v6_1) = (dat1 (V3 m ρ) c).arrAt 6 cfg1.N :=
  calc W6 m ρ c (Proc.devRef .tc main_v6_1)
    _ = W5 m ρ c (Proc.devRef .tc main_v6_1) := W6_of_ne m ρ c main_v6_1 (by decide)
    _ = W4 m ρ c (Proc.devRef .tc main_v6_1) := W5_of m ρ c main_v6_1 (by decide)
    _ = (dat1 (V3 m ρ) c).arrAt 6 cfg1.N := W4_arr m ρ c 6

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays
    are split out of the unscoped buffers at entry and put back at the exit contents; the generator register goes into
    the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (fun w => A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers at entry and put back at the exit contents; the generator register goes into
    the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays
    are split out of the unscoped buffers at entry and put back at the exit contents; the generator register goes into
    the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (fun w => A_eq2 (V5 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters, every weakly fair execution of the program on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Fr

end
-- ==== Proof.KbFrame.lean ====
import proofs.«149919_g68453188763984_cont_9to1_m_933_13_alg».proof.Proof.KbRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The frame: from any memory with zero counters, every weakly fair execution of the program on the TensorCores
    terminates, nothing faulting, and every final state holds each argument array at its launch contents: each
    argument is an unscoped buffer, and the last boundary's contents at it are the launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.Kernel.Fr

end
-- ==== Proof.KiR0a.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what its three kinds of grid point share

    The body branches twice on the grid position: at the first point it clears its accumulator, at the last point it
    copies the accumulator out. So a point is of one of three kinds: first (A), middle (B), last (C). -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-- "This is the first grid point", as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last grid point". -/
abbrev cond0_1 (i : grid0.Coords) : Prop := k0_cond2 i = 1#1
theorem hcond0_1 : ∀ t : Fin cfg0.N, cond0_1 (grid0.coords t) ↔ t.val = 49 :=
  (by decide +kernel : ∀ t : Fin grid0.N, cond0_1 (grid0.coords t) ↔ t.val = 49)

/-! Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

/-! The staging buffers at a point, the scratch buffer, and the views contents are stated through -/
abbrev ms0_0 (t : Fin cfg0.N) : Memref sig .tc .vmem S200x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10000x32 .bf16 := win0_6.stage (cfg0.slots t 6)
abbrev hs0_6 (t : Fin cfg0.N) : (ms0_6 t).IsWhole := hstage0_6 ((cfg0.slots t 6).cast nbuf0_6)
abbrev VO0_4 : View sig .tc .vmem S200x32 .f32 := (Memref.whole cc0_stg4_0 : Memref sig .tc .vmem S200x32 .f32).view
abbrev VO0_5 : View sig .tc .vmem S200x10000 .bf16 := (Memref.whole cc0_stg5_0 : Memref sig .tc .vmem S200x10000 .bf16).view
abbrev VO0_6 : View sig .tc .vmem S10000x32 .bf16 := (Memref.whole cc0_stg6_0 : Memref sig .tc .vmem S10000x32 .bf16).view
abbrev scM0 : Memref sig .tc .vmem S32x10000 .f32 := Memref.whole cc0_scratch0
abbrev VS0 : View sig .tc .vmem S32x10000 .f32 := scM0.view

/-- The scoped buffers the region does not stage, split into the accumulator and all the others. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.KernelIdeal.Fr

end
-- ==== Proof.KiR0A.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first grid point, on whole staging buffers: the inputs at their contents, the accumulator at anything; it runs to the
    end, leaves the inputs as found, and leaves in each buffer it stores into the pieces its stores leave (last store first). -/
noncomputable def kernelRun0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i)
    (x0 : Vec F S200x128 .f32) (x1 : Vec F S200x10000 .f32) (x2 : Vec F S128x32 .f32) (x3 : Vec F S1x32 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀ (xi6 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xi6
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xi6
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, [], ?_, fun xi6 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%g6, %hg6, G6⟩, ⟨%ds, %fs, -, HS⟩, Hk⟩
    obtain rfl := harg1.eq_unread hf0; obtain rfl := harg2.eq_unread hf1; obtain rfl := harg3.eq_unread hf2; obtain rfl := harg4.eq_unread hf3; obtain rfl := harg7.eq_unread hg6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]
    · iexists _; isplitr; · ipureintro; exact harg7.read_unread _
      iexact G6
    iexists _; iexact HS

end Cert.KernelIdeal.Fr

end
-- ==== Proof.KiR0B.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle grid point, on whole staging buffers: the inputs at their contents, the accumulator at what the point before left; it runs to the
    end, leaves the inputs as found, and leaves in each buffer it stores into the pieces its stores leave (last store first). -/
noncomputable def kernelRun0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i)
    (x0 : Vec F S200x128 .f32) (x1 : Vec F S200x10000 .f32) (x2 : Vec F S128x32 .f32) (x3 : Vec F S1x32 .f32) (xs : Vec F S32x10000 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀ (xi6 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xi6
            ∗ owns (c : Thread nD τ) arg8 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ owns (c : Thread nD τ) arg7 fullShare xi6
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, [], ?_, fun xi6 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%g6, %hg6, G6⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hg6; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]
    · iexists _; isplitr; · ipureintro; exact harg7.read_unread _
      iexact G6
    iexists _; iexact HS

end Cert.KernelIdeal.Fr

end
-- ==== Proof.KiR0C.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last grid point, on whole staging buffers: the inputs at their contents, the accumulator at what the point before left; it runs to the
    end, leaves the inputs as found, and leaves in each buffer it stores into the pieces its stores leave (last store first). -/
noncomputable def kernelRun0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i)
    (x0 : Vec F S200x128 .f32) (x1 : Vec F S200x10000 .f32) (x2 : Vec F S128x32 .f32) (x3 : Vec F S1x32 .f32) (xs : Vec F S32x10000 .f32) :
    Σ' (L4 : List (View.Piece (Elt F) S200x32 .f32)) (L5 : List (View.Piece (Elt F) S200x10000 .bf16)) (L6 : List (View.Piece (Elt F) S10000x32 .bf16)), { LS : List (View.Piece (Elt F) S32x10000 .f32) //
      ∀  (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, ?_, ?_, fun  E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%d4, %g4, -, G4⟩, ⟨%d5, %g5, -, G5⟩, ⟨%d6, %g6, -, G6⟩, ⟨%fs, %hfs, HS⟩, Hk⟩
    obtain rfl := harg1.eq_unread hf0; obtain rfl := harg2.eq_unread hf1; obtain rfl := harg3.eq_unread hf2; obtain rfl := harg4.eq_unread hf3; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [G4]; · iexists _; iexact G4
    isplitl [G5]; · iexists _; iexact G5
    isplitl [G6]; · iexists _; iexact G6
    iexists _; iexact HS

end Cert.KernelIdeal.Fr

end
-- ==== Proof.KiR0.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0A
import proofs.«149919_g68453188763984_cont_9to1_m_933_13_alg».proof.Proof.KiR0B
import proofs.«149919_g68453188763984_cont_9to1_m_933_13_alg».proof.Proof.KiR0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what every buffer holds after each grid point, the proof data, the body obligation -/

section Region0

variable (V : (c : Dev nD) → (b : Ref sig .tc) → Buf (Elt F) ((c : Thread nD τ).loc b))

/-- The stores of a point of kind A into output window 4 tile its buffer. -/
theorem cover0_A_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S200x32.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S200x32.size (by sl_kernel_rfl) y
/-- What a point of kind A leaves in output window 4's buffer. -/
def out0_A_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S200x32 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- The stores of a point of kind A into output window 5 tile its buffer. -/
theorem cover0_A_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S200x10000.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S200x10000.size (by sl_kernel_rfl) y
/-- What a point of kind A leaves in output window 5's buffer. -/
def out0_A_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S200x10000 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- The stores of a point of kind A into the accumulator tile it. -/
theorem scover0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) (y : S32x10000.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S32x10000.size (by sl_kernel_rfl) y
/-- What a point of kind A leaves in the accumulator. -/
def sout0_A (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) : Vec F S32x10000 .f32 :=
  VS0.read (Elt F) (VS0.writes (Elt F) VS0.junk (kernelRun0_A c i arg1 harg1 arg2 harg2 arg3 harg3 arg4 harg4 arg5 harg5 arg6 harg6 arg7 harg7 arg8 harg8 hc0 hc1 x0 x1 x2 x3).2.2.2.1)

/-- The stores of a point of kind B into output window 4 tile its buffer. -/
theorem cover0_B_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S200x32.Idx) :
    ∃ pc ∈ (kernelRun0_B c i arg1 harg1 arg2 harg2 arg3 harg3 arg4 harg4 arg5 harg5 arg6 harg6 arg7 harg7 arg8 harg8 hc0 hc1 x0 x1 x2 x3 xs).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).1 S200x32.size (by sl_kernel_rfl) y
/-- What a point of kind B leaves in output window 4's buffer. -/
def out0_B_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S200x32 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs).1)

/-- The stores of a point of kind B into output window 5 tile its buffer. -/
theorem cover0_B_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S200x10000.Idx) :
    ∃ pc ∈ (kernelRun0_B c i arg1 harg1 arg2 harg2 arg3 harg3 arg4 harg4 arg5 harg5 arg6 harg6 arg7 harg7 arg8 harg8 hc0 hc1 x0 x1 x2 x3 xs).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).2.1 S200x10000.size (by sl_kernel_rfl) y
/-- What a point of kind B leaves in output window 5's buffer. -/
def out0_B_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S200x10000 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs).2.1)

/-- The stores of a point of kind B into the accumulator tile it. -/
theorem scover0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) (y : S32x10000.Idx) :
    ∃ pc ∈ (kernelRun0_B c i arg1 harg1 arg2 harg2 arg3 harg3 arg4 harg4 arg5 harg5 arg6 harg6 arg7 harg7 arg8 harg8 hc0 hc1 x0 x1 x2 x3 xs).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs).2.2.2.1 S32x10000.size (by sl_kernel_rfl) y
/-- What a point of kind B leaves in the accumulator. -/
def sout0_B (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) : Vec F S32x10000 .f32 :=
  VS0.read (Elt F) (VS0.writes (Elt F) VS0.junk (kernelRun0_B c i arg1 harg1 arg2 harg2 arg3 harg3 arg4 harg4 arg5 harg5 arg6 harg6 arg7 harg7 arg8 harg8 hc0 hc1 x0 x1 x2 x3 xs).2.2.2.1)

/-- The stores of a point of kind C into output window 4 tile its buffer. -/
theorem cover0_C_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S200x32.Idx) :
    ∃ pc ∈ (kernelRun0_C c i arg1 harg1 arg2 harg2 arg3 harg3 arg4 harg4 arg5 harg5 arg6 harg6 arg7 harg7 arg8 harg8 hc0 hc1 x0 x1 x2 x3 xs).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).1 S200x32.size (by sl_kernel_rfl) y
/-- What a point of kind C leaves in output window 4's buffer. -/
def out0_C_4 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S200x32 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs).1)

/-- The stores of a point of kind C into output window 5 tile its buffer. -/
theorem cover0_C_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S200x10000.Idx) :
    ∃ pc ∈ (kernelRun0_C c i arg1 harg1 arg2 harg2 arg3 harg3 arg4 harg4 arg5 harg5 arg6 harg6 arg7 harg7 arg8 harg8 hc0 hc1 x0 x1 x2 x3 xs).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.1 S200x10000.size (by sl_kernel_rfl) y
/-- What a point of kind C leaves in output window 5's buffer. -/
def out0_C_5 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S200x10000 .bf16 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs).2.1)

/-- The stores of a point of kind C into output window 6 tile its buffer. -/
theorem cover0_C_6 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S10000x32.Idx) :
    ∃ pc ∈ (kernelRun0_C c i arg1 harg1 arg2 harg2 arg3 harg3 arg4 harg4 arg5 harg5 arg6 harg6 arg7 harg7 arg8 harg8 hc0 hc1 x0 x1 x2 x3 xs).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.2.1 S10000x32.size (by sl_kernel_rfl) y
/-- What a point of kind C leaves in output window 6's buffer. -/
def out0_C_6 (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S10000x32 .bf16 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 xs).2.2.1)

/-- The stores of a point of kind C into the accumulator tile it. -/
theorem scover0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) (y : S32x10000.Idx) :
    ∃ pc ∈ (kernelRun0_C c i arg1 harg1 arg2 harg2 arg3 harg3 arg4 harg4 arg5 harg5 arg6 harg6 arg7 harg7 arg8 harg8 hc0 hc1 x0 x1 x2 x3 xs).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs).2.2.2.1 S32x10000.size (by sl_kernel_rfl) y
/-- What a point of kind C leaves in the accumulator. -/
def sout0_C (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) : Vec F S32x10000 .f32 :=
  VS0.read (Elt F) (VS0.writes (Elt F) VS0.junk (kernelRun0_C c i arg1 harg1 arg2 harg2 arg3 harg3 arg4 harg4 arg5 harg5 arg6 harg6 arg7 harg7 arg8 harg8 hc0 hc1 x0 x1 x2 x3 xs).2.2.2.1)

/-- THE ACCUMULATION: what the output windows' buffers and the accumulator hold after the body at point `n`: the first
    point's run from an accumulator at anything, every later point's from what the point before left in it. -/
def outsAt0 (c : Dev nD) : (n : ℕ) → n < cfg0.N → Vec F S200x32 .f32 × Vec F S200x10000 .bf16 × Vec F S10000x32 .bf16 × Vec F S32x10000 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩),
      VO0_6.read (Elt F) VO0_6.junk,
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : n + 1 = 49 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2,
      VO0_6.read (Elt F) VO0_6.junk,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => (fun h' => by (try dsimp only at h'); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

theorem outsAt0_A (c : Dev nD) (t : Fin cfg0.N) (h0 : t.val = 0) (h1 : ¬t.val = 49) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t),
      VO0_6.read (Elt F) VO0_6.junk,
      sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 49) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2,
      VO0_6.read (Elt F) VO0_6.junk,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 49) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point every scoped buffer at anything; afterwards the
    accumulator at what the point before left in it, every other scoped buffer at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2.2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 16000000 in
/-- The body at any point: the closed forms say which kind the point is of; that kind's run applies; the invariant hands the
    body the accumulator at what the point before left (at anything at the first point) and takes it back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val = 0
  · have h1 : ¬t.val = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 out0_A_5 sout0_A; (try dsimp only)
    rw [PhiS0_castSucc V c t, PhiS0_zero V c _ _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS]; · iexact HS
    iintro ⟨H0, H1, H2, H3, ⟨%e4, H4⟩, ⟨%e5, H5⟩, H6, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    iexists _; iexact H6
  · by_cases h1 : t.val = 49
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [outsAt0_C V c t h0 h1]
      unfold out0_C_4 out0_C_5 out0_C_6 sout0_C; (try dsimp only)
      rw [PhiS0_castSucc V c t, PhiS0_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2  Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, ⟨%e4, H4⟩, ⟨%e5, H5⟩, ⟨%e6, H6⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_4 out0_B_5 sout0_B; (try dsimp only)
      rw [PhiS0_castSucc V c t, PhiS0_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2.2 _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS]; · iexact HS
      iintro ⟨H0, H1, H2, H3, ⟨%e4, H4⟩, ⟨%e5, H5⟩, H6, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 50 := N_0; omega)

end Region0

end Cert.KernelIdeal.Fr

end
-- ==== Proof.KiR1a.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what its three kinds of grid point share

    The body branches twice on the grid position: at the first point it clears its accumulator, at the last point it
    copies the accumulator out. So a point is of one of three kinds: first (A), middle (B), last (C). -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- "This is the first grid point", as the body computes it. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last grid point". -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-! Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6_C : ∀ t : Fin cfg1.N, cond1_1 (grid1.coords t) → cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

/-! The staging buffers at a point, the scratch buffer, and the views contents are stated through -/
abbrev ms1_0 (t : Fin cfg1.N) : Memref sig .tc .vmem S400x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S400x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x32 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x32 .bf16 := win1_7.stage (cfg1.slots t 7)
abbrev hs1_7 (t : Fin cfg1.N) : (ms1_7 t).IsWhole := hstage1_7 ((cfg1.slots t 7).cast nbuf1_7)
abbrev VO1_5 : View sig .tc .vmem S400x32 .f32 := (Memref.whole cc1_stg5_0 : Memref sig .tc .vmem S400x32 .f32).view
abbrev VO1_6 : View sig .tc .vmem S10000x32 .f32 := (Memref.whole cc1_stg6_0 : Memref sig .tc .vmem S10000x32 .f32).view
abbrev VO1_7 : View sig .tc .vmem S10000x32 .bf16 := (Memref.whole cc1_stg7_0 : Memref sig .tc .vmem S10000x32 .bf16).view
abbrev scM1 : Memref sig .tc .vmem S32x10000 .f32 := Memref.whole cc1_scratch0
abbrev VS1 : View sig .tc .vmem S32x10000 .f32 := scM1.view

/-- The scoped buffers the region does not stage, split into the accumulator and all the others. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.KernelIdeal.Fr

end
-- ==== Proof.KiR1A.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a first grid point, on whole staging buffers: the inputs at their contents, the accumulator at anything; it runs to the
    end, leaves the inputs as found, and leaves in each buffer it stores into the pieces its stores leave (last store first). -/
noncomputable def kernelRun1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i)
    (x0 : Vec F S400x10000 .bf16) (x1 : Vec F S400x32 .f32) (x2 : Vec F S10000x32 .bf16) (x3 : Vec F S32x32 .f32) (x4 : Vec F S1x32 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀ (xi6 : Vec F S10000x32 .f32) (xi7 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ (∃ d, owns (c : Thread nD τ) arg9 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, [], [], ?_, fun xi6 xi7 E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%g6, %hg6, G6⟩, ⟨%g7, %hg7, G7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hg6; obtain rfl := harg8.eq_unread hg7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]
    · iexists _; isplitr; · ipureintro; exact harg7.read_unread _
      iexact G6
    isplitl [G7]
    · iexists _; isplitr; · ipureintro; exact harg8.read_unread _
      iexact G7
    iexists _; iexact HS

end Cert.KernelIdeal.Fr

end
-- ==== Proof.KiR1B.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a middle grid point, on whole staging buffers: the inputs at their contents, the accumulator at what the point before left; it runs to the
    end, leaves the inputs as found, and leaves in each buffer it stores into the pieces its stores leave (last store first). -/
noncomputable def kernelRun1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i)
    (x0 : Vec F S400x10000 .bf16) (x1 : Vec F S400x32 .f32) (x2 : Vec F S10000x32 .bf16) (x3 : Vec F S32x32 .f32) (x4 : Vec F S1x32 .f32) (xs : Vec F S32x10000 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀ (xi6 : Vec F S10000x32 .f32) (xi7 : Vec F S10000x32 .bf16) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ owns (c : Thread nD τ) arg9 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, [], [], ?_, fun xi6 xi7 E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%g6, %hg6, G6⟩, ⟨%g7, %hg7, G7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hg6; obtain rfl := harg8.eq_unread hg7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]
    · iexists _; isplitr; · ipureintro; exact harg7.read_unread _
      iexact G6
    isplitl [G7]
    · iexists _; isplitr; · ipureintro; exact harg8.read_unread _
      iexact G7
    iexists _; iexact HS

end Cert.KernelIdeal.Fr

end
-- ==== Proof.KiR1C.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last grid point, on whole staging buffers: the inputs at their contents, the accumulator at what the point before left; it runs to the
    end, leaves the inputs as found, and leaves in each buffer it stores into the pieces its stores leave (last store first). -/
noncomputable def kernelRun1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i)
    (x0 : Vec F S400x10000 .bf16) (x1 : Vec F S400x32 .f32) (x2 : Vec F S10000x32 .bf16) (x3 : Vec F S32x32 .f32) (x4 : Vec F S1x32 .f32) (xs : Vec F S32x10000 .f32) :
    Σ' (L5 : List (View.Piece (Elt F) S400x32 .f32)) (L6 : List (View.Piece (Elt F) S10000x32 .f32)) (L7 : List (View.Piece (Elt F) S10000x32 .bf16)), { LS : List (View.Piece (Elt F) S32x10000 .f32) //
      ∀  (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, ?_, ?_, ?_, fun  E K => ?run⟩
  case run =>
    simp only [cc1__pass2_kernel_eq_skeleton]; unfold cc1__pass2_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %g5, -, G5⟩, ⟨%d6, %g6, -, G6⟩, ⟨%d7, %g7, -, G7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G5]; · iexists _; iexact G5
    isplitl [G6]; · iexists _; iexact G6
    isplitl [G7]; · iexists _; iexact G7
    iexists _; iexact HS

end Cert.KernelIdeal.Fr

end
-- ==== Proof.KiR1.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1A
import proofs.«149919_g68453188763984_cont_9to1_m_933_13_alg».proof.Proof.KiR1B
import proofs.«149919_g68453188763984_cont_9to1_m_933_13_alg».proof.Proof.KiR1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 1: what every buffer holds after each grid point, the proof data, the body obligation -/

section Region1

variable (V : (c : Dev nD) → (b : Ref sig .tc) → Buf (Elt F) ((c : Thread nD τ).loc b))

/-- The stores of a point of kind A into output window 5 tile its buffer. -/
theorem cover1_A_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) (y : S400x32.Idx) :
    ∃ pc ∈ (kernelRun1_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4).1 S400x32.size (by sl_kernel_rfl) y
/-- What a point of kind A leaves in output window 5's buffer. -/
def out1_A_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) : Vec F S400x32 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 hc1 x0 x1 x2 x3 x4).1)

/-- The stores of a point of kind A into the accumulator tile it. -/
theorem scover1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) (y : S32x10000.Idx) :
    ∃ pc ∈ (kernelRun1_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4).2.2.2.1 S32x10000.size (by sl_kernel_rfl) y
/-- What a point of kind A leaves in the accumulator. -/
def sout1_A (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) : Vec F S32x10000 .f32 :=
  VS1.read (Elt F) (VS1.writes (Elt F) VS1.junk (kernelRun1_A c i arg1 harg1 arg2 harg2 arg3 harg3 arg4 harg4 arg5 harg5 arg6 harg6 arg7 harg7 arg8 harg8 arg9 harg9 hc0 hc1 x0 x1 x2 x3 x4).2.2.2.1)

/-- The stores of a point of kind B into output window 5 tile its buffer. -/
theorem cover1_B_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) (y : S400x32.Idx) :
    ∃ pc ∈ (kernelRun1_B c i arg1 harg1 arg2 harg2 arg3 harg3 arg4 harg4 arg5 harg5 arg6 harg6 arg7 harg7 arg8 harg8 arg9 harg9 hc0 hc1 x0 x1 x2 x3 x4 xs).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 xs).1 S400x32.size (by sl_kernel_rfl) y
/-- What a point of kind B leaves in output window 5's buffer. -/
def out1_B_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S400x32 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 hc1 x0 x1 x2 x3 x4 xs).1)

/-- The stores of a point of kind B into the accumulator tile it. -/
theorem scover1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) (y : S32x10000.Idx) :
    ∃ pc ∈ (kernelRun1_B c i arg1 harg1 arg2 harg2 arg3 harg3 arg4 harg4 arg5 harg5 arg6 harg6 arg7 harg7 arg8 harg8 arg9 harg9 hc0 hc1 x0 x1 x2 x3 x4 xs).2.2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 xs).2.2.2.1 S32x10000.size (by sl_kernel_rfl) y
/-- What a point of kind B leaves in the accumulator. -/
def sout1_B (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S32x10000 .f32 :=
  VS1.read (Elt F) (VS1.writes (Elt F) VS1.junk (kernelRun1_B c i arg1 harg1 arg2 harg2 arg3 harg3 arg4 harg4 arg5 harg5 arg6 harg6 arg7 harg7 arg8 harg8 arg9 harg9 hc0 hc1 x0 x1 x2 x3 x4 xs).2.2.2.1)

/-- The stores of a point of kind C into output window 5 tile its buffer. -/
theorem cover1_C_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S400x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).1 S400x32.size (by sl_kernel_rfl) y
/-- What a point of kind C leaves in output window 5's buffer. -/
def out1_C_5 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S400x32 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 x4 xs).1)

/-- The stores of a point of kind C into output window 6 tile its buffer. -/
theorem cover1_C_6 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S10000x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.1 S10000x32.size (by sl_kernel_rfl) y
/-- What a point of kind C leaves in output window 6's buffer. -/
def out1_C_6 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S10000x32 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 xs).2.1)

/-- The stores of a point of kind C into output window 7 tile its buffer. -/
theorem cover1_C_7 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S10000x32.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.2.1 S10000x32.size (by sl_kernel_rfl) y
/-- What a point of kind C leaves in output window 7's buffer. -/
def out1_C_7 (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S10000x32 .bf16 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 xs).2.2.1)

/-- The stores of a point of kind C into the accumulator tile it. -/
theorem scover1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) (y : S32x10000.Idx) :
    ∃ pc ∈ (kernelRun1_C c i arg1 harg1 arg2 harg2 arg3 harg3 arg4 harg4 arg5 harg5 arg6 harg6 arg7 harg7 arg8 harg8 arg9 harg9 hc0 hc1 x0 x1 x2 x3 x4 xs).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 xs).2.2.2.1 S32x10000.size (by sl_kernel_rfl) y
/-- What a point of kind C leaves in the accumulator. -/
def sout1_C (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) : Vec F S32x10000 .f32 :=
  VS1.read (Elt F) (VS1.writes (Elt F) VS1.junk (kernelRun1_C c i arg1 harg1 arg2 harg2 arg3 harg3 arg4 harg4 arg5 harg5 arg6 harg6 arg7 harg7 arg8 harg8 arg9 harg9 hc0 hc1 x0 x1 x2 x3 x4 xs).2.2.2.1)

/-- THE ACCUMULATION: what the output windows' buffers and the accumulator hold after the body at point `n`: the first
    point's run from an accumulator at anything, every later point's from what the point before left in it. -/
def outsAt1 (c : Dev nD) : (n : ℕ) → n < cfg1.N → Vec F S400x32 .f32 × Vec F S10000x32 .f32 × Vec F S10000x32 .bf16 × Vec F S32x10000 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      VO1_6.read (Elt F) VO1_6.junk,
      VO1_7.read (Elt F) VO1_7.junk,
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 24 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2,
      VO1_6.read (Elt F) VO1_6.junk,
      VO1_7.read (Elt F) VO1_7.junk,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2)

theorem outsAt1_A (c : Dev nD) (t : Fin cfg1.N) (h0 : t.val = 0) (h1 : ¬t.val = 24) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t),
      VO1_6.read (Elt F) VO1_6.junk,
      VO1_7.read (Elt F) VO1_7.junk,
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 24) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      VO1_6.read (Elt F) VO1_6.junk,
      VO1_7.read (Elt F) VO1_7.junk,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 24) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region's invariant before position `n`: before the first point every scoped buffer at anything; afterwards the
    accumulator at what the point before left in it, every other scoped buffer at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2.2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 16000000 in
/-- The body at any point: the closed forms say which kind the point is of; that kind's run applies; the invariant hands the
    body the accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val = 0
  · have h1 : ¬t.val = 24 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_A_5 sout1_A; (try dsimp only)
    rw [PhiS1_castSucc V c t, PhiS1_zero V c _ _ h0, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, ⟨%e5, H5⟩, H6, H7, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _ _ _ _ _ _)
    isplitl [H6]
    · iexists _; iexact H6
    iexists _; iexact H7
  · by_cases h1 : t.val = 24
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t ((hcond1_1 t).mpr h1)], after1_6]
      rw [show (dat1 V c).leavesExact 7 t = owns (c : Thread nD τ) (ms1_7 t) fullShare ((dat1 V c).after 7 t) from by
        unfold Dat.leavesExact; rw [liveAt1_7_C t ((hcond1_1 t).mpr h1)], after1_7]
      rw [outsAt1_C V c t h0 h1]
      unfold out1_C_5 out1_C_6 out1_C_7 sout1_C; (try dsimp only)
      rw [PhiS1_castSucc V c t, PhiS1_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2.2  Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, ⟨%e5, H5⟩, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_B_5 sout1_B; (try dsimp only)
      rw [PhiS1_castSucc V c t, PhiS1_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, ⟨%e5, H5⟩, H6, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _)
      isplitl [H6]
      · iexists _; iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]; · iexists _; iexact HS
    iexact Hrest
  iexact Hg

theorem hout1 (c : Dev nD) : (dat1 V c).Φ (Fin.last cfg1.N) ⊢ Pipeline.ΦA spec1 c :=
  Phi_out1 V c _ (by rw [Fin.val_last]; have : cfg1.N = 25 := N_1; omega)

end Region1

end Cert.KernelIdeal.Fr

end
-- ==== Proof.KiR2.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel region: every point reads a slab of 400 rows of the incidence matrix, the same rows of the
    node features, the whole hyperedge features, the weights and the bias, and writes the slab's 400 rows of the
    updated node features. Nothing is kept between points. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rr_S400x32 : Rect S400x32 := Rect.unit (s := S400x32) ![0, 0] S400x32.size inb_S400x32_S400x32_0_0
abbrev rr_S400x10000 : Rect S400x10000 := Rect.unit (s := S400x10000) ![0, 0] S400x10000.size inb_S400x10000_S400x10000_0_0
abbrev rr_S10000x32 : Rect S10000x32 := Rect.unit (s := S10000x32) ![0, 0] S10000x32.size inb_S10000x32_S10000x32_0_0
abbrev rr_S32x32 : Rect S32x32 := Rect.unit (s := S32x32) ![0, 0] S32x32.size inb_S32x32_S32x32_0_0
abbrev rr_S1x32 : Rect S1x32 := Rect.unit (s := S1x32) ![0, 0] S1x32.size inb_S1x32_S1x32_0_0
abbrev r2_0 : Rect S400x32 := rr_S400x32

/-- What the body leaves in the output window's buffer: its one store, of the body's arithmetic on the input blocks. -/
def out2_5 (x0 : Vec F S400x10000 .bf16) (x1 : Vec F S400x32 .f32) (x2 : Vec F S10000x32 .bf16) (x3 : Vec F S32x32 .f32) (x4 : Vec F S1x32 .f32) : Vec F S400x32 .f32 :=
  View.canon [⟨r2_0, k2_pay1 (View.ld x0 rr_S400x10000) (View.ld x2 rr_S10000x32) (View.ld x1 rr_S400x32) (View.ld x3 rr_S32x32) (View.ld x4 rr_S1x32)⟩]

theorem cover2_5 (p0 : Vec F S400x32 .f32) (y : S400x32.Idx) :
    ∃ pc ∈ ([⟨r2_0, p0⟩] : List (View.Piece (Elt F) S400x32 .f32)), y ∈ pc.1.set :=
  View.cover_of_tiled [⟨r2_0, p0⟩] S400x32.size (by rfl) y

set_option maxHeartbeats 4000000 in
/-- The body on whole staging buffers: the inputs are left as found, the output holds `out2_5` of them. -/
theorem sound_kernel2 (c : Dev nD) (E : Set ℕ) (i : grid2.Coords)
    (arg1 : Memref sig .tc .vmem S400x10000 .bf16) (harg1 : arg1.IsWhole) (arg2 : Memref sig .tc .vmem S400x32 .f32) (harg2 : arg2.IsWhole)
    (arg3 : Memref sig .tc .vmem S10000x32 .bf16) (harg3 : arg3.IsWhole) (arg4 : Memref sig .tc .vmem S32x32 .f32) (harg4 : arg4.IsWhole)
    (arg5 : Memref sig .tc .vmem S1x32 .f32) (harg5 : arg5.IsWhole) (arg6 : Memref sig .tc .vmem S400x32 .f32) (harg6 : arg6.IsWhole)
    (x0 : Vec F S400x10000 .bf16) (x1 : Vec F S400x32 .f32) (x2 : Vec F S10000x32 .bf16) (x3 : Vec F S32x32 .f32) (x4 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__pass3_kernel i arg1 harg1 arg2 harg2 arg3 harg3 arg4 harg4 arg5 harg5 arg6 harg6) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 (F := F) _)

/-- The proof data of the third region on core `c`: the arrays as the region finds them; after the body each input's
    buffer at its block and the output's at `out2_5` of the input blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KiRun.lean ====
import proofs.«149919_g68453188763984_cont_9to1_m_933_13_alg».proof.Proof.KiR0
import proofs.«149919_g68453188763984_cont_9to1_m_933_13_alg».proof.Proof.KiR1
import proofs.«149919_g68453188763984_cont_9to1_m_933_13_alg».proof.Proof.KiR2
import proofs.«149919_g68453188763984_cont_9to1_m_933_13_alg».proof.Proof.Gen.KernelIdeal.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program through its three regions

The program is three stretches of host operations, each followed by a kernel region. The buffer contents at each
boundary are a fold from the launch memory: a stretch of host operations leaves what its operations compute; a
region leaves its arrays at what its write-backs fold to and every other buffer as it found it. -/

/-- Core `c`'s buffers at launch. -/
abbrev W0 (ρ : Dev nD → PrngReg) : Dev nD → Valuation τ sig (Elt F) := fun c b => m (c, b)

/-- After the host operations before region 0 (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host operations before region 0 do not write is as before them. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- After the host operations before region 1 (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host operations before region 1 do not write is as before them. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- After the host operations before region 2 (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host operations before region 2 do not write is as before them. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-! ## The arguments end as launched: no host operation writes one and no region writes one (a region reads an
    argument through an input window or not at all) -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- The last region's output array ends at what that region's write-backs fold to. -/
theorem W6_main_v8 (c : Dev nD) : W6 m ρ c (Proc.devRef .tc main_v8) = (dat2 (V5 m ρ) c).arrAt 5 cfg2.N :=
  W6_arr m ρ c 5

/-- The second region's second output array is written by nothing after that region. -/
theorem W6_main_v6_1 (c : Dev nD) : W6 m ρ c (Proc.devRef .tc main_v6_1) = (dat1 (V3 m ρ) c).arrAt 6 cfg1.N :=
  calc W6 m ρ c (Proc.devRef .tc main_v6_1)
    _ = W5 m ρ c (Proc.devRef .tc main_v6_1) := W6_of_ne m ρ c main_v6_1 (by decide)
    _ = W4 m ρ c (Proc.devRef .tc main_v6_1) := W5_of m ρ c main_v6_1 (by decide)
    _ = (dat1 (V3 m ρ) c).arrAt 6 cfg1.N := W4_arr m ρ c 6

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays
    are split out of the unscoped buffers at entry and put back at the exit contents; the generator register goes into
    the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (fun w => A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers at entry and put back at the exit contents; the generator register goes into
    the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (fun w => A_eq1 (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays
    are split out of the unscoped buffers at entry and put back at the exit contents; the generator register goes into
    the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (fun w => A_eq2 (V5 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: a host segment per stretch from its boundary's contents, a region per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters, every weakly fair execution of the program on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Fr

end
-- ==== Proof.KiFrame.lean ====
import proofs.«149919_g68453188763984_cont_9to1_m_933_13_alg».proof.Proof.KiRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The frame: from any memory with zero counters, every weakly fair execution of the program on the TensorCores
    terminates, nothing faulting, and every final state holds each argument array at its launch contents: each
    argument is an unscoped buffer, and the last boundary's contents at it are the launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.KernelIdeal.Fr

end
-- ==== Proof.KiFold.lean ====
import proofs.«149919_g68453188763984_cont_9to1_m_933_13_alg».proof.Proof.KiRun
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable {F : FTy → Type} [FloatOps F]

variable (m : (ℓ : Loc nD τ sig) → Buf (Elt F) ℓ) (ρ : Dev nD → PrngReg)

/-! # What each region's arrays hold when the region is entered

Read back through the fold of the buffer contents: an argument holds its launch contents; a transposed weight
matrix and a bias cast to one row hold the host operation's value of the argument; an array a previous region
wrote holds what that region's write-backs fold to, and a region leaves the arrays it only reads as it found them. -/

/-! ## Arguments the host operations read, before the stretch that reads them -/

theorem W2_main_arg4 (c : Dev nD) : W2 m ρ c (Proc.devRef .tc main_arg4) = m ((c : Thread nD τ).loc main_arg4) :=
  (W2_of_ne m ρ c main_arg4 (by decide)).trans ((W1_of m ρ c main_arg4 (by decide)).trans rfl)

theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <|
    (W2_of_ne m ρ c main_arg6 (by decide)).trans <| (W1_of m ρ c main_arg6 (by decide)).trans rfl

/-! ## Region 0's entry -/

theorem V1_main_arg0 (c : Dev nD) : V1 m ρ c main_arg0 = m ((c : Thread nD τ).loc main_arg0) :=
  (W1_of m ρ c main_arg0 (by decide)).trans rfl

theorem V1_main_arg1 (c : Dev nD) : V1 m ρ c main_arg1 = m ((c : Thread nD τ).loc main_arg1) :=
  (W1_of m ρ c main_arg1 (by decide)).trans rfl

/-- The first weight matrix, transposed by the host. -/
theorem V1_main_v3 (c : Dev nD) :
    (V1 m ρ c main_v3 : (⟨S128x32, .f32⟩ : BufTy).Contents (Elt F))
      = transpose S128x32 [1, 0] (m ((c : Thread nD τ).loc main_arg2) : (⟨S32x128, .f32⟩ : BufTy).Contents (Elt F)) transposes_S32x128_S128x32_1_0 := by
  show StableHlo.after hostOps0 (fun b => m (c, b)) (Proc.devRef .tc main_v3) = _
  dsimp only [hostOps0]
  after_results

/-- The first bias, cast to one row by the host. -/
theorem V1_main_v0 (c : Dev nD) :
    (V1 m ρ c main_v0 : (⟨S1x32, .f32⟩ : BufTy).Contents (Elt F))
      = shapeCast S1x32 (m ((c : Thread nD τ).loc main_arg3) : (⟨S32, .f32⟩ : BufTy).Contents (Elt F)) shapeCasts_S32_S1x32 := by
  show StableHlo.after hostOps0 (fun b => m (c, b)) (Proc.devRef .tc main_v0) = _
  dsimp only [hostOps0]
  after_results
  rfl

/-- The second bias, cast to one row by the host (read by region 1). -/
theorem V1_main_v1 (c : Dev nD) :
    (V1 m ρ c main_v1 : (⟨S1x32, .f32⟩ : BufTy).Contents (Elt F))
      = shapeCast S1x32 (m ((c : Thread nD τ).loc main_arg5) : (⟨S32, .f32⟩ : BufTy).Contents (Elt F)) shapeCasts_S32_S1x32 := by
  show StableHlo.after hostOps0 (fun b => m (c, b)) (Proc.devRef .tc main_v1) = _
  dsimp only [hostOps0]
  after_results
  rfl

/-- The third bias, cast to one row by the host (read by region 2). -/
theorem V1_main_v2 (c : Dev nD) :
    (V1 m ρ c main_v2 : (⟨S1x32, .f32⟩ : BufTy).Contents (Elt F))
      = shapeCast S1x32 (m ((c : Thread nD τ).loc main_arg7) : (⟨S32, .f32⟩ : BufTy).Contents (Elt F)) shapeCasts_S32_S1x32 := by
  show StableHlo.after hostOps0 (fun b => m (c, b)) (Proc.devRef .tc main_v2) = _
  dsimp only [hostOps0]
  after_results
  rfl

/-! ## Region 1's entry -/

theorem V3_main_v4_0 (c : Dev nD) : V3 m ρ c main_v4_0 = (dat0 (V1 m ρ) c).arrAt 4 cfg0.N :=
  (W3_of m ρ c main_v4_0 (by decide)).trans (W2_arr m ρ c 4)

theorem V3_main_v4_1 (c : Dev nD) : V3 m ρ c main_v4_1 = (dat0 (V1 m ρ) c).arrAt 5 cfg0.N :=
  (W3_of m ρ c main_v4_1 (by decide)).trans (W2_arr m ρ c 5)

theorem V3_main_v4_2 (c : Dev nD) : V3 m ρ c main_v4_2 = (dat0 (V1 m ρ) c).arrAt 6 cfg0.N :=
  (W3_of m ρ c main_v4_2 (by decide)).trans (W2_arr m ρ c 6)

/-- The second weight matrix, transposed by the host. -/
theorem V3_main_v5 (c : Dev nD) :
    (V3 m ρ c main_v5 : (⟨S32x32, .f32⟩ : BufTy).Contents (Elt F))
      = transpose S32x32 [1, 0] (m ((c : Thread nD τ).loc main_arg4) : (⟨S32x32, .f32⟩ : BufTy).Contents (Elt F)) transposes_S32x32_S32x32_1_0 := by
  have e : (V3 m ρ c main_v5 : (⟨S32x32, .f32⟩ : BufTy).Contents (Elt F))
      = transpose S32x32 [1, 0] (W2 m ρ c (Proc.devRef .tc main_arg4) : (⟨S32x32, .f32⟩ : BufTy).Contents (Elt F)) transposes_S32x32_S32x32_1_0 := by
    show StableHlo.after hostOps1 (W2 m ρ c) (Proc.devRef .tc main_v5) = _
    dsimp only [hostOps1]
    after_results
  rw [e, W2_main_arg4]

theorem V3_main_v1 (c : Dev nD) :
    (V3 m ρ c main_v1 : (⟨S1x32, .f32⟩ : BufTy).Contents (Elt F))
      = shapeCast S1x32 (m ((c : Thread nD τ).loc main_arg5) : (⟨S32, .f32⟩ : BufTy).Contents (Elt F)) shapeCasts_S32_S1x32 :=
  (W3_of m ρ c main_v1 (by decide)).trans <| (W2_of_ne m ρ c main_v1 (by decide)).trans (V1_main_v1 m ρ c)

/-! ## Region 2's entry -/

/-- Region 1 only reads the incidence matrix's low-precision copy: it is as region 0 left it. -/
theorem V5_main_v4_1 (c : Dev nD) : V5 m ρ c main_v4_1 = (dat0 (V1 m ρ) c).arrAt 5 cfg0.N :=
  (W5_of m ρ c main_v4_1 (by decide)).trans <| (W4_arr m ρ c 0).trans <|
    ((dat1 (V3 m ρ) c).arrAt_in 0 rfl _).trans <| (A_eq1 (V3 m ρ) c 0).trans (V3_main_v4_1 m ρ c)

theorem V5_main_v6_0 (c : Dev nD) : V5 m ρ c main_v6_0 = (dat1 (V3 m ρ) c).arrAt 5 cfg1.N :=
  (W5_of m ρ c main_v6_0 (by decide)).trans (W4_arr m ρ c 5)

theorem V5_main_v6_2 (c : Dev nD) : V5 m ρ c main_v6_2 = (dat1 (V3 m ρ) c).arrAt 7 cfg1.N :=
  (W5_of m ρ c main_v6_2 (by decide)).trans (W4_arr m ρ c 7)

/-- The third weight matrix, transposed by the host. -/
theorem V5_main_v7 (c : Dev nD) :
    (V5 m ρ c main_v7 : (⟨S32x32, .f32⟩ : BufTy).Contents (Elt F))
      = transpose S32x32 [1, 0] (m ((c : Thread nD τ).loc main_arg6) : (⟨S32x32, .f32⟩ : BufTy).Contents (Elt F)) transposes_S32x32_S32x32_1_0 := by
  have e : (V5 m ρ c main_v7 : (⟨S32x32, .f32⟩ : BufTy).Contents (Elt F))
      = transpose S32x32 [1, 0] (W4 m ρ c (Proc.devRef .tc main_arg6) : (⟨S32x32, .f32⟩ : BufTy).Contents (Elt F)) transposes_S32x32_S32x32_1_0 := by
    show StableHlo.after hostOps2 (W4 m ρ c) (Proc.devRef .tc main_v7) = _
    dsimp only [hostOps2]
    after_results
  rw [e, W4_main_arg6]

theorem V5_main_v2 (c : Dev nD) :
    (V5 m ρ c main_v2 : (⟨S1x32, .f32⟩ : BufTy).Contents (Elt F))
      = shapeCast S1x32 (m ((c : Thread nD τ).loc main_arg7) : (⟨S32, .f32⟩ : BufTy).Contents (Elt F)) shapeCasts_S32_S1x32 :=
  (W5_of m ρ c main_v2 (by decide)).trans <| (W4_of_ne m ρ c main_v2 (by decide)).trans <|
    (W3_of m ρ c main_v2 (by decide)).trans <| (W2_of_ne m ρ c main_v2 (by decide)).trans (V1_main_v2 m ρ c)

/-! ## The host operations' values read at an entry -/

section Layout

open Idealize.ShloMosaic.ValueIdx

/-- The transposed first weight matrix at (k, h) is the matrix at (h, k). -/
theorem transpose_S128x32_at {α : Type} (w : S32x128.Idx → α) (k : Fin 128) (h : Fin 32) :
    transpose S128x32 [1, 0] w transposes_S32x128_S128x32_1_0 (ix2 k h) = w (ix2 h k) :=
  transpose_ix2_apply w transposes_S32x128_S128x32_1_0 k h

/-- A transposed square weight matrix at (k, h) is the matrix at (h, k). -/
theorem transpose_S32x32_at {α : Type} (w : S32x32.Idx → α) (k h : Fin 32) :
    transpose S32x32 [1, 0] w transposes_S32x32_S32x32_1_0 (ix2 k h) = w (ix2 h k) :=
  transpose_ix2_apply w transposes_S32x32_S32x32_1_0 k h

/-- A bias cast to one row reads, at (0, h), the bias at h. -/
theorem castRow_S1x32_at {α : Type} (b : S32.Idx → α) (u : Fin 1) (h : Fin 32) :
    shapeCast S1x32 b shapeCasts_S32_S1x32 (ix2 u h) = b (ix1 h) :=
  shapeCast_a_1a_apply b shapeCasts_S32_S1x32 u h

end Layout

end Cert.KernelIdeal.Fr

end
-- ==== Proof.KiR0v.lean ====
/-
  Region 0 of the kernel: what each kind of grid point leaves in each buffer it stores into, as a function of the
  blocks it was given. A first point leaves the dense layer of its blocks, the incidence block rounded, and the
  accumulator's update from zero; a middle point the same with the update taken from what the accumulator held; the
  last point also leaves the updated accumulator transposed. Every load and store of the body is of a whole buffer, so a
  load reads the buffer's contents, a load after a store reads the stored value, and the last store leaves its value.
-/
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region0v

/-- The zero offsets of a whole-buffer rectangle, however they are spelt. -/
theorem hz2 : (![0, 0] : Fin 2 → Nat) = fun _ => 0 := funext fun a => by fin_cases a <;> rfl

/-! ## Region 0: what each kind of grid point leaves, as the payloads of the input blocks

Every load and every store of the body is of a whole buffer, so a load reads the buffer's contents and the last store into a
buffer leaves its payload. -/

/-- A first point leaves the dense layer of its blocks in output window 4's buffer. -/
theorem out0_A_4_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) :
    out0_A_4 c i arg1 harg1 arg2 harg2 arg3 harg3 arg4 harg4 arg5 harg5 arg6 harg6 arg7 harg7 arg8 harg8 hc0 hc1 x0 x1 x2 x3 = k0_pay1 x0 x2 x3 := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- A first point leaves the incidence block, rounded, in output window 5's buffer. -/
theorem out0_A_5_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) :
    out0_A_5 c i arg1 harg1 arg2 harg2 arg3 harg3 arg4 harg4 arg5 harg5 arg6 harg6 arg7 harg7 arg8 harg8 hc0 hc1 x0 x1 x2 x3 = k0_pay2 x1 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- A first point clears the accumulator, reads it back, and leaves its update from zero: the stored incidence block is
    read back after its store. -/
theorem sout0_A_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : cond0_0 i) (hc1 : ¬cond0_1 i) (x0 : Vec F S200x128 .f32) (x1 : Vec F S200x10000 .f32) (x2 : Vec F S128x32 .f32) (x3 : Vec F S1x32 .f32) :
    sout0_A c i arg1 harg1 arg2 harg2 arg3 harg3 arg4 harg4 arg5 harg5 arg6 harg6 arg7 harg7 arg8 harg8 hc0 hc1 x0 x1 x2 x3 = k0_pay4 x0 x2 x3 k0_pay3 (k0_pay2 x1) := by
  unfold sout0_A
  rw [View.read_writes_eq_canon _ _ _ (scover0_A c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x10000) hz2, View.readCov_unit_zero (S := S32x10000) _ hz2,
    View.readCov_unit_zero (S := S200x10000) _ hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- A middle point leaves the dense layer of its blocks in output window 4's buffer. -/
theorem out0_B_4_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) :
    out0_B_4 c i arg1 harg1 arg2 harg2 arg3 harg3 arg4 harg4 arg5 harg5 arg6 harg6 arg7 harg7 arg8 harg8 hc0 hc1 x0 x1 x2 x3 xs = k0_pay1 x0 x2 x3 := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- A middle point leaves the incidence block, rounded, in output window 5's buffer. -/
theorem out0_B_5_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) :
    out0_B_5 c i arg1 harg1 arg2 harg2 arg3 harg3 arg4 harg4 arg5 harg5 arg6 harg6 arg7 harg7 arg8 harg8 hc0 hc1 x0 x1 x2 x3 xs = k0_pay2 x1 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- A middle point leaves the accumulator's update from what it found there. -/
theorem sout0_B_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : ¬cond0_1 i) (x0 : Vec F S200x128 .f32) (x1 : Vec F S200x10000 .f32) (x2 : Vec F S128x32 .f32) (x3 : Vec F S1x32 .f32) (xs : Vec F S32x10000 .f32) :
    sout0_B c i arg1 harg1 arg2 harg2 arg3 harg3 arg4 harg4 arg5 harg5 arg6 harg6 arg7 harg7 arg8 harg8 hc0 hc1 x0 x1 x2 x3 xs = k0_pay4 x0 x2 x3 xs (k0_pay2 x1) := by
  unfold sout0_B
  rw [View.read_writes_eq_canon _ _ _ (scover0_B c i arg1 harg1 arg2 harg2 arg3 harg3 arg4 harg4 arg5 harg5 arg6 harg6 arg7 harg7 arg8 harg8 hc0 hc1 x0 x1 x2 x3 xs)]
  unfold kernelRun0_B
  dsimp only
  sl_unfold_words
  rw [View.canon_unit_zero hz2, View.readCov_unit_zero (S := S200x10000) _ hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- The last point leaves the dense layer of its blocks in output window 4's buffer. -/
theorem out0_C_4_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) :
    out0_C_4 c i arg1 harg1 arg2 harg2 arg3 harg3 arg4 harg4 arg5 harg5 arg6 harg6 arg7 harg7 arg8 harg8 hc0 hc1 x0 x1 x2 x3 xs = k0_pay1 x0 x2 x3 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs)]
  unfold kernelRun0_C
  dsimp only
  sl_unfold_words
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- The last point leaves the incidence block, rounded, in output window 5's buffer. -/
theorem out0_C_5_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) :
    out0_C_5 c i arg1 harg1 arg2 harg2 arg3 harg3 arg4 harg4 arg5 harg5 arg6 harg6 arg7 harg7 arg8 harg8 hc0 hc1 x0 x1 x2 x3 xs = k0_pay2 x1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs)]
  unfold kernelRun0_C
  dsimp only
  sl_unfold_words
  rw [View.canon_unit_zero hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- The last point leaves the accumulator's update from what it found there. -/
theorem sout0_C_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) :
    sout0_C c i arg1 harg1 arg2 harg2 arg3 harg3 arg4 harg4 arg5 harg5 arg6 harg6 arg7 harg7 arg8 harg8 hc0 hc1 x0 x1 x2 x3 xs = k0_pay4 x0 x2 x3 xs (k0_pay2 x1) := by
  unfold sout0_C
  rw [View.read_writes_eq_canon _ _ _ (scover0_C c i arg1 harg1 arg2 harg2 arg3 harg3 arg4 harg4 arg5 harg5 arg6 harg6 arg7 harg7 arg8 harg8 hc0 hc1 x0 x1 x2 x3 xs)]
  unfold kernelRun0_C
  dsimp only
  sl_unfold_words
  rw [View.canon_unit_zero hz2, View.readCov_unit_zero (S := S200x10000) _ hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

/-- The last point reads the updated accumulator back and leaves its transpose, rounded, in output window 6's buffer. -/
theorem out0_C_6_eq (c : Dev nD) (i : grid0.Coords) (arg1 : Memref sig .tc .vmem S200x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S200x32 .f32) (harg5 : arg5.IsWhole) (arg6 : Memref sig .tc .vmem S200x10000 .bf16) (harg6 : arg6.IsWhole) (arg7 : Memref sig .tc .vmem S10000x32 .bf16) (harg7 : arg7.IsWhole) (arg8 : Memref sig .tc .vmem S32x10000 .f32) (harg8 : arg8.IsWhole) (hc0 : ¬cond0_0 i) (hc1 : cond0_1 i) (x0 : Vec F S200x128 .f32) (x1 : Vec F S200x10000 .f32) (x2 : Vec F S128x32 .f32) (x3 : Vec F S1x32 .f32) (xs : Vec F S32x10000 .f32) :
    out0_C_6 c i arg1 harg1 arg2 harg2 arg3 harg3 arg4 harg4 arg5 harg5 arg6 harg6 arg7 harg7 arg8 harg8 hc0 hc1 x0 x1 x2 x3 xs = k0_pay5 (k0_pay4 x0 x2 x3 xs (k0_pay2 x1)) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 xs)]
  unfold kernelRun0_C
  dsimp only
  sl_unfold_words
  rw [View.canon_unit_zero hz2, View.readCov_unit_zero (S := S32x10000) _ hz2, View.readCov_unit_zero (S := S200x10000) _ hz2]
  simp only [View.readAt_eq_ld, harg1.read_unread, harg2.read_unread, harg3.read_unread, harg4.read_unread, harg8.read_unread, View.ld_unit_zero (S := S200x128) hz2, View.ld_unit_zero (S := S128x32) hz2, View.ld_unit_zero (S := S1x32) hz2, View.ld_unit_zero (S := S200x10000) hz2, View.ld_unit_zero (S := S32x10000) hz2, View.ld_unit_zero (S := S10000x32) hz2, View.ld_unit_zero (S := S200x32) hz2]

end Region0v

end Cert.KernelIdeal.Fr

end
-- ==== Proof.KiStr0.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0v
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 point by point, in the body's own arithmetic: the slab's dense layer, the copied slab of the incidence
    matrix, the accumulator's recurrence, and the transposed accumulator written at the last point. -/

section Region0

variable (V : (c : Dev nD) → (b : Ref sig .tc) → Buf (Elt F) ((c : Thread nD τ).loc b))

theorem o0_4 (c : Dev nD) (t : Fin cfg0.N) :
    (outsAt0 V c t.val t.isLt).1 = k0_pay1 (iblk0 V c 0 t) (iblk0 V c 2 t) (iblk0 V c 3 t) := by
  have hN : t.val < 50 := lt_of_lt_of_eq t.isLt (show cfg0.N = 50 from N_0)
  by_cases h0 : t.val = 0
  · have h1 : ¬t.val = 49 := by omega
    rw [outsAt0_A V c t h0 h1]; dsimp only; exact out0_A_4_eq ..
  · by_cases h1 : t.val = 49
    · rw [outsAt0_C V c t h0 h1]; dsimp only; exact out0_C_4_eq ..
    · rw [outsAt0_B V c t h0 h1]; dsimp only; exact out0_B_4_eq ..

theorem o0_5 (c : Dev nD) (t : Fin cfg0.N) :
    (outsAt0 V c t.val t.isLt).2.1 = k0_pay2 (iblk0 V c 1 t) := by
  have hN : t.val < 50 := lt_of_lt_of_eq t.isLt (show cfg0.N = 50 from N_0)
  by_cases h0 : t.val = 0
  · have h1 : ¬t.val = 49 := by omega
    rw [outsAt0_A V c t h0 h1]; dsimp only; exact out0_A_5_eq ..
  · by_cases h1 : t.val = 49
    · rw [outsAt0_C V c t h0 h1]; dsimp only; exact out0_C_5_eq ..
    · rw [outsAt0_B V c t h0 h1]; dsimp only; exact out0_B_5_eq ..

/-- The accumulator after the first point: cleared, then the first slab's contribution added. -/
theorem acc0_first (c : Dev nD) (t : Fin cfg0.N) (h0 : t.val = 0) :
    (outsAt0 V c t.val t.isLt).2.2.2 = k0_pay4 (iblk0 V c 0 t) (iblk0 V c 2 t) (iblk0 V c 3 t) k0_pay3 (k0_pay2 (iblk0 V c 1 t)) := by
  have hN : t.val < 50 := lt_of_lt_of_eq t.isLt (show cfg0.N = 50 from N_0)
  have h1 : ¬t.val = 49 := by omega
  rw [outsAt0_A V c t h0 h1]; dsimp only; exact sout0_A_eq ..

/-- The accumulator after a later point: what the point before left, with this slab's contribution added. -/
theorem acc0_next (c : Dev nD) (t : Fin cfg0.N) (h0 : ¬t.val = 0) :
    (outsAt0 V c t.val t.isLt).2.2.2 = k0_pay4 (iblk0 V c 0 t) (iblk0 V c 2 t) (iblk0 V c 3 t)
      (outsAt0 V c (t.val - 1) (Nat.lt_of_le_of_lt (Nat.sub_le _ _) t.isLt)).2.2.2 (k0_pay2 (iblk0 V c 1 t)) := by
  by_cases h1 : t.val = 49
  · rw [outsAt0_C V c t h0 h1]; dsimp only; exact sout0_C_eq ..
  · rw [outsAt0_B V c t h0 h1]; dsimp only; exact sout0_B_eq ..

/-- At the last point the third output window receives the accumulator, transposed. -/
theorem o0_6 (c : Dev nD) (t : Fin cfg0.N) (h1 : t.val = 49) :
    (outsAt0 V c t.val t.isLt).2.2.1 = k0_pay5 (outsAt0 V c t.val t.isLt).2.2.2 := by
  have h0 : ¬t.val = 0 := by omega
  rw [outsAt0_C V c t h0 h1]; dsimp only
  rw [out0_C_6_eq, sout0_C_eq]

end Region0

end Cert.KernelIdeal.Fr

end
-- ==== Proof.KiBlk.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR0a
import proofs.«149919_g68453188763984_cont_9to1_m_933_13_alg».proof.Proof.KiR1a
import proofs.«149919_g68453188763984_cont_9to1_m_933_13_alg».proof.Proof.KiR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The input windows' blocks as entries of their arrays

    A slab window's block at point t is rows (slab height)·t … of its array; a window with a constant index map
    holds the whole array at every point. -/

section Blocks

variable (V : (c : Dev nD) → (b : Ref sig .tc) → Buf (Elt F) ((c : Thread nD τ).loc b))

/-- Row r of the slab of grid point t, as a row of the whole array. -/
def row0 (t : Fin cfg0.N) (r : Fin 200) : Fin 10000 := ⟨200 * t.val + r.val, by have := t.isLt; have hN : cfg0.N = 50 := N_0; have := r.isLt; omega⟩
def row1 (t : Fin cfg1.N) (r : Fin 400) : Fin 10000 := ⟨400 * t.val + r.val, by have := t.isLt; have hN : cfg1.N = 25 := N_1; have := r.isLt; omega⟩
def row2 (t : Fin cfg2.N) (r : Fin 400) : Fin 10000 := ⟨400 * t.val + r.val, by have := t.isLt; have hN : cfg2.N = 25 := N_2; have := r.isLt; omega⟩

theorem iblk0_0_apply (c : Dev nD) (t : Fin cfg0.N) (r : Fin 200) (k : Fin 128) :
    (iblk0 V c 0 t : Vec F S200x128 .f32) (ix2 r k) = (V c main_arg0 : S10000x128.Idx → Elt F .f32) (ix2 (row0 t r) k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_arg0 _ = V c main_arg0 _
  refine congrArg _ ?_
  funext a; apply Fin.ext
  match a with
  | ⟨0, _⟩ => show win0_0.index t 0 * 200 + 1 * r.val = 200 * t.val + r.val; rw [hi.1]; omega
  | ⟨1, _⟩ => show win0_0.index t 1 * 128 + 1 * k.val = k.val; rw [hi.2]; omega

theorem iblk0_1_apply (c : Dev nD) (t : Fin cfg0.N) (r : Fin 200) (k : Fin 10000) :
    (iblk0 V c 1 t : Vec F S200x10000 .f32) (ix2 r k) = (V c main_arg1 : S10000x10000.Idx → Elt F .f32) (ix2 (row0 t r) k) := by
  have hi : win0_1.index t 0 = t.val ∧ win0_1.index t 1 = 0 :=
    (by decide +kernel : ∀ t : Fin grid0.N, win0_1.index t 0 = t.val ∧ win0_1.index t 1 = 0) t
  unfold iblk0
  rw [View.read_apply]
  show V c main_arg1 _ = V c main_arg1 _
  refine congrArg _ ?_
  funext a; apply Fin.ext
  match a with
  | ⟨0, _⟩ => show win0_1.index t 0 * 200 + 1 * r.val = 200 * t.val + r.val; rw [hi.1]; omega
  | ⟨1, _⟩ => show win0_1.index t 1 * 10000 + 1 * k.val = k.val; rw [hi.2]; omega

theorem iblk0_2_apply (c : Dev nD) (t : Fin cfg0.N) (r : Fin 128) (k : Fin 32) :
    (iblk0 V c 2 t : Vec F S128x32 .f32) (ix2 r k) = (V c main_v3 : S128x32.Idx → Elt F .f32) (ix2 r k) := by
  have hi : win0_2.index t 0 = 0 ∧ win0_2.index t 1 = 0 :=
    (by decide +kernel : ∀ t : Fin grid0.N, win0_2.index t 0 = 0 ∧ win0_2.index t 1 = 0) t
  unfold iblk0
  rw [View.read_apply]
  show V c main_v3 _ = V c main_v3 _
  refine congrArg _ ?_
  funext a; apply Fin.ext
  match a with
  | ⟨0, _⟩ => show win0_2.index t 0 * 128 + 1 * r.val = r.val; rw [hi.1]; omega
  | ⟨1, _⟩ => show win0_2.index t 1 * 32 + 1 * k.val = k.val; rw [hi.2]; omega

theorem iblk0_3_apply (c : Dev nD) (t : Fin cfg0.N) (r : Fin 1) (k : Fin 32) :
    (iblk0 V c 3 t : Vec F S1x32 .f32) (ix2 r k) = (V c main_v0 : S1x32.Idx → Elt F .f32) (ix2 r k) := by
  have hi : win0_3.index t 0 = 0 ∧ win0_3.index t 1 = 0 :=
    (by decide +kernel : ∀ t : Fin grid0.N, win0_3.index t 0 = 0 ∧ win0_3.index t 1 = 0) t
  unfold iblk0
  rw [View.read_apply]
  show V c main_v0 _ = V c main_v0 _
  refine congrArg _ ?_
  funext a; apply Fin.ext
  match a with
  | ⟨0, _⟩ => show win0_3.index t 0 * 1 + 1 * r.val = r.val; rw [hi.1]; omega
  | ⟨1, _⟩ => show win0_3.index t 1 * 32 + 1 * k.val = k.val; rw [hi.2]; omega

theorem iblk1_0_apply (c : Dev nD) (t : Fin cfg1.N) (r : Fin 400) (k : Fin 10000) :
    (iblk1 V c 0 t : Vec F S400x10000 .bf16) (ix2 r k) = (V c main_v4_1 : S10000x10000.Idx → Elt F .bf16) (ix2 (row1 t r) k) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v4_1 _ = V c main_v4_1 _
  refine congrArg _ ?_
  funext a; apply Fin.ext
  match a with
  | ⟨0, _⟩ => show win1_0.index t 0 * 400 + 1 * r.val = 400 * t.val + r.val; rw [hi.1]; omega
  | ⟨1, _⟩ => show win1_0.index t 1 * 10000 + 1 * k.val = k.val; rw [hi.2]; omega

theorem iblk1_1_apply (c : Dev nD) (t : Fin cfg1.N) (r : Fin 400) (k : Fin 32) :
    (iblk1 V c 1 t : Vec F S400x32 .f32) (ix2 r k) = (V c main_v4_0 : S10000x32.Idx → Elt F .f32) (ix2 (row1 t r) k) := by
  have hi : win1_1.index t 0 = t.val ∧ win1_1.index t 1 = 0 :=
    (by decide +kernel : ∀ t : Fin grid1.N, win1_1.index t 0 = t.val ∧ win1_1.index t 1 = 0) t
  unfold iblk1
  rw [View.read_apply]
  show V c main_v4_0 _ = V c main_v4_0 _
  refine congrArg _ ?_
  funext a; apply Fin.ext
  match a with
  | ⟨0, _⟩ => show win1_1.index t 0 * 400 + 1 * r.val = 400 * t.val + r.val; rw [hi.1]; omega
  | ⟨1, _⟩ => show win1_1.index t 1 * 32 + 1 * k.val = k.val; rw [hi.2]; omega

theorem iblk1_2_apply (c : Dev nD) (t : Fin cfg1.N) (r : Fin 10000) (k : Fin 32) :
    (iblk1 V c 2 t : Vec F S10000x32 .bf16) (ix2 r k) = (V c main_v4_2 : S10000x32.Idx → Elt F .bf16) (ix2 r k) := by
  have hi : win1_2.index t 0 = 0 ∧ win1_2.index t 1 = 0 :=
    (by decide +kernel : ∀ t : Fin grid1.N, win1_2.index t 0 = 0 ∧ win1_2.index t 1 = 0) t
  unfold iblk1
  rw [View.read_apply]
  show V c main_v4_2 _ = V c main_v4_2 _
  refine congrArg _ ?_
  funext a; apply Fin.ext
  match a with
  | ⟨0, _⟩ => show win1_2.index t 0 * 10000 + 1 * r.val = r.val; rw [hi.1]; omega
  | ⟨1, _⟩ => show win1_2.index t 1 * 32 + 1 * k.val = k.val; rw [hi.2]; omega

theorem iblk1_3_apply (c : Dev nD) (t : Fin cfg1.N) (r : Fin 32) (k : Fin 32) :
    (iblk1 V c 3 t : Vec F S32x32 .f32) (ix2 r k) = (V c main_v5 : S32x32.Idx → Elt F .f32) (ix2 r k) := by
  have hi : win1_3.index t 0 = 0 ∧ win1_3.index t 1 = 0 :=
    (by decide +kernel : ∀ t : Fin grid1.N, win1_3.index t 0 = 0 ∧ win1_3.index t 1 = 0) t
  unfold iblk1
  rw [View.read_apply]
  show V c main_v5 _ = V c main_v5 _
  refine congrArg _ ?_
  funext a; apply Fin.ext
  match a with
  | ⟨0, _⟩ => show win1_3.index t 0 * 32 + 1 * r.val = r.val; rw [hi.1]; omega
  | ⟨1, _⟩ => show win1_3.index t 1 * 32 + 1 * k.val = k.val; rw [hi.2]; omega

theorem iblk1_4_apply (c : Dev nD) (t : Fin cfg1.N) (r : Fin 1) (k : Fin 32) :
    (iblk1 V c 4 t : Vec F S1x32 .f32) (ix2 r k) = (V c main_v1 : S1x32.Idx → Elt F .f32) (ix2 r k) := by
  have hi : win1_4.index t 0 = 0 ∧ win1_4.index t 1 = 0 :=
    (by decide +kernel : ∀ t : Fin grid1.N, win1_4.index t 0 = 0 ∧ win1_4.index t 1 = 0) t
  unfold iblk1
  rw [View.read_apply]
  show V c main_v1 _ = V c main_v1 _
  refine congrArg _ ?_
  funext a; apply Fin.ext
  match a with
  | ⟨0, _⟩ => show win1_4.index t 0 * 1 + 1 * r.val = r.val; rw [hi.1]; omega
  | ⟨1, _⟩ => show win1_4.index t 1 * 32 + 1 * k.val = k.val; rw [hi.2]; omega

theorem iblk2_0_apply (c : Dev nD) (t : Fin cfg2.N) (r : Fin 400) (k : Fin 10000) :
    (iblk2 V c 0 t : Vec F S400x10000 .bf16) (ix2 r k) = (V c main_v4_1 : S10000x10000.Idx → Elt F .bf16) (ix2 (row2 t r) k) := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v4_1 _ = V c main_v4_1 _
  refine congrArg _ ?_
  funext a; apply Fin.ext
  match a with
  | ⟨0, _⟩ => show win2_0.index t 0 * 400 + 1 * r.val = 400 * t.val + r.val; rw [hi.1]; omega
  | ⟨1, _⟩ => show win2_0.index t 1 * 10000 + 1 * k.val = k.val; rw [hi.2]; omega

theorem iblk2_1_apply (c : Dev nD) (t : Fin cfg2.N) (r : Fin 400) (k : Fin 32) :
    (iblk2 V c 1 t : Vec F S400x32 .f32) (ix2 r k) = (V c main_v6_0 : S10000x32.Idx → Elt F .f32) (ix2 (row2 t r) k) := by
  have hi : win2_1.index t 0 = t.val ∧ win2_1.index t 1 = 0 :=
    (by decide +kernel : ∀ t : Fin grid2.N, win2_1.index t 0 = t.val ∧ win2_1.index t 1 = 0) t
  unfold iblk2
  rw [View.read_apply]
  show V c main_v6_0 _ = V c main_v6_0 _
  refine congrArg _ ?_
  funext a; apply Fin.ext
  match a with
  | ⟨0, _⟩ => show win2_1.index t 0 * 400 + 1 * r.val = 400 * t.val + r.val; rw [hi.1]; omega
  | ⟨1, _⟩ => show win2_1.index t 1 * 32 + 1 * k.val = k.val; rw [hi.2]; omega

theorem iblk2_2_apply (c : Dev nD) (t : Fin cfg2.N) (r : Fin 10000) (k : Fin 32) :
    (iblk2 V c 2 t : Vec F S10000x32 .bf16) (ix2 r k) = (V c main_v6_2 : S10000x32.Idx → Elt F .bf16) (ix2 r k) := by
  have hi : win2_2.index t 0 = 0 ∧ win2_2.index t 1 = 0 :=
    (by decide +kernel : ∀ t : Fin grid2.N, win2_2.index t 0 = 0 ∧ win2_2.index t 1 = 0) t
  unfold iblk2
  rw [View.read_apply]
  show V c main_v6_2 _ = V c main_v6_2 _
  refine congrArg _ ?_
  funext a; apply Fin.ext
  match a with
  | ⟨0, _⟩ => show win2_2.index t 0 * 10000 + 1 * r.val = r.val; rw [hi.1]; omega
  | ⟨1, _⟩ => show win2_2.index t 1 * 32 + 1 * k.val = k.val; rw [hi.2]; omega

theorem iblk2_3_apply (c : Dev nD) (t : Fin cfg2.N) (r : Fin 32) (k : Fin 32) :
    (iblk2 V c 3 t : Vec F S32x32 .f32) (ix2 r k) = (V c main_v7 : S32x32.Idx → Elt F .f32) (ix2 r k) := by
  have hi : win2_3.index t 0 = 0 ∧ win2_3.index t 1 = 0 :=
    (by decide +kernel : ∀ t : Fin grid2.N, win2_3.index t 0 = 0 ∧ win2_3.index t 1 = 0) t
  unfold iblk2
  rw [View.read_apply]
  show V c main_v7 _ = V c main_v7 _
  refine congrArg _ ?_
  funext a; apply Fin.ext
  match a with
  | ⟨0, _⟩ => show win2_3.index t 0 * 32 + 1 * r.val = r.val; rw [hi.1]; omega
  | ⟨1, _⟩ => show win2_3.index t 1 * 32 + 1 * k.val = k.val; rw [hi.2]; omega

theorem iblk2_4_apply (c : Dev nD) (t : Fin cfg2.N) (r : Fin 1) (k : Fin 32) :
    (iblk2 V c 4 t : Vec F S1x32 .f32) (ix2 r k) = (V c main_v2 : S1x32.Idx → Elt F .f32) (ix2 r k) := by
  have hi : win2_4.index t 0 = 0 ∧ win2_4.index t 1 = 0 :=
    (by decide +kernel : ∀ t : Fin grid2.N, win2_4.index t 0 = 0 ∧ win2_4.index t 1 = 0) t
  unfold iblk2
  rw [View.read_apply]
  show V c main_v2 _ = V c main_v2 _
  refine congrArg _ ?_
  funext a; apply Fin.ext
  match a with
  | ⟨0, _⟩ => show win2_4.index t 0 * 1 + 1 * r.val = r.val; rw [hi.1]; omega
  | ⟨1, _⟩ => show win2_4.index t 1 * 32 + 1 * k.val = k.val; rw [hi.2]; omega

end Blocks

end Cert.KernelIdeal.Fr

end
-- ==== Proof.KiOut.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiBlk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The output windows' blocks inside their arrays: where a block's entry sits, and that the written blocks
    cover the array (the slabs tile the rows; a whole-array block written at the last point is the array). -/

theorem idx0_4 : ∀ t : Fin cfg0.N, win0_4.index t 0 = t.val ∧ win0_4.index t 1 = 0 :=
  (by decide +kernel : ∀ t : Fin grid0.N, win0_4.index t 0 = t.val ∧ win0_4.index t 1 = 0)

theorem emb0_4 (t : Fin cfg0.N) (r : Fin 200) (k : Fin 32) :
    ((cfg0.win 4).blk t).view.emb (ix2 r k) = (ix2 (row0 t r) k : S10000x32.Idx) := by
  have hi := idx0_4 t
  funext a; apply Fin.ext
  match a with
  | ⟨0, _⟩ => show win0_4.index t 0 * 200 + 1 * r.val = 200 * t.val + r.val; rw [hi.1]; omega
  | ⟨1, _⟩ => show win0_4.index t 1 * 32 + 1 * k.val = k.val; rw [hi.2]; omega

theorem mem_blk0_4 (t : Fin cfg0.N) (i : S10000x32.Idx) :
    i ∈ ((cfg0.win 4).blk t).view.set ↔ ∀ a : Fin 2, win0_4.index t a * S200x32.size a ≤ (i a).val ∧ (i a).val < win0_4.index t a * S200x32.size a + S200x32.size a := by
  show i ∈ ((View.whole main_v4_0).slice (win0_4.rect t)).set ↔ _
  rw [View.set_slice_whole, Rect.mem_set_unit]
  exact Iff.rfl

theorem covered0_4 (i : S10000x32.Idx) : ∃ t : Fin cfg0.N, (cfg0.win 4).flush t = true ∧ i ∈ ((cfg0.win 4).blk t).view.set := by
  have hi0 : (i 0).val < 10000 := (i 0).isLt
  have hi1 : (i 1).val < 32 := (i 1).isLt
  have hN : cfg0.N = 50 := N_0
  have ht : (i 0).val / 200 < cfg0.N := by omega
  have hix := idx0_4 ⟨(i 0).val / 200, ht⟩
  refine ⟨⟨(i 0).val / 200, ht⟩, flush0_4 _, ?_⟩
  rw [mem_blk0_4]
  intro a
  match a with
  | ⟨0, _⟩ =>
    show win0_4.index ⟨(i 0).val / 200, ht⟩ 0 * 200 ≤ (i 0).val ∧ (i 0).val < win0_4.index ⟨(i 0).val / 200, ht⟩ 0 * 200 + 200
    rw [hix.1]; show (i 0).val / 200 * 200 ≤ (i 0).val ∧ (i 0).val < (i 0).val / 200 * 200 + 200; omega
  | ⟨1, _⟩ =>
    show win0_4.index ⟨(i 0).val / 200, ht⟩ 1 * 32 ≤ (i 1).val ∧ (i 1).val < win0_4.index ⟨(i 0).val / 200, ht⟩ 1 * 32 + 32
    rw [hix.2]; omega

theorem idx0_5 : ∀ t : Fin cfg0.N, win0_5.index t 0 = t.val ∧ win0_5.index t 1 = 0 :=
  (by decide +kernel : ∀ t : Fin grid0.N, win0_5.index t 0 = t.val ∧ win0_5.index t 1 = 0)

theorem emb0_5 (t : Fin cfg0.N) (r : Fin 200) (k : Fin 10000) :
    ((cfg0.win 5).blk t).view.emb (ix2 r k) = (ix2 (row0 t r) k : S10000x10000.Idx) := by
  have hi := idx0_5 t
  funext a; apply Fin.ext
  match a with
  | ⟨0, _⟩ => show win0_5.index t 0 * 200 + 1 * r.val = 200 * t.val + r.val; rw [hi.1]; omega
  | ⟨1, _⟩ => show win0_5.index t 1 * 10000 + 1 * k.val = k.val; rw [hi.2]; omega

theorem mem_blk0_5 (t : Fin cfg0.N) (i : S10000x10000.Idx) :
    i ∈ ((cfg0.win 5).blk t).view.set ↔ ∀ a : Fin 2, win0_5.index t a * S200x10000.size a ≤ (i a).val ∧ (i a).val < win0_5.index t a * S200x10000.size a + S200x10000.size a := by
  show i ∈ ((View.whole main_v4_1).slice (win0_5.rect t)).set ↔ _
  rw [View.set_slice_whole, Rect.mem_set_unit]
  exact Iff.rfl

theorem covered0_5 (i : S10000x10000.Idx) : ∃ t : Fin cfg0.N, (cfg0.win 5).flush t = true ∧ i ∈ ((cfg0.win 5).blk t).view.set := by
  have hi0 : (i 0).val < 10000 := (i 0).isLt
  have hi1 : (i 1).val < 10000 := (i 1).isLt
  have hN : cfg0.N = 50 := N_0
  have ht : (i 0).val / 200 < cfg0.N := by omega
  have hix := idx0_5 ⟨(i 0).val / 200, ht⟩
  refine ⟨⟨(i 0).val / 200, ht⟩, flush0_5 _, ?_⟩
  rw [mem_blk0_5]
  intro a
  match a with
  | ⟨0, _⟩ =>
    show win0_5.index ⟨(i 0).val / 200, ht⟩ 0 * 200 ≤ (i 0).val ∧ (i 0).val < win0_5.index ⟨(i 0).val / 200, ht⟩ 0 * 200 + 200
    rw [hix.1]; show (i 0).val / 200 * 200 ≤ (i 0).val ∧ (i 0).val < (i 0).val / 200 * 200 + 200; omega
  | ⟨1, _⟩ =>
    show win0_5.index ⟨(i 0).val / 200, ht⟩ 1 * 10000 ≤ (i 1).val ∧ (i 1).val < win0_5.index ⟨(i 0).val / 200, ht⟩ 1 * 10000 + 10000
    rw [hix.2]; omega

theorem idx0_6 : ∀ t : Fin cfg0.N, win0_6.index t 0 = 0 ∧ win0_6.index t 1 = 0 :=
  (by decide +kernel : ∀ t : Fin grid0.N, win0_6.index t 0 = 0 ∧ win0_6.index t 1 = 0)

theorem emb0_6 (t : Fin cfg0.N) (r : Fin 10000) (k : Fin 32) :
    ((cfg0.win 6).blk t).view.emb (ix2 r k) = (ix2 r k : S10000x32.Idx) := by
  have hi := idx0_6 t
  funext a; apply Fin.ext
  match a with
  | ⟨0, _⟩ => show win0_6.index t 0 * 10000 + 1 * r.val = r.val; rw [hi.1]; omega
  | ⟨1, _⟩ => show win0_6.index t 1 * 32 + 1 * k.val = k.val; rw [hi.2]; omega

theorem mem_blk0_6 (t : Fin cfg0.N) (i : S10000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v4_2).slice (win0_6.rect t)).set ↔ _
  rw [View.set_slice_whole, Rect.mem_set_unit]
  exact Iff.rfl

/-- The last grid point. -/
theorem covered0_6 (i : S10000x32.Idx) : ∃ t : Fin cfg0.N, (cfg0.win 6).flush t = true ∧ i ∈ ((cfg0.win 6).blk t).view.set := by
  have hi0 : (i 0).val < 10000 := (i 0).isLt
  have hi1 : (i 1).val < 32 := (i 1).isLt
  have hN : cfg0.N = 50 := N_0
  have ht : 49 < cfg0.N := by omega
  have hix := idx0_6 ⟨49, ht⟩
  refine ⟨⟨49, ht⟩, (flush0_6 _).mpr rfl, ?_⟩
  rw [mem_blk0_6]
  intro a
  match a with
  | ⟨0, _⟩ =>
    show win0_6.index ⟨49, ht⟩ 0 * 10000 ≤ (i 0).val ∧ (i 0).val < win0_6.index ⟨49, ht⟩ 0 * 10000 + 10000
    rw [hix.1]; omega
  | ⟨1, _⟩ =>
    show win0_6.index ⟨49, ht⟩ 1 * 32 ≤ (i 1).val ∧ (i 1).val < win0_6.index ⟨49, ht⟩ 1 * 32 + 32
    rw [hix.2]; omega

theorem idx1_5 : ∀ t : Fin cfg1.N, win1_5.index t 0 = t.val ∧ win1_5.index t 1 = 0 :=
  (by decide +kernel : ∀ t : Fin grid1.N, win1_5.index t 0 = t.val ∧ win1_5.index t 1 = 0)

theorem emb1_5 (t : Fin cfg1.N) (r : Fin 400) (k : Fin 32) :
    ((cfg1.win 5).blk t).view.emb (ix2 r k) = (ix2 (row1 t r) k : S10000x32.Idx) := by
  have hi := idx1_5 t
  funext a; apply Fin.ext
  match a with
  | ⟨0, _⟩ => show win1_5.index t 0 * 400 + 1 * r.val = 400 * t.val + r.val; rw [hi.1]; omega
  | ⟨1, _⟩ => show win1_5.index t 1 * 32 + 1 * k.val = k.val; rw [hi.2]; omega

theorem mem_blk1_5 (t : Fin cfg1.N) (i : S10000x32.Idx) :
    i ∈ ((cfg1.win 5).blk t).view.set ↔ ∀ a : Fin 2, win1_5.index t a * S400x32.size a ≤ (i a).val ∧ (i a).val < win1_5.index t a * S400x32.size a + S400x32.size a := by
  show i ∈ ((View.whole main_v6_0).slice (win1_5.rect t)).set ↔ _
  rw [View.set_slice_whole, Rect.mem_set_unit]
  exact Iff.rfl

theorem covered1_5 (i : S10000x32.Idx) : ∃ t : Fin cfg1.N, (cfg1.win 5).flush t = true ∧ i ∈ ((cfg1.win 5).blk t).view.set := by
  have hi0 : (i 0).val < 10000 := (i 0).isLt
  have hi1 : (i 1).val < 32 := (i 1).isLt
  have hN : cfg1.N = 25 := N_1
  have ht : (i 0).val / 400 < cfg1.N := by omega
  have hix := idx1_5 ⟨(i 0).val / 400, ht⟩
  refine ⟨⟨(i 0).val / 400, ht⟩, flush1_5 _, ?_⟩
  rw [mem_blk1_5]
  intro a
  match a with
  | ⟨0, _⟩ =>
    show win1_5.index ⟨(i 0).val / 400, ht⟩ 0 * 400 ≤ (i 0).val ∧ (i 0).val < win1_5.index ⟨(i 0).val / 400, ht⟩ 0 * 400 + 400
    rw [hix.1]; show (i 0).val / 400 * 400 ≤ (i 0).val ∧ (i 0).val < (i 0).val / 400 * 400 + 400; omega
  | ⟨1, _⟩ =>
    show win1_5.index ⟨(i 0).val / 400, ht⟩ 1 * 32 ≤ (i 1).val ∧ (i 1).val < win1_5.index ⟨(i 0).val / 400, ht⟩ 1 * 32 + 32
    rw [hix.2]; omega

theorem idx1_6 : ∀ t : Fin cfg1.N, win1_6.index t 0 = 0 ∧ win1_6.index t 1 = 0 :=
  (by decide +kernel : ∀ t : Fin grid1.N, win1_6.index t 0 = 0 ∧ win1_6.index t 1 = 0)

theorem emb1_6 (t : Fin cfg1.N) (r : Fin 10000) (k : Fin 32) :
    ((cfg1.win 6).blk t).view.emb (ix2 r k) = (ix2 r k : S10000x32.Idx) := by
  have hi := idx1_6 t
  funext a; apply Fin.ext
  match a with
  | ⟨0, _⟩ => show win1_6.index t 0 * 10000 + 1 * r.val = r.val; rw [hi.1]; omega
  | ⟨1, _⟩ => show win1_6.index t 1 * 32 + 1 * k.val = k.val; rw [hi.2]; omega

theorem mem_blk1_6 (t : Fin cfg1.N) (i : S10000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v6_1).slice (win1_6.rect t)).set ↔ _
  rw [View.set_slice_whole, Rect.mem_set_unit]
  exact Iff.rfl

/-- The last grid point. -/
theorem covered1_6 (i : S10000x32.Idx) : ∃ t : Fin cfg1.N, (cfg1.win 6).flush t = true ∧ i ∈ ((cfg1.win 6).blk t).view.set := by
  have hi0 : (i 0).val < 10000 := (i 0).isLt
  have hi1 : (i 1).val < 32 := (i 1).isLt
  have hN : cfg1.N = 25 := N_1
  have ht : 24 < cfg1.N := by omega
  have hix := idx1_6 ⟨24, ht⟩
  refine ⟨⟨24, ht⟩, (flush1_6 _).mpr rfl, ?_⟩
  rw [mem_blk1_6]
  intro a
  match a with
  | ⟨0, _⟩ =>
    show win1_6.index ⟨24, ht⟩ 0 * 10000 ≤ (i 0).val ∧ (i 0).val < win1_6.index ⟨24, ht⟩ 0 * 10000 + 10000
    rw [hix.1]; omega
  | ⟨1, _⟩ =>
    show win1_6.index ⟨24, ht⟩ 1 * 32 ≤ (i 1).val ∧ (i 1).val < win1_6.index ⟨24, ht⟩ 1 * 32 + 32
    rw [hix.2]; omega

theorem idx1_7 : ∀ t : Fin cfg1.N, win1_7.index t 0 = 0 ∧ win1_7.index t 1 = 0 :=
  (by decide +kernel : ∀ t : Fin grid1.N, win1_7.index t 0 = 0 ∧ win1_7.index t 1 = 0)

theorem emb1_7 (t : Fin cfg1.N) (r : Fin 10000) (k : Fin 32) :
    ((cfg1.win 7).blk t).view.emb (ix2 r k) = (ix2 r k : S10000x32.Idx) := by
  have hi := idx1_7 t
  funext a; apply Fin.ext
  match a with
  | ⟨0, _⟩ => show win1_7.index t 0 * 10000 + 1 * r.val = r.val; rw [hi.1]; omega
  | ⟨1, _⟩ => show win1_7.index t 1 * 32 + 1 * k.val = k.val; rw [hi.2]; omega

theorem mem_blk1_7 (t : Fin cfg1.N) (i : S10000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v6_2).slice (win1_7.rect t)).set ↔ _
  rw [View.set_slice_whole, Rect.mem_set_unit]
  exact Iff.rfl

/-- The last grid point. -/
theorem covered1_7 (i : S10000x32.Idx) : ∃ t : Fin cfg1.N, (cfg1.win 7).flush t = true ∧ i ∈ ((cfg1.win 7).blk t).view.set := by
  have hi0 : (i 0).val < 10000 := (i 0).isLt
  have hi1 : (i 1).val < 32 := (i 1).isLt
  have hN : cfg1.N = 25 := N_1
  have ht : 24 < cfg1.N := by omega
  have hix := idx1_7 ⟨24, ht⟩
  refine ⟨⟨24, ht⟩, (flush1_7 _).mpr rfl, ?_⟩
  rw [mem_blk1_7]
  intro a
  match a with
  | ⟨0, _⟩ =>
    show win1_7.index ⟨24, ht⟩ 0 * 10000 ≤ (i 0).val ∧ (i 0).val < win1_7.index ⟨24, ht⟩ 0 * 10000 + 10000
    rw [hix.1]; omega
  | ⟨1, _⟩ =>
    show win1_7.index ⟨24, ht⟩ 1 * 32 ≤ (i 1).val ∧ (i 1).val < win1_7.index ⟨24, ht⟩ 1 * 32 + 32
    rw [hix.2]; omega

theorem idx2_5 : ∀ t : Fin cfg2.N, win2_5.index t 0 = t.val ∧ win2_5.index t 1 = 0 :=
  (by decide +kernel : ∀ t : Fin grid2.N, win2_5.index t 0 = t.val ∧ win2_5.index t 1 = 0)

theorem emb2_5 (t : Fin cfg2.N) (r : Fin 400) (k : Fin 32) :
    ((cfg2.win 5).blk t).view.emb (ix2 r k) = (ix2 (row2 t r) k : S10000x32.Idx) := by
  have hi := idx2_5 t
  funext a; apply Fin.ext
  match a with
  | ⟨0, _⟩ => show win2_5.index t 0 * 400 + 1 * r.val = 400 * t.val + r.val; rw [hi.1]; omega
  | ⟨1, _⟩ => show win2_5.index t 1 * 32 + 1 * k.val = k.val; rw [hi.2]; omega

theorem mem_blk2_5 (t : Fin cfg2.N) (i : S10000x32.Idx) :
    i ∈ ((cfg2.win 5).blk t).view.set ↔ ∀ a : Fin 2, win2_5.index t a * S400x32.size a ≤ (i a).val ∧ (i a).val < win2_5.index t a * S400x32.size a + S400x32.size a := by
  show i ∈ ((View.whole main_v8).slice (win2_5.rect t)).set ↔ _
  rw [View.set_slice_whole, Rect.mem_set_unit]
  exact Iff.rfl

theorem covered2_5 (i : S10000x32.Idx) : ∃ t : Fin cfg2.N, (cfg2.win 5).flush t = true ∧ i ∈ ((cfg2.win 5).blk t).view.set := by
  have hi0 : (i 0).val < 10000 := (i 0).isLt
  have hi1 : (i 1).val < 32 := (i 1).isLt
  have hN : cfg2.N = 25 := N_2
  have ht : (i 0).val / 400 < cfg2.N := by omega
  have hix := idx2_5 ⟨(i 0).val / 400, ht⟩
  refine ⟨⟨(i 0).val / 400, ht⟩, flush2_5 _, ?_⟩
  rw [mem_blk2_5]
  intro a
  match a with
  | ⟨0, _⟩ =>
    show win2_5.index ⟨(i 0).val / 400, ht⟩ 0 * 400 ≤ (i 0).val ∧ (i 0).val < win2_5.index ⟨(i 0).val / 400, ht⟩ 0 * 400 + 400
    rw [hix.1]; show (i 0).val / 400 * 400 ≤ (i 0).val ∧ (i 0).val < (i 0).val / 400 * 400 + 400; omega
  | ⟨1, _⟩ =>
    show win2_5.index ⟨(i 0).val / 400, ht⟩ 1 * 32 ≤ (i 1).val ∧ (i 1).val < win2_5.index ⟨(i 0).val / 400, ht⟩ 1 * 32 + 32
    rw [hix.2]; omega

end Cert.KernelIdeal.Fr

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.LibColCol.lean ====
/-
  A matrix product contracted along the rows of both factors, read at an entry, for any sizes.

  For a K by M left factor and a K by N right factor contracted along axis 0 of both (no batch axis), the operand
  indices at the output entry (a, b) and the contraction index c are (c, a) and (c, b). So the entry (a, b) of the
  product is ∑ c, l (c, a) · r (c, b) — the transpose of the left factor times the right factor — for the matrix
  unit's product into a zero accumulator (`matmul_zero_colCol_apply`) and, over the raw contraction index, for any
  reading of the product as a sum of the operands' products (`sum_products_colCol`).
-/
import Idealize.ShloMosaic.PureOps.Ideal
import Idealize.ShloMosaic.PureOps.Ideal.Laws
import Idealize.ShloMosaic.Lib.ValueIdx

noncomputable section

open scoped BigOperators

namespace Cert.LibColCol

open Idealize.ShloMosaic Idealize.ShloMosaic.ValueIdx

variable {M K N : ℕ}

/-- The dimension numbers contracting axis 0 of both factors, no batch axis. -/
abbrev colCol (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- The left operand's column coordinate at the output entry (a, b) is a, whatever the contraction index. -/
theorem lhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).lhsIdx i q 1).val = (i 0).val := by
  unfold DotDims.lhsIdx
  rw [dif_neg (by simp), dif_pos (by simp)]
  rfl

/-- The right operand's column coordinate at the output entry (a, b) is b, whatever the contraction index. -/
theorem rhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).rhsIdx i q 1).val = (i 1).val := by
  unfold DotDims.rhsIdx
  rw [dif_neg (by simp), dif_pos (by simp)]
  rfl

/-- The sum over the contraction index of the products of the operands' entries is the sum over the shared row
    coordinate c of l (c, a) · r (c, b). -/
theorem sum_products_colCol (wf : DotDims.WF ⟨2, ![K, M]⟩ ⟨2, ![K, N]⟩ ⟨2, ![M, N]⟩ [0] [0] [1] [1] [] [])
    (l : (⟨2, ![K, M]⟩ : Shape).Idx → EReal) (r : (⟨2, ![K, N]⟩ : Shape).Idx → EReal) (a : Fin M) (b : Fin N) :
    ∑ k : (colCol wf).contr.Idx, l ((colCol wf).lhsIdx (ix2 a b) k) * r ((colCol wf).rhsIdx (ix2 a b) k)
      = ∑ c : Fin K, l (ix2 c a) * r (ix2 c b) := by
  rw [← Equiv.sum_comp (contrEquiv1 (colCol wf) K rfl rfl).symm]
  refine Finset.sum_congr rfl fun c _ => ?_
  have hk := contrEquiv1_symm_val (colCol wf) K rfl rfl c
  have el : (colCol wf).lhsIdx (ix2 a b) ((contrEquiv1 (colCol wf) K rfl rfl).symm c) = ix2 c a := funext fun ax => Fin.ext (by
    match ax with
    | ⟨0, _⟩ => exact ((colCol wf).lhsIdx_val_of_single rfl (ix2 a b) _).trans hk
    | ⟨1, _⟩ => exact lhs_col wf _ _)
  have er : (colCol wf).rhsIdx (ix2 a b) ((contrEquiv1 (colCol wf) K rfl rfl).symm c) = ix2 c b := funext fun ax => Fin.ext (by
    match ax with
    | ⟨0, _⟩ => exact ((colCol wf).rhsIdx_val_of_single rfl (ix2 a b) _).trans hk
    | ⟨1, _⟩ => exact rhs_col wf _ _)
  rw [el, er]

/-- The matrix unit's product into a zero accumulator at an entry, for any record of dimension numbers contracting
    axis 0 of both factors. -/
theorem matmul_zero_colCol_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 c a) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products_colCol wf l r a b

end Cert.LibColCol

end
-- ==== Proof.PayAt.lean ====
/-
  The three kernels' stored values read at an entry, over the extended reals.

  Over the extended reals rounding to a narrower format and widening back are the identity, a cast to the same
  shape is the identity, a product into a zero accumulator is a plain finite sum, and a bias row laid along every
  row of a block reads the bias at the column. So each stored value, at the entry with given coordinates, is a
  closed formula in the entries of the values it was computed from:
    * the first kernel's dense layer, (p, h) ↦ ∑ k, x (p, k) · W (k, h) + b (0, h);
    * the accumulators' updates, (h, e) ↦ acc (h, e) + ∑ r, y (r, h) · A (r, e), a product contracted along the
      rows of both factors (the transpose of y times A);
    * the transposed accumulator, (e, h) ↦ acc (h, e);
    * the layers' update, (p, h) ↦ max (∑ k, (x (p, k) + ∑ e, A (p, e) · z (e, k)) · W (k, h) + b (0, h)) 0.
-/
import proofs.«149919_g68453188763984_cont_9to1_m_933_13_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«149919_g68453188763984_cont_9to1_m_933_13_alg».proof.Proof.LibProduct
import proofs.«149919_g68453188763984_cont_9to1_m_933_13_alg».proof.Proof.LibRowVector
import proofs.«149919_g68453188763984_cont_9to1_m_933_13_alg».proof.Proof.LibColCol

noncomputable section

open scoped BigOperators

namespace Cert.PayAt

open Idealize.ShloMosaic Idealize.ShloMosaic.ValueIdx Cert.KernelIdeal Cert.KernelIdeal.Gen

/-! ## The first kernel's payloads -/

/-- The dense layer of the first kernel: entry (p, h) is the inner product of row p of the block with column h of
    the weights, plus the bias at h. -/
theorem pay0_1 (v0 : Vec Ideal S200x128 .f32) (v1 : Vec Ideal S128x32 .f32) (v4 : Vec Ideal S1x32 .f32) (p : Fin 200) (h : Fin 32) :
    k0_pay1 (F := Ideal) v0 v1 v4 (ix2 p h) = (∑ k : Fin 128, v0 (ix2 p k) * v1 (ix2 k h)) + v4 (ix2 (0 : Fin 1) h) := by
  unfold k0_pay1
  rw [shapeCast_self]
  refine congrArg₂ (· + ·) ?_ ?_
  · exact Cert.LibProduct.matmul_zero_apply dot_S200x128_S128x32_S200x32_1_0_0_1_n_n rfl rfl rfl rfl rfl rfl none v0 v1 p h
  · refine (Cert.LibRowVector.castRow_apply _ _ _ p h).trans ?_
    exact shapeCast_1a_a_apply v4 _ h

/-- Rounding to the narrower format is the identity over the extended reals. -/
theorem pay0_2 (v10 : Vec Ideal S200x10000 .f32) (j : S200x10000.Idx) : k0_pay2 (F := Ideal) v10 j = v10 j := rfl

/-- The accumulator's initial value: zero everywhere. -/
theorem pay0_3 (j : S32x10000.Idx) : k0_pay3 (F := Ideal) j = 0 := by
  unfold k0_pay3
  rw [shapeCast_self]
  exact Ideal.ofBits_zero_f32

/-- The accumulator's update in the first kernel: entry (h, e) gains the sum over the block's rows r of the dense
    layer's (r, h) times the incidence block's (r, e). -/
theorem pay0_4 (v0 : Vec Ideal S200x128 .f32) (v1 : Vec Ideal S128x32 .f32) (v4 : Vec Ideal S1x32 .f32)
    (v16 : Vec Ideal S32x10000 .f32) (v18 : Vec Ideal S200x10000 .bf16) (h : Fin 32) (e : Fin 10000) :
    k0_pay4 (F := Ideal) v0 v1 v4 v16 v18 (ix2 h e)
      = v16 (ix2 h e) + ∑ r : Fin 200, k0_pay1 (F := Ideal) v0 v1 v4 (ix2 r h) * v18 (ix2 r e) := by
  unfold k0_pay4
  rw [shapeCast_self, shapeCast_self]
  refine congrArg (v16 (ix2 h e) + ·) ?_
  exact Cert.LibColCol.matmul_zero_colCol_apply dot_S200x32_S200x10000_S32x10000_0_0_1_1_n_n rfl rfl rfl rfl rfl rfl none
    (truncf .bf16 (k0_pay1 (F := Ideal) v0 v1 v4) bitsLt_bf16_f32) v18 h e

/-- The accumulator transposed: entry (e, h) is the accumulator's (h, e). -/
theorem pay0_5 (v28 : Vec Ideal S32x10000 .f32) (e : Fin 10000) (h : Fin 32) :
    k0_pay5 (F := Ideal) v28 (ix2 e h) = v28 (ix2 h e) := by
  unfold k0_pay5
  exact transpose_ix2_apply v28 _ e h

/-! ## The second kernel's payloads -/

/-- The accumulator transposed: entry (e, h) is the accumulator's (h, e). -/
theorem pay1_1 (v34 : Vec Ideal S32x10000 .f32) (e : Fin 10000) (h : Fin 32) :
    k1_pay1 (F := Ideal) v34 (ix2 e h) = v34 (ix2 h e) := by
  unfold k1_pay1
  exact transpose_ix2_apply v34 _ e h

/-- The same values stored in the narrower format: rounding is the identity over the extended reals. -/
theorem pay1_2 (v34 : Vec Ideal S32x10000 .f32) (e : Fin 10000) (h : Fin 32) :
    k1_pay2 (F := Ideal) v34 (ix2 e h) = v34 (ix2 h e) := pay1_1 v34 e h

/-- One layer's update on a block of rows: entry (p, h) is the rectified sum over k of (the features' (p, k) plus the
    incidence block's row p against column k of the hyperedge features) times the weights' (k, h), plus the bias at h. -/
theorem pay1_3 (v0 : Vec Ideal S400x10000 .bf16) (v2 : Vec Ideal S10000x32 .bf16) (v5 : Vec Ideal S400x32 .f32)
    (v8 : Vec Ideal S32x32 .f32) (v11 : Vec Ideal S1x32 .f32) (p : Fin 400) (h : Fin 32) :
    k1_pay3 (F := Ideal) v0 v2 v5 v8 v11 (ix2 p h)
      = max ((∑ k : Fin 32, (v5 (ix2 p k) + ∑ e : Fin 10000, v0 (ix2 p e) * v2 (ix2 e k)) * v8 (ix2 k h))
          + v11 (ix2 (0 : Fin 1) h)) 0 := by
  unfold k1_pay3
  rw [shapeCast_self, shapeCast_self, shapeCast_self, shapeCast_self]
  refine (maximumf_apply _ _ (ix2 p h)).trans ?_
  refine congrArg₂ max ?_ Ideal.ofBits_zero_f32
  refine congrArg₂ (· + ·) ?_ ?_
  · refine (Cert.LibProduct.matmul_zero_apply dot_S400x32_S32x32_S400x32_1_0_0_1_n_n rfl rfl rfl rfl rfl rfl none _ v8 p h).trans ?_
    refine Finset.sum_congr rfl fun k _ => ?_
    refine congrArg (· * v8 (ix2 k h)) ?_
    refine congrArg (v5 (ix2 p k) + ·) ?_
    exact Cert.LibProduct.matmul_zero_apply dot_S400x10000_S10000x32_S400x32_1_0_0_1_n_n rfl rfl rfl rfl rfl rfl none v0 v2 p k
  · refine (Cert.LibRowVector.castRow_apply _ _ _ p h).trans ?_
    exact shapeCast_1a_a_apply v11 _ h

/-- The accumulator's initial value: zero everywhere. -/
theorem pay1_4 (j : S32x10000.Idx) : k1_pay4 (F := Ideal) j = 0 := by
  unfold k1_pay4
  rw [shapeCast_self]
  exact Ideal.ofBits_zero_f32

/-- The accumulator's update in the second kernel: entry (h, e) gains the sum over the block's rows r of the updated
    features' (r, h) times the incidence block's (r, e). -/
theorem pay1_5 (v0 : Vec Ideal S400x10000 .bf16) (v2 : Vec Ideal S10000x32 .bf16) (v5 : Vec Ideal S400x32 .f32)
    (v8 : Vec Ideal S32x32 .f32) (v11 : Vec Ideal S1x32 .f32) (v22 : Vec Ideal S32x10000 .f32)
    (v24 : Vec Ideal S400x10000 .bf16) (h : Fin 32) (e : Fin 10000) :
    k1_pay5 (F := Ideal) v0 v2 v5 v8 v11 v22 v24 (ix2 h e)
      = v22 (ix2 h e) + ∑ r : Fin 400, k1_pay3 (F := Ideal) v0 v2 v5 v8 v11 (ix2 r h) * v24 (ix2 r e) := by
  unfold k1_pay5
  rw [shapeCast_self, shapeCast_self]
  refine congrArg (v22 (ix2 h e) + ·) ?_
  exact Cert.LibColCol.matmul_zero_colCol_apply dot_S400x32_S400x10000_S32x10000_0_0_1_1_n_n rfl rfl rfl rfl rfl rfl none
    (truncf .bf16 (k1_pay3 (F := Ideal) v0 v2 v5 v8 v11) bitsLt_bf16_f32) v24 h e

/-! ## The third kernel's payload -/

/-- The last layer's update on a block of rows: the same formula as the second kernel's. -/
theorem pay2_1 (v0 : Vec Ideal S400x10000 .bf16) (v2 : Vec Ideal S10000x32 .bf16) (v5 : Vec Ideal S400x32 .f32)
    (v8 : Vec Ideal S32x32 .f32) (v11 : Vec Ideal S1x32 .f32) (p : Fin 400) (h : Fin 32) :
    k2_pay1 (F := Ideal) v0 v2 v5 v8 v11 (ix2 p h)
      = max ((∑ k : Fin 32, (v5 (ix2 p k) + ∑ e : Fin 10000, v0 (ix2 p e) * v2 (ix2 e k)) * v8 (ix2 k h))
          + v11 (ix2 (0 : Fin 1) h)) 0 := by
  unfold k2_pay1
  rw [shapeCast_self, shapeCast_self, shapeCast_self, shapeCast_self]
  refine (maximumf_apply _ _ (ix2 p h)).trans ?_
  refine congrArg₂ max ?_ Ideal.ofBits_zero_f32
  refine congrArg₂ (· + ·) ?_ ?_
  · refine (Cert.LibProduct.matmul_zero_apply dot_S400x32_S32x32_S400x32_1_0_0_1_n_n rfl rfl rfl rfl rfl rfl none _ v8 p h).trans ?_
    refine Finset.sum_congr rfl fun k _ => ?_
    refine congrArg (· * v8 (ix2 k h)) ?_
    refine congrArg (v5 (ix2 p k) + ·) ?_
    exact Cert.LibProduct.matmul_zero_apply dot_S400x10000_S10000x32_S400x32_1_0_0_1_n_n rfl rfl rfl rfl rfl rfl none v0 v2 p k
  · refine (Cert.LibRowVector.castRow_apply _ _ _ p h).trans ?_
    exact shapeCast_1a_a_apply v11 _ h

end Cert.PayAt

end
-- ==== Proof.LibAccum.lean ====
/-
  A running total over consecutive groups is the total, in any additive commutative monoid and for any group size.

  Let f be a sequence and R a group size. If acc 0 is the sum of the first group f 0, …, f (R - 1), and each acc (t + 1)
  adds to acc t the sum of the next group f ((t + 1) · R), …, f ((t + 1) · R + R - 1), then acc t is the sum of the first
  (t + 1) · R terms (`acc_total`; `acc_total_lt` asks the recurrence only below a number G of groups). The instances
  at fifty groups of 200 and at twenty-five groups of 400 state the bound as the literal 10000. A sum over the first k
  terms does not depend on how k is written (`sum_fin_congr`).
-/
import Mathlib.Algebra.BigOperators.Fin
import Mathlib.Algebra.BigOperators.Group.Finset.Basic
import Mathlib.Algebra.BigOperators.Intervals
import Mathlib.Tactic.Ring

open scoped BigOperators

namespace Cert.LibAccum

/-- A sum of R consecutive terms starting at c, over the places of the group or over the first R naturals. -/
theorem group_eq_range {M : Type*} [AddCommMonoid M] (R : ℕ) (f : ℕ → M) (c : ℕ) :
    ∑ r : Fin R, f (c + r.val) = ∑ r ∈ Finset.range R, f (c + r) :=
  Fin.sum_univ_eq_sum_range (fun r => f (c + r)) R

/-- The running total after t + 1 groups is the sum of the first (t + 1) · R terms; the recurrence is asked only below
    the number G of groups. -/
theorem acc_total_lt {M : Type*} [AddCommMonoid M] (R G : ℕ) (f : ℕ → M) (acc : ℕ → M)
    (h0 : acc 0 = 0 + ∑ r : Fin R, f (0 * R + r.val))
    (hs : ∀ t, t + 1 < G → acc (t + 1) = acc t + ∑ r : Fin R, f ((t + 1) * R + r.val)) (t : ℕ) (ht : t < G) :
    acc t = ∑ n : Fin ((t + 1) * R), f n.val := by
  rw [Fin.sum_univ_eq_sum_range f]
  induction t with
  | zero =>
    rw [h0, zero_add, group_eq_range, Nat.zero_mul, Nat.zero_add, Nat.one_mul]
    exact Finset.sum_congr rfl fun r _ => by rw [Nat.zero_add]
  | succ t ih =>
    rw [hs t ht, ih (Nat.lt_of_succ_lt ht), group_eq_range, show (t + 1 + 1) * R = (t + 1) * R + R by ring,
      Finset.sum_range_add]

/-- The running total after t + 1 groups is the sum of the first (t + 1) · R terms. -/
theorem acc_total {M : Type*} [AddCommMonoid M] (R : ℕ) (f : ℕ → M) (acc : ℕ → M)
    (h0 : acc 0 = 0 + ∑ r : Fin R, f (0 * R + r.val))
    (hs : ∀ t, acc (t + 1) = acc t + ∑ r : Fin R, f ((t + 1) * R + r.val)) (t : ℕ) :
    acc t = ∑ n : Fin ((t + 1) * R), f n.val :=
  acc_total_lt R (t + 1) f acc h0 (fun s _ => hs s) t (Nat.lt_succ_self t)

/-- A sum over the first k terms does not depend on how the bound k is written. -/
theorem sum_fin_congr {M : Type*} [AddCommMonoid M] (f : ℕ → M) {k k' : ℕ} (h : k = k') :
    ∑ n : Fin k, f n.val = ∑ n : Fin k', f n.val := by
  subst h; rfl

/-- Fifty groups of 200: the running total at the last group is the sum of the first 10000 terms. -/
theorem acc_total_50x200 {M : Type*} [AddCommMonoid M] (f : ℕ → M) (acc : ℕ → M)
    (h0 : acc 0 = 0 + ∑ r : Fin 200, f (0 * 200 + r.val))
    (hs : ∀ t, acc (t + 1) = acc t + ∑ r : Fin 200, f ((t + 1) * 200 + r.val)) :
    acc 49 = ∑ n : Fin 10000, f n.val :=
  (acc_total 200 f acc h0 hs 49).trans (sum_fin_congr f (by norm_num))

/-- Twenty-five groups of 400: the running total at the last group is the sum of the first 10000 terms. -/
theorem acc_total_25x400 {M : Type*} [AddCommMonoid M] (f : ℕ → M) (acc : ℕ → M)
    (h0 : acc 0 = 0 + ∑ r : Fin 400, f (0 * 400 + r.val))
    (hs : ∀ t, acc (t + 1) = acc t + ∑ r : Fin 400, f ((t + 1) * 400 + r.val)) :
    acc 24 = ∑ n : Fin 10000, f n.val :=
  (acc_total 400 f acc h0 hs 24).trans (sum_fin_congr f (by norm_num))

/-- The same with the recurrence asked only below fifty groups. -/
theorem acc_total_50x200_lt {M : Type*} [AddCommMonoid M] (f : ℕ → M) (acc : ℕ → M)
    (h0 : acc 0 = 0 + ∑ r : Fin 200, f (0 * 200 + r.val))
    (hs : ∀ t, t + 1 < 50 → acc (t + 1) = acc t + ∑ r : Fin 200, f ((t + 1) * 200 + r.val)) :
    acc 49 = ∑ n : Fin 10000, f n.val :=
  (acc_total_lt 200 50 f acc h0 hs 49 (by norm_num)).trans (sum_fin_congr f (by norm_num))

/-- The same with the recurrence asked only below twenty-five groups. -/
theorem acc_total_25x400_lt {M : Type*} [AddCommMonoid M] (f : ℕ → M) (acc : ℕ → M)
    (h0 : acc 0 = 0 + ∑ r : Fin 400, f (0 * 400 + r.val))
    (hs : ∀ t, t + 1 < 25 → acc (t + 1) = acc t + ∑ r : Fin 400, f ((t + 1) * 400 + r.val)) :
    acc 24 = ∑ n : Fin 10000, f n.val :=
  (acc_total_lt 400 25 f acc h0 hs 24 (by norm_num)).trans (sum_fin_congr f (by norm_num))

end Cert.LibAccum
-- ==== Proof.KiVal0.lean ====
import proofs.«149919_g68453188763984_cont_9to1_m_933_13_alg».proof.Proof.KiStr0
import proofs.«149919_g68453188763984_cont_9to1_m_933_13_alg».proof.Proof.KiOut
import proofs.«149919_g68453188763984_cont_9to1_m_933_13_alg».proof.Proof.PayAt
import proofs.«149919_g68453188763984_cont_9to1_m_933_13_alg».proof.Proof.LibAccum
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.PayAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the first region leaves in its three result arrays, over the extended reals

    x  = x₀·W + b (W the transposed weights, b the bias as a one-row matrix), slab by slab;
    a copy of the incidence matrix A, slab by slab;
    and, written once at the last point, (e, h) ↦ ∑ n, x (n, h) · A (n, e): the accumulator adds one slab's
    contribution per grid point, and fifty slabs of 200 rows are all 10000 rows. -/

abbrev r0x (c : Dev nD) : FVec Ideal S10000x128 .f32 := V c main_arg0
abbrev r0A (c : Dev nD) : FVec Ideal S10000x10000 .f32 := V c main_arg1
abbrev r0W (c : Dev nD) : FVec Ideal S128x32 .f32 := V c main_v3
abbrev r0b (c : Dev nD) : FVec Ideal S1x32 .f32 := V c main_v0

/-- Entry (n, h) of x₀·W + b. -/
def X0At (c : Dev nD) (n : Fin 10000) (h : Fin 32) : EReal :=
  (∑ k : Fin 128, r0x V c (ix2 n k) * r0W V c (ix2 k h)) + r0b V c (ix2 (0 : Fin 1) h)

def X0 (c : Dev nD) : FVec Ideal S10000x32 .f32 := fun i => X0At V c (i 0) (i 1)

/-- The slab's dense layer at an entry is the whole array's at the slab's row. -/
theorem pay1_at (c : Dev nD) (t : Fin cfg0.N) (r : Fin 200) (h : Fin 32) :
    k0_pay1 (F := Ideal) (iblk0 V c 0 t) (iblk0 V c 2 t) (iblk0 V c 3 t) (ix2 r h) = X0At V c (row0 t r) h := by
  rw [pay0_1]
  simp only [iblk0_0_apply, iblk0_2_apply, iblk0_3_apply]
  rfl

theorem flushed0_4_eq (c : Dev nD) (t : Fin cfg0.N) :
    (dat0 V c).flushed 4 t = ((cfg0.win 4).blk t).view.read (Elt Ideal) (X0 V c) := by
  show (cfg0.win 4).cut (grid0.coords t) ((dat0 V c).after 4 t) = _
  rw [after0_4, o0_4]
  funext j
  obtain ⟨r, h, rfl⟩ : ∃ (r : Fin 200) (h : Fin 32), j = ix2 r h := ⟨j 0, j 1, eq_ix2 j⟩
  show k0_pay1 (F := Ideal) (iblk0 V c 0 t) (iblk0 V c 2 t) (iblk0 V c 3 t) (ix2 r h) = X0 V c (((cfg0.win 4).blk t).view.emb (ix2 r h))
  rw [emb0_4, pay1_at]
  rfl

theorem final0_4 (c : Dev nD) : (dat0 V c).arrAt 4 cfg0.N = X0 V c :=
  (dat0 V c).arrAt_eq_of_cover 4 (X0 V c) (fun t _ => flushed0_4_eq V c t) covered0_4

/-- The copy of the incidence matrix. -/
def A0 (c : Dev nD) : FVec Ideal S10000x10000 .bf16 := fun i => r0A V c i

theorem flushed0_5_eq (c : Dev nD) (t : Fin cfg0.N) :
    (dat0 V c).flushed 5 t = ((cfg0.win 5).blk t).view.read (Elt Ideal) (A0 V c) := by
  show (cfg0.win 5).cut (grid0.coords t) ((dat0 V c).after 5 t) = _
  rw [after0_5, o0_5]
  funext j
  obtain ⟨r, e, rfl⟩ : ∃ (r : Fin 200) (e : Fin 10000), j = ix2 r e := ⟨j 0, j 1, eq_ix2 j⟩
  show k0_pay2 (F := Ideal) (iblk0 V c 1 t) (ix2 r e) = A0 V c (((cfg0.win 5).blk t).view.emb (ix2 r e))
  rw [emb0_5, pay0_2, iblk0_1_apply]
  rfl

theorem final0_5 (c : Dev nD) : (dat0 V c).arrAt 5 cfg0.N = A0 V c :=
  (dat0 V c).arrAt_eq_of_cover 5 (A0 V c) (fun t _ => flushed0_5_eq V c t) covered0_5

/-- Entry (e, h) of Aᵀ·x: the sum over all rows n of x (n, h) · A (n, e). -/
def X1At (c : Dev nD) (e : Fin 10000) (h : Fin 32) : EReal := ∑ n : Fin 10000, X0At V c n h * r0A V c (ix2 n e)

def X1 (c : Dev nD) : FVec Ideal S10000x32 .bf16 := fun i => X1At V c (i 0) (i 1)

/-- The terms of that sum, over the naturals. -/
def term0 (c : Dev nD) (h : Fin 32) (e : Fin 10000) (n : ℕ) : EReal :=
  if hn : n < 10000 then X0At V c ⟨n, hn⟩ h * r0A V c (ix2 ⟨n, hn⟩ e) else 0

/-- The accumulator after point s, at the entry (h, e). -/
def accAt0 (c : Dev nD) (h : Fin 32) (e : Fin 10000) (s : ℕ) : EReal :=
  if hs : s < cfg0.N then (outsAt0 V c s hs).2.2.2 (ix2 h e) else 0

/-- One slab's contribution to the accumulator at (h, e). -/
theorem slab0 (c : Dev nD) (t : Fin cfg0.N) (h : Fin 32) (e : Fin 10000) :
    (∑ r : Fin 200, k0_pay1 (F := Ideal) (iblk0 V c 0 t) (iblk0 V c 2 t) (iblk0 V c 3 t) (ix2 r h) * k0_pay2 (F := Ideal) (iblk0 V c 1 t) (ix2 r e))
      = ∑ r : Fin 200, term0 V c h e (t.val * 200 + r.val) := by
  refine Finset.sum_congr rfl fun r _ => ?_
  have hN : cfg0.N = 50 := N_0
  have hlt : t.val * 200 + r.val < 10000 := by have := t.isLt; have := r.isLt; omega
  rw [pay1_at, pay0_2, iblk0_1_apply]
  unfold term0
  rw [dif_pos hlt]
  have hrow : row0 t r = ⟨t.val * 200 + r.val, hlt⟩ := Fin.ext (by show 200 * t.val + r.val = t.val * 200 + r.val; omega)
  rw [hrow]

theorem acc0_total (c : Dev nD) (h : Fin 32) (e : Fin 10000) :
    accAt0 V c h e 49 = ∑ n : Fin 10000, term0 V c h e n.val := by
  have hN : cfg0.N = 50 := N_0
  refine Cert.LibAccum.acc_total_50x200_lt (term0 V c h e) (accAt0 V c h e) ?_ ?_
  · have h0 : 0 < cfg0.N := by omega
    unfold accAt0
    rw [dif_pos h0]
    have := acc0_first V c ⟨0, h0⟩ rfl
    rw [show (outsAt0 V c 0 h0).2.2.2 = _ from this, pay0_4, pay0_3, slab0]
  · intro s hs
    have hs' : s + 1 < cfg0.N := by omega
    have hs0 : s < cfg0.N := by omega
    unfold accAt0
    rw [dif_pos hs', dif_pos hs0]
    have := acc0_next V c ⟨s + 1, hs'⟩ (Nat.succ_ne_zero s)
    rw [show (outsAt0 V c (s + 1) hs').2.2.2 = _ from this, pay0_4, slab0]
    rfl

theorem flushed0_6_eq (c : Dev nD) (t : Fin cfg0.N) (hf : (cfg0.win 6).flush t = true) :
    (dat0 V c).flushed 6 t = ((cfg0.win 6).blk t).view.read (Elt Ideal) (X1 V c) := by
  have hN : cfg0.N = 50 := N_0
  have h1 : t.val = 49 := by have := (flush0_6 t).mp hf; have := t.isLt; omega
  show (cfg0.win 6).cut (grid0.coords t) ((dat0 V c).after 6 t) = _
  rw [after0_6, o0_6 V c t h1]
  funext j
  obtain ⟨e, h, rfl⟩ : ∃ (e : Fin 10000) (h : Fin 32), j = ix2 e h := ⟨j 0, j 1, eq_ix2 j⟩
  show k0_pay5 (F := Ideal) (outsAt0 V c t.val t.isLt).2.2.2 (ix2 e h) = X1 V c (((cfg0.win 6).blk t).view.emb (ix2 e h))
  rw [emb0_6, pay0_5]
  have hacc : (outsAt0 V c t.val t.isLt).2.2.2 (ix2 h e) = accAt0 V c h e 49 := by
    obtain ⟨n, hn⟩ := t
    obtain rfl : n = 49 := h1
    unfold accAt0; rw [dif_pos hn]
  rw [hacc, acc0_total]
  show _ = X1At V c e h
  unfold X1At
  refine Finset.sum_congr rfl fun n _ => ?_
  unfold term0
  rw [dif_pos n.isLt]

theorem final0_6 (c : Dev nD) : (dat0 V c).arrAt 6 cfg0.N = X1 V c :=
  (dat0 V c).arrAt_eq_of_cover 6 (X1 V c) (fun t hf => flushed0_6_eq V c t hf) covered0_6

end Cert.KernelIdeal.Val

end
-- ==== Proof.KiR1v.lean ====
/-
  Region 1 of the kernel: what each kind of grid point leaves in each buffer it stores into, as a function of the
  blocks it was given. Every point leaves the layer's update of its blocks; a first point leaves the accumulator's update
  from zero, a later point its update from what the accumulator held; the last point also leaves the updated accumulator
  transposed, once as it is and once rounded. Every load and store of the body is of a whole buffer, so a load reads the
  buffer's contents, a load after a store reads the stored value, and the last store leaves its value.
-/
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region1v

/-- The zero offsets of a whole-buffer rectangle, however they are spelt. -/
theorem hz2' : (![0, 0] : Fin 2 → Nat) = fun _ => 0 := funext fun a => by fin_cases a <;> rfl

/-! ## Region 1: what each kind of grid point leaves, as the payloads of the input blocks

Every load and every store of the body is of a whole buffer, so a load reads the buffer's contents and the last store into a
buffer leaves its payload. -/

/-- A first point leaves the layer's update of its blocks in output window 5's buffer. -/
theorem out1_A_5_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) :
    out1_A_5 c i arg1 harg1 arg2 harg2 arg3 harg3 arg4 harg4 arg5 harg5 arg6 harg6 arg7 harg7 arg8 harg8 arg9 harg9 hc0 hc1 x0 x1 x2 x3 x4 = k1_pay3 x0 x2 x1 x3 x4 := by
  unfold out1_A_5
  rw [View.read_writes_eq_canon _ _ _ (cover1_A_5 c i arg1 harg1 arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_unit_zero hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- A first point clears the accumulator, reads it back, and leaves its update from zero. -/
theorem sout1_A_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : cond1_0 i) (hc1 : ¬cond1_1 i) (x0 : Vec F S400x10000 .bf16) (x1 : Vec F S400x32 .f32) (x2 : Vec F S10000x32 .bf16) (x3 : Vec F S32x32 .f32) (x4 : Vec F S1x32 .f32) :
    sout1_A c i arg1 harg1 arg2 harg2 arg3 harg3 arg4 harg4 arg5 harg5 arg6 harg6 arg7 harg7 arg8 harg8 arg9 harg9 hc0 hc1 x0 x1 x2 x3 x4 = k1_pay5 x0 x2 x1 x3 x4 k1_pay4 x0 := by
  unfold sout1_A
  rw [View.read_writes_eq_canon _ _ _ (scover1_A c i arg1 harg1 arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S32x10000) hz2', View.readCov_unit_zero (S := S32x10000) _ hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- A middle point leaves the layer's update of its blocks in output window 5's buffer. -/
theorem out1_B_5_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) :
    out1_B_5 c i arg1 harg1 arg2 harg2 arg3 harg3 arg4 harg4 arg5 harg5 arg6 harg6 arg7 harg7 arg8 harg8 arg9 harg9 hc0 hc1 x0 x1 x2 x3 x4 xs = k1_pay3 x0 x2 x1 x3 x4 := by
  unfold out1_B_5
  rw [View.read_writes_eq_canon _ _ _ (cover1_B_5 c i arg1 harg1 arg2 harg2 arg3 harg3 arg4 harg4 arg5 harg5 arg6 harg6 arg7 harg7 arg8 harg8 arg9 harg9 hc0 hc1 x0 x1 x2 x3 x4 xs)]
  unfold kernelRun1_B
  dsimp only
  sl_unfold_words
  rw [View.canon_unit_zero hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- A middle point leaves the accumulator's update from what it found there. -/
theorem sout1_B_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : ¬cond1_1 i) (x0 : Vec F S400x10000 .bf16) (x1 : Vec F S400x32 .f32) (x2 : Vec F S10000x32 .bf16) (x3 : Vec F S32x32 .f32) (x4 : Vec F S1x32 .f32) (xs : Vec F S32x10000 .f32) :
    sout1_B c i arg1 harg1 arg2 harg2 arg3 harg3 arg4 harg4 arg5 harg5 arg6 harg6 arg7 harg7 arg8 harg8 arg9 harg9 hc0 hc1 x0 x1 x2 x3 x4 xs = k1_pay5 x0 x2 x1 x3 x4 xs x0 := by
  unfold sout1_B
  rw [View.read_writes_eq_canon _ _ _ (scover1_B c i arg1 harg1 arg2 harg2 arg3 harg3 arg4 harg4 arg5 harg5 arg6 harg6 arg7 harg7 arg8 harg8 arg9 harg9 hc0 hc1 x0 x1 x2 x3 x4 xs)]
  unfold kernelRun1_B
  dsimp only
  sl_unfold_words
  rw [View.canon_unit_zero hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- The last point leaves the layer's update of its blocks in output window 5's buffer. -/
theorem out1_C_5_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) :
    out1_C_5 c i arg1 harg1 arg2 harg2 arg3 harg3 arg4 harg4 arg5 harg5 arg6 harg6 arg7 harg7 arg8 harg8 arg9 harg9 hc0 hc1 x0 x1 x2 x3 x4 xs = k1_pay3 x0 x2 x1 x3 x4 := by
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 x4 xs)]
  unfold kernelRun1_C
  dsimp only
  sl_unfold_words
  rw [View.canon_unit_zero hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- The last point leaves the accumulator's update from what it found there. -/
theorem sout1_C_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) :
    sout1_C c i arg1 harg1 arg2 harg2 arg3 harg3 arg4 harg4 arg5 harg5 arg6 harg6 arg7 harg7 arg8 harg8 arg9 harg9 hc0 hc1 x0 x1 x2 x3 x4 xs = k1_pay5 x0 x2 x1 x3 x4 xs x0 := by
  unfold sout1_C
  rw [View.read_writes_eq_canon _ _ _ (scover1_C c i arg1 harg1 arg2 harg2 arg3 harg3 arg4 harg4 arg5 harg5 arg6 harg6 arg7 harg7 arg8 harg8 arg9 harg9 hc0 hc1 x0 x1 x2 x3 x4 xs)]
  unfold kernelRun1_C
  dsimp only
  sl_unfold_words
  rw [View.canon_unit_zero hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- The last point reads the updated accumulator back and leaves its transpose in output window 6's buffer. -/
theorem out1_C_6_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) :
    out1_C_6 c i arg1 harg1 arg2 harg2 arg3 harg3 arg4 harg4 arg5 harg5 arg6 harg6 arg7 harg7 arg8 harg8 arg9 harg9 hc0 hc1 x0 x1 x2 x3 x4 xs = k1_pay1 (k1_pay5 x0 x2 x1 x3 x4 xs x0) := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 x4 xs)]
  unfold kernelRun1_C
  dsimp only
  sl_unfold_words
  rw [View.canon_unit_zero hz2', View.readCov_unit_zero (S := S32x10000) _ hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

/-- The last point leaves the same transpose, rounded, in output window 7's buffer. -/
theorem out1_C_7_eq (c : Dev nD) (i : grid1.Coords) (arg1 : Memref sig .tc .vmem S400x10000 .bf16) (harg1 : arg1.IsWhole) (arg2 : Memref sig .tc .vmem S400x32 .f32) (harg2 : arg2.IsWhole) (arg3 : Memref sig .tc .vmem S10000x32 .bf16) (harg3 : arg3.IsWhole) (arg4 : Memref sig .tc .vmem S32x32 .f32) (harg4 : arg4.IsWhole) (arg5 : Memref sig .tc .vmem S1x32 .f32) (harg5 : arg5.IsWhole) (arg6 : Memref sig .tc .vmem S400x32 .f32) (harg6 : arg6.IsWhole) (arg7 : Memref sig .tc .vmem S10000x32 .f32) (harg7 : arg7.IsWhole) (arg8 : Memref sig .tc .vmem S10000x32 .bf16) (harg8 : arg8.IsWhole) (arg9 : Memref sig .tc .vmem S32x10000 .f32) (harg9 : arg9.IsWhole) (hc0 : ¬cond1_0 i) (hc1 : cond1_1 i) (x0 : Vec F S400x10000 .bf16) (x1 : Vec F S400x32 .f32) (x2 : Vec F S10000x32 .bf16) (x3 : Vec F S32x32 .f32) (x4 : Vec F S1x32 .f32) (xs : Vec F S32x10000 .f32) :
    out1_C_7 c i arg1 harg1 arg2 harg2 arg3 harg3 arg4 harg4 arg5 harg5 arg6 harg6 arg7 harg7 arg8 harg8 arg9 harg9 hc0 hc1 x0 x1 x2 x3 x4 xs = k1_pay2 (k1_pay5 x0 x2 x1 x3 x4 xs x0) := by
  unfold out1_C_7
  rw [View.read_writes_eq_canon _ _ _ (cover1_C_7 c i arg1 harg1 arg2 harg2 arg3 harg3 arg4 harg4 arg5 harg5 arg6 harg6 arg7 harg7 arg8 harg8 arg9 harg9 hc0 hc1 x0 x1 x2 x3 x4 xs)]
  unfold kernelRun1_C
  dsimp only
  sl_unfold_words
  rw [View.canon_unit_zero hz2', View.readCov_unit_zero (S := S32x10000) _ hz2']
  simp only [View.readAt_eq_ld, harg1.read_unread, harg2.read_unread, harg3.read_unread, harg4.read_unread, harg5.read_unread, harg9.read_unread, View.ld_unit_zero (S := S400x10000) hz2', View.ld_unit_zero (S := S400x32) hz2', View.ld_unit_zero (S := S10000x32) hz2', View.ld_unit_zero (S := S32x32) hz2', View.ld_unit_zero (S := S1x32) hz2', View.ld_unit_zero (S := S32x10000) hz2']

end Region1v

end Cert.KernelIdeal.Fr

end
-- ==== Proof.KiStr1.lean ====
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR1v
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 point by point, in the body's own arithmetic: the slab's updated features, the accumulator's recurrence, and the
    transposed accumulator written at the last point, once as it is and once rounded. -/

section Region1

variable (V : (c : Dev nD) → (b : Ref sig .tc) → Buf (Elt F) ((c : Thread nD τ).loc b))

/-- Every point leaves the layer's update of its slab in the first output window. -/
theorem o1_5 (c : Dev nD) (t : Fin cfg1.N) :
    (outsAt1 V c t.val t.isLt).1 = k1_pay3 (iblk1 V c 0 t) (iblk1 V c 2 t) (iblk1 V c 1 t) (iblk1 V c 3 t) (iblk1 V c 4 t) := by
  have hN : t.val < 25 := lt_of_lt_of_eq t.isLt (show cfg1.N = 25 from N_1)
  by_cases h0 : t.val = 0
  · have h1 : ¬t.val = 24 := by omega
    rw [outsAt1_A V c t h0 h1]; dsimp only; exact out1_A_5_eq ..
  · by_cases h1 : t.val = 24
    · rw [outsAt1_C V c t h0 h1]; dsimp only; exact out1_C_5_eq ..
    · rw [outsAt1_B V c t h0 h1]; dsimp only; exact out1_B_5_eq ..

/-- The accumulator after the first point: cleared, then the first slab's contribution added. -/
theorem acc1_first (c : Dev nD) (t : Fin cfg1.N) (h0 : t.val = 0) :
    (outsAt1 V c t.val t.isLt).2.2.2 = k1_pay5 (iblk1 V c 0 t) (iblk1 V c 2 t) (iblk1 V c 1 t) (iblk1 V c 3 t) (iblk1 V c 4 t)
      k1_pay4 (iblk1 V c 0 t) := by
  have hN : t.val < 25 := lt_of_lt_of_eq t.isLt (show cfg1.N = 25 from N_1)
  have h1 : ¬t.val = 24 := by omega
  rw [outsAt1_A V c t h0 h1]; dsimp only; exact sout1_A_eq ..

/-- The accumulator after a later point: what the point before left, with this slab's contribution added. -/
theorem acc1_next (c : Dev nD) (t : Fin cfg1.N) (h0 : ¬t.val = 0) :
    (outsAt1 V c t.val t.isLt).2.2.2 = k1_pay5 (iblk1 V c 0 t) (iblk1 V c 2 t) (iblk1 V c 1 t) (iblk1 V c 3 t) (iblk1 V c 4 t)
      (outsAt1 V c (t.val - 1) (Nat.lt_of_le_of_lt (Nat.sub_le _ _) t.isLt)).2.2.2 (iblk1 V c 0 t) := by
  by_cases h1 : t.val = 24
  · rw [outsAt1_C V c t h0 h1]; dsimp only; exact sout1_C_eq ..
  · rw [outsAt1_B V c t h0 h1]; dsimp only; exact sout1_B_eq ..

/-- At the last point the second output window receives the accumulator, transposed. -/
theorem o1_6 (c : Dev nD) (t : Fin cfg1.N) (h1 : t.val = 24) :
    (outsAt1 V c t.val t.isLt).2.1 = k1_pay1 (outsAt1 V c t.val t.isLt).2.2.2 := by
  have h0 : ¬t.val = 0 := by omega
  rw [outsAt1_C V c t h0 h1]; dsimp only
  rw [out1_C_6_eq, sout1_C_eq]

/-- At the last point the third output window receives the accumulator, transposed and rounded. -/
theorem o1_7 (c : Dev nD) (t : Fin cfg1.N) (h1 : t.val = 24) :
    (outsAt1 V c t.val t.isLt).2.2.1 = k1_pay2 (outsAt1 V c t.val t.isLt).2.2.2 := by
  have h0 : ¬t.val = 0 := by omega
  rw [outsAt1_C V c t h0 h1]; dsimp only
  rw [out1_C_7_eq, sout1_C_eq]

end Region1

end Cert.KernelIdeal.Fr

end
-- ==== Proof.KiVal1.lean ====
import proofs.«149919_g68453188763984_cont_9to1_m_933_13_alg».proof.Proof.KiStr1
import proofs.«149919_g68453188763984_cont_9to1_m_933_13_alg».proof.Proof.KiOut
import proofs.«149919_g68453188763984_cont_9to1_m_933_13_alg».proof.Proof.PayAt
import proofs.«149919_g68453188763984_cont_9to1_m_933_13_alg».proof.Proof.LibAccum
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.PayAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the second region leaves in its three result arrays, over the extended reals

    With x the node features, A the incidence matrix and y the hyperedge features the region is given, W the transposed
    weights and b the bias as a one-row matrix:
    x' = max ((x + A·y)·W + b, 0), slab by slab;
    and, written once at the last point, (e, h) ↦ ∑ n, x' (n, h) · A (n, e), once as it is and once rounded: the
    accumulator adds one slab's contribution per grid point, and twenty-five slabs of 400 rows are all 10000 rows. -/

abbrev r1A (c : Dev nD) : FVec Ideal S10000x10000 .bf16 := V c main_v4_1
abbrev r1x (c : Dev nD) : FVec Ideal S10000x32 .f32 := V c main_v4_0
abbrev r1y (c : Dev nD) : FVec Ideal S10000x32 .bf16 := V c main_v4_2
abbrev r1W (c : Dev nD) : FVec Ideal S32x32 .f32 := V c main_v5
abbrev r1b (c : Dev nD) : FVec Ideal S1x32 .f32 := V c main_v1

/-- Entry (n, h) of max ((x + A·y)·W + b, 0). -/
def XN1At (c : Dev nD) (n : Fin 10000) (h : Fin 32) : EReal :=
  max ((∑ k : Fin 32, (r1x V c (ix2 n k) + ∑ e : Fin 10000, r1A V c (ix2 n e) * r1y V c (ix2 e k)) * r1W V c (ix2 k h))
    + r1b V c (ix2 (0 : Fin 1) h)) 0

def XN1 (c : Dev nD) : FVec Ideal S10000x32 .f32 := fun i => XN1At V c (i 0) (i 1)

/-- The slab's update at an entry is the whole array's at the slab's row. -/
theorem pay3_at (c : Dev nD) (t : Fin cfg1.N) (r : Fin 400) (h : Fin 32) :
    k1_pay3 (F := Ideal) (iblk1 V c 0 t) (iblk1 V c 2 t) (iblk1 V c 1 t) (iblk1 V c 3 t) (iblk1 V c 4 t) (ix2 r h)
      = XN1At V c (row1 t r) h := by
  rw [pay1_3]
  simp only [iblk1_0_apply, iblk1_1_apply, iblk1_2_apply, iblk1_3_apply, iblk1_4_apply]
  rfl

theorem flushed1_5_eq (c : Dev nD) (t : Fin cfg1.N) :
    (dat1 V c).flushed 5 t = ((cfg1.win 5).blk t).view.read (Elt Ideal) (XN1 V c) := by
  show (cfg1.win 5).cut (grid1.coords t) ((dat1 V c).after 5 t) = _
  rw [after1_5, o1_5]
  funext j
  obtain ⟨r, h, rfl⟩ : ∃ (r : Fin 400) (h : Fin 32), j = ix2 r h := ⟨j 0, j 1, eq_ix2 j⟩
  show k1_pay3 (F := Ideal) (iblk1 V c 0 t) (iblk1 V c 2 t) (iblk1 V c 1 t) (iblk1 V c 3 t) (iblk1 V c 4 t) (ix2 r h)
    = XN1 V c (((cfg1.win 5).blk t).view.emb (ix2 r h))
  rw [emb1_5, pay3_at]
  rfl

theorem final1_5 (c : Dev nD) : (dat1 V c).arrAt 5 cfg1.N = XN1 V c :=
  (dat1 V c).arrAt_eq_of_cover 5 (XN1 V c) (fun t _ => flushed1_5_eq V c t) covered1_5

/-- Entry (e, h) of Aᵀ·x': the sum over all rows n of x' (n, h) · A (n, e). -/
def Y1At (c : Dev nD) (e : Fin 10000) (h : Fin 32) : EReal := ∑ n : Fin 10000, XN1At V c n h * r1A V c (ix2 n e)

def Y1 (c : Dev nD) : FVec Ideal S10000x32 .f32 := fun i => Y1At V c (i 0) (i 1)

def Y1b (c : Dev nD) : FVec Ideal S10000x32 .bf16 := fun i => Y1At V c (i 0) (i 1)

/-- The terms of that sum, over the naturals. -/
def term1 (c : Dev nD) (h : Fin 32) (e : Fin 10000) (n : ℕ) : EReal :=
  if hn : n < 10000 then XN1At V c ⟨n, hn⟩ h * r1A V c (ix2 ⟨n, hn⟩ e) else 0

/-- The accumulator after point s, at the entry (h, e). -/
def accAt1 (c : Dev nD) (h : Fin 32) (e : Fin 10000) (s : ℕ) : EReal :=
  if hs : s < cfg1.N then (outsAt1 V c s hs).2.2.2 (ix2 h e) else 0

/-- One slab's contribution to the accumulator at (h, e). -/
theorem slab1 (c : Dev nD) (t : Fin cfg1.N) (h : Fin 32) (e : Fin 10000) :
    (∑ r : Fin 400, k1_pay3 (F := Ideal) (iblk1 V c 0 t) (iblk1 V c 2 t) (iblk1 V c 1 t) (iblk1 V c 3 t) (iblk1 V c 4 t) (ix2 r h)
        * (iblk1 V c 0 t : Vec Ideal S400x10000 .bf16) (ix2 r e))
      = ∑ r : Fin 400, term1 V c h e (t.val * 400 + r.val) := by
  refine Finset.sum_congr rfl fun r _ => ?_
  have hN : cfg1.N = 25 := N_1
  have hlt : t.val * 400 + r.val < 10000 := by have := t.isLt; have := r.isLt; omega
  rw [pay3_at, iblk1_0_apply]
  unfold term1
  rw [dif_pos hlt]
  have hrow : row1 t r = ⟨t.val * 400 + r.val, hlt⟩ := Fin.ext (by show 400 * t.val + r.val = t.val * 400 + r.val; omega)
  rw [hrow]

theorem acc1_total (c : Dev nD) (h : Fin 32) (e : Fin 10000) :
    accAt1 V c h e 24 = ∑ n : Fin 10000, term1 V c h e n.val := by
  have hN : cfg1.N = 25 := N_1
  refine Cert.LibAccum.acc_total_25x400_lt (term1 V c h e) (accAt1 V c h e) ?_ ?_
  · have h0 : 0 < cfg1.N := by omega
    unfold accAt1
    rw [dif_pos h0]
    have := acc1_first V c ⟨0, h0⟩ rfl
    rw [show (outsAt1 V c 0 h0).2.2.2 = _ from this, pay1_5, pay1_4, slab1]
  · intro s hs
    have hs' : s + 1 < cfg1.N := by omega
    have hs0 : s < cfg1.N := by omega
    unfold accAt1
    rw [dif_pos hs', dif_pos hs0]
    have := acc1_next V c ⟨s + 1, hs'⟩ (Nat.succ_ne_zero s)
    rw [show (outsAt1 V c (s + 1) hs').2.2.2 = _ from this, pay1_5, slab1]
    rfl

theorem flushed1_6_eq (c : Dev nD) (t : Fin cfg1.N) (hf : (cfg1.win 6).flush t = true) :
    (dat1 V c).flushed 6 t = ((cfg1.win 6).blk t).view.read (Elt Ideal) (Y1 V c) := by
  have hN : cfg1.N = 25 := N_1
  have h1 : t.val = 24 := by have := (flush1_6 t).mp hf; have := t.isLt; omega
  show (cfg1.win 6).cut (grid1.coords t) ((dat1 V c).after 6 t) = _
  rw [after1_6, o1_6 V c t h1]
  funext j
  obtain ⟨e, h, rfl⟩ : ∃ (e : Fin 10000) (h : Fin 32), j = ix2 e h := ⟨j 0, j 1, eq_ix2 j⟩
  show k1_pay1 (F := Ideal) (outsAt1 V c t.val t.isLt).2.2.2 (ix2 e h) = Y1 V c (((cfg1.win 6).blk t).view.emb (ix2 e h))
  rw [emb1_6, pay1_1]
  have hacc : (outsAt1 V c t.val t.isLt).2.2.2 (ix2 h e) = accAt1 V c h e 24 := by
    obtain ⟨n, hn⟩ := t
    obtain rfl : n = 24 := h1
    unfold accAt1; rw [dif_pos hn]
  rw [hacc, acc1_total]
  show _ = Y1At V c e h
  unfold Y1At
  refine Finset.sum_congr rfl fun n _ => ?_
  unfold term1
  rw [dif_pos n.isLt]

theorem final1_6 (c : Dev nD) : (dat1 V c).arrAt 6 cfg1.N = Y1 V c :=
  (dat1 V c).arrAt_eq_of_cover 6 (Y1 V c) (fun t hf => flushed1_6_eq V c t hf) covered1_6

theorem flushed1_7_eq (c : Dev nD) (t : Fin cfg1.N) (hf : (cfg1.win 7).flush t = true) :
    (dat1 V c).flushed 7 t = ((cfg1.win 7).blk t).view.read (Elt Ideal) (Y1b V c) := by
  have hN : cfg1.N = 25 := N_1
  have h1 : t.val = 24 := by have := (flush1_7 t).mp hf; have := t.isLt; omega
  show (cfg1.win 7).cut (grid1.coords t) ((dat1 V c).after 7 t) = _
  rw [after1_7, o1_7 V c t h1]
  funext j
  obtain ⟨e, h, rfl⟩ : ∃ (e : Fin 10000) (h : Fin 32), j = ix2 e h := ⟨j 0, j 1, eq_ix2 j⟩
  show k1_pay2 (F := Ideal) (outsAt1 V c t.val t.isLt).2.2.2 (ix2 e h) = Y1b V c (((cfg1.win 7).blk t).view.emb (ix2 e h))
  rw [emb1_7, pay1_2]
  have hacc : (outsAt1 V c t.val t.isLt).2.2.2 (ix2 h e) = accAt1 V c h e 24 := by
    obtain ⟨n, hn⟩ := t
    obtain rfl : n = 24 := h1
    unfold accAt1; rw [dif_pos hn]
  rw [hacc, acc1_total]
  show _ = Y1At V c e h
  unfold Y1At
  refine Finset.sum_congr rfl fun n _ => ?_
  unfold term1
  rw [dif_pos n.isLt]

theorem final1_7 (c : Dev nD) : (dat1 V c).arrAt 7 cfg1.N = Y1b V c :=
  (dat1 V c).arrAt_eq_of_cover 7 (Y1b V c) (fun t hf => flushed1_7_eq V c t hf) covered1_7

end Cert.KernelIdeal.Val

end
-- ==== Proof.KiR2v.lean ====
/-
  Region 2 of the kernel: what every grid point leaves in the output window's buffer, as a function of the blocks it was
  given: the last layer's update of them. Every load and the one store of the body are of whole buffers, so each load
  reads the buffer's contents and the store leaves its value.
-/
import proofs.«149919_g68453188763984_cont_9to1_m_933_13_alg».proof.Proof.Gen.KernelIdeal.Launch
import proofs.«149919_g68453188763984_cont_9to1_m_933_13_alg».proof.Proof.Gen.KernelIdeal.Skeleton
import proofs.«149919_g68453188763984_cont_9to1_m_933_13_alg».proof.Proof.Gen.KernelIdeal.Points
import proofs.«149919_g68453188763984_cont_9to1_m_933_13_alg».proof.Proof.KiR2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region2v

/-- The zero offsets of a whole-buffer rectangle, however they are spelt. -/
theorem hz2'' : (![0, 0] : Fin 2 → Nat) = fun _ => 0 := funext fun a => by fin_cases a <;> rfl

/-- Region 2: every point leaves the last layer's update of its blocks in the output window's buffer; every load and the
    one store are of whole buffers. -/
theorem out2_5_eq (x0 : Vec F S400x10000 .bf16) (x1 : Vec F S400x32 .f32) (x2 : Vec F S10000x32 .bf16) (x3 : Vec F S32x32 .f32)
    (x4 : Vec F S1x32 .f32) : out2_5 x0 x1 x2 x3 x4 = k2_pay1 x0 x2 x1 x3 x4 := by
  unfold out2_5
  rw [View.canon_unit_zero hz2'']
  simp only [View.ld_unit_zero (S := S400x10000) hz2'', View.ld_unit_zero (S := S400x32) hz2'', View.ld_unit_zero (S := S10000x32) hz2'', View.ld_unit_zero (S := S32x32) hz2'', View.ld_unit_zero (S := S1x32) hz2'']

end Region2v

end Cert.KernelIdeal.Fr

end
-- ==== Proof.KiVal2.lean ====
import proofs.«149919_g68453188763984_cont_9to1_m_933_13_alg».proof.Proof.KiR2v
import proofs.«149919_g68453188763984_cont_9to1_m_933_13_alg».proof.Proof.KiOut
import proofs.«149919_g68453188763984_cont_9to1_m_933_13_alg».proof.Proof.PayAt
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.PayAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the third region leaves in its result array, over the extended reals

    With x the node features, A the incidence matrix and y the hyperedge features the region is given, W the transposed
    weights and b the bias as a one-row matrix: x' = max ((x + A·y)·W + b, 0), slab by slab; the region keeps nothing
    between grid points. -/

abbrev r2A (c : Dev nD) : FVec Ideal S10000x10000 .bf16 := V c main_v4_1
abbrev r2x (c : Dev nD) : FVec Ideal S10000x32 .f32 := V c main_v6_0
abbrev r2y (c : Dev nD) : FVec Ideal S10000x32 .bf16 := V c main_v6_2
abbrev r2W (c : Dev nD) : FVec Ideal S32x32 .f32 := V c main_v7
abbrev r2b (c : Dev nD) : FVec Ideal S1x32 .f32 := V c main_v2

/-- Entry (n, h) of max ((x + A·y)·W + b, 0). -/
def XN2At (c : Dev nD) (n : Fin 10000) (h : Fin 32) : EReal :=
  max ((∑ k : Fin 32, (r2x V c (ix2 n k) + ∑ e : Fin 10000, r2A V c (ix2 n e) * r2y V c (ix2 e k)) * r2W V c (ix2 k h))
    + r2b V c (ix2 (0 : Fin 1) h)) 0

def XN2 (c : Dev nD) : FVec Ideal S10000x32 .f32 := fun i => XN2At V c (i 0) (i 1)

/-- The slab's update at an entry is the whole array's at the slab's row. -/
theorem pay2_at (c : Dev nD) (t : Fin cfg2.N) (r : Fin 400) (h : Fin 32) :
    k2_pay1 (F := Ideal) (iblk2 V c 0 t) (iblk2 V c 2 t) (iblk2 V c 1 t) (iblk2 V c 3 t) (iblk2 V c 4 t) (ix2 r h)
      = XN2At V c (row2 t r) h := by
  rw [pay2_1]
  simp only [iblk2_0_apply, iblk2_1_apply, iblk2_2_apply, iblk2_3_apply, iblk2_4_apply]
  rfl

theorem flushed2_5_eq (c : Dev nD) (t : Fin cfg2.N) :
    (dat2 V c).flushed 5 t = ((cfg2.win 5).blk t).view.read (Elt Ideal) (XN2 V c) := by
  show (cfg2.win 5).cut (grid2.coords t) ((dat2 V c).after 5 t) = _
  rw [after2_5, out2_5_eq]
  funext j
  obtain ⟨r, h, rfl⟩ : ∃ (r : Fin 400) (h : Fin 32), j = ix2 r h := ⟨j 0, j 1, eq_ix2 j⟩
  show k2_pay1 (F := Ideal) (iblk2 V c 0 t) (iblk2 V c 2 t) (iblk2 V c 1 t) (iblk2 V c 3 t) (iblk2 V c 4 t) (ix2 r h)
    = XN2 V c (((cfg2.win 5).blk t).view.emb (ix2 r h))
  rw [emb2_5, pay2_at]
  rfl

theorem final2_5 (c : Dev nD) : (dat2 V c).arrAt 5 cfg2.N = XN2 V c :=
  (dat2 V c).arrAt_eq_of_cover 5 (XN2 V c) (fun t _ => flushed2_5_eq V c t) covered2_5

end Cert.KernelIdeal.Val

end
-- ==== Proof.Spec.lean ====
/-
  The function both programs compute, entry by entry over the extended reals: a two-layer hypergraph
  isomorphism network on N nodes and E hyperedges with incidence matrix A (N × E).
    x   = x₀·W₀ᵀ + b₀                                   (one dense layer)
  and twice, with (W, b) = (W₁, b₁) then (W₂, b₂):
    x₁  = Aᵀ·x          (each hyperedge sums its nodes' features)
    m   = A·x₁          (each node sums its hyperedges' features)
    x   = max((x + m)·Wᵀ + b, 0).
  The results are the last x and the last x₁. Every sum is a finite sum in the commutative monoid of
  extended reals, so it may be taken in any order and in any grouping.
-/
import Idealize.ShloMosaic.PureOps.Ideal
import Idealize.ShloMosaic.Lib.ValueIdx

noncomputable section

open scoped BigOperators

namespace Cert.Spec

open Idealize.ShloMosaic Idealize.ShloMosaic.ValueIdx

variable {N E K H : Nat}

/-- Entry (p, h) of x·Wᵀ + b. -/
def linAt (x : FVec Ideal ⟨2, ![N, K]⟩ .f32) (W : FVec Ideal ⟨2, ![H, K]⟩ .f32) (b : FVec Ideal ⟨1, ![H]⟩ .f32)
    (p : Fin N) (h : Fin H) : EReal :=
  (∑ k : Fin K, x (ix2 p k) * W (ix2 h k)) + b (ix1 h)

/-- x·Wᵀ + b. -/
def lin (x : FVec Ideal ⟨2, ![N, K]⟩ .f32) (W : FVec Ideal ⟨2, ![H, K]⟩ .f32) (b : FVec Ideal ⟨1, ![H]⟩ .f32) :
    FVec Ideal ⟨2, ![N, H]⟩ .f32 := fun j => linAt x W b (j 0) (j 1)

theorem lin_apply (x : FVec Ideal ⟨2, ![N, K]⟩ .f32) (W : FVec Ideal ⟨2, ![H, K]⟩ .f32) (b : FVec Ideal ⟨1, ![H]⟩ .f32)
    (p : Fin N) (h : Fin H) : lin x W b (ix2 p h) = linAt x W b p h := rfl

/-- Entry (e, h) of Aᵀ·x: hyperedge e's sum over the nodes n of A(n, e)·x(n, h). -/
def aggTAt (A : FVec Ideal ⟨2, ![N, E]⟩ .f32) (x : FVec Ideal ⟨2, ![N, H]⟩ .f32) (e : Fin E) (h : Fin H) : EReal :=
  ∑ n : Fin N, A (ix2 n e) * x (ix2 n h)

/-- Aᵀ·x. -/
def aggT (A : FVec Ideal ⟨2, ![N, E]⟩ .f32) (x : FVec Ideal ⟨2, ![N, H]⟩ .f32) : FVec Ideal ⟨2, ![E, H]⟩ .f32 :=
  fun j => aggTAt A x (j 0) (j 1)

theorem aggT_apply (A : FVec Ideal ⟨2, ![N, E]⟩ .f32) (x : FVec Ideal ⟨2, ![N, H]⟩ .f32) (e : Fin E) (h : Fin H) :
    aggT A x (ix2 e h) = aggTAt A x e h := rfl

/-- Entry (n, h) of A·y: node n's sum over the hyperedges e of A(n, e)·y(e, h). -/
def aggAt (A : FVec Ideal ⟨2, ![N, E]⟩ .f32) (y : FVec Ideal ⟨2, ![E, H]⟩ .f32) (n : Fin N) (h : Fin H) : EReal :=
  ∑ e : Fin E, A (ix2 n e) * y (ix2 e h)

/-- A·y. -/
def agg (A : FVec Ideal ⟨2, ![N, E]⟩ .f32) (y : FVec Ideal ⟨2, ![E, H]⟩ .f32) : FVec Ideal ⟨2, ![N, H]⟩ .f32 :=
  fun j => aggAt A y (j 0) (j 1)

theorem agg_apply (A : FVec Ideal ⟨2, ![N, E]⟩ .f32) (y : FVec Ideal ⟨2, ![E, H]⟩ .f32) (n : Fin N) (h : Fin H) :
    agg A y (ix2 n h) = aggAt A y n h := rfl

/-- Entry (n, h) of the update max((x + m)·Wᵀ + b, 0). -/
def ginAt (x m : FVec Ideal ⟨2, ![N, H]⟩ .f32) (W : FVec Ideal ⟨2, ![H, H]⟩ .f32) (b : FVec Ideal ⟨1, ![H]⟩ .f32)
    (n : Fin N) (h : Fin H) : EReal :=
  max ((∑ k : Fin H, (x (ix2 n k) + m (ix2 n k)) * W (ix2 h k)) + b (ix1 h)) 0

/-- The update max((x + m)·Wᵀ + b, 0). -/
def gin (x m : FVec Ideal ⟨2, ![N, H]⟩ .f32) (W : FVec Ideal ⟨2, ![H, H]⟩ .f32) (b : FVec Ideal ⟨1, ![H]⟩ .f32) :
    FVec Ideal ⟨2, ![N, H]⟩ .f32 := fun j => ginAt x m W b (j 0) (j 1)

theorem gin_apply (x m : FVec Ideal ⟨2, ![N, H]⟩ .f32) (W : FVec Ideal ⟨2, ![H, H]⟩ .f32) (b : FVec Ideal ⟨1, ![H]⟩ .f32)
    (n : Fin N) (h : Fin H) : gin x m W b (ix2 n h) = ginAt x m W b n h := rfl

/-- One layer: x ↦ max((x + A·(Aᵀ·x))·Wᵀ + b, 0). -/
def layer (A : FVec Ideal ⟨2, ![N, E]⟩ .f32) (x : FVec Ideal ⟨2, ![N, H]⟩ .f32) (W : FVec Ideal ⟨2, ![H, H]⟩ .f32)
    (b : FVec Ideal ⟨1, ![H]⟩ .f32) : FVec Ideal ⟨2, ![N, H]⟩ .f32 :=
  gin x (agg A (aggT A x)) W b

/-- The first result: the node features after both layers. -/
def out0 (x0 : FVec Ideal ⟨2, ![N, K]⟩ .f32) (A : FVec Ideal ⟨2, ![N, E]⟩ .f32) (W0 : FVec Ideal ⟨2, ![H, K]⟩ .f32)
    (b0 : FVec Ideal ⟨1, ![H]⟩ .f32) (W1 : FVec Ideal ⟨2, ![H, H]⟩ .f32) (b1 : FVec Ideal ⟨1, ![H]⟩ .f32)
    (W2 : FVec Ideal ⟨2, ![H, H]⟩ .f32) (b2 : FVec Ideal ⟨1, ![H]⟩ .f32) : FVec Ideal ⟨2, ![N, H]⟩ .f32 :=
  layer A (layer A (lin x0 W0 b0) W1 b1) W2 b2

/-- The second result: the hyperedge features the second layer aggregates. -/
def out1 (x0 : FVec Ideal ⟨2, ![N, K]⟩ .f32) (A : FVec Ideal ⟨2, ![N, E]⟩ .f32) (W0 : FVec Ideal ⟨2, ![H, K]⟩ .f32)
    (b0 : FVec Ideal ⟨1, ![H]⟩ .f32) (W1 : FVec Ideal ⟨2, ![H, H]⟩ .f32) (b1 : FVec Ideal ⟨1, ![H]⟩ .f32) :
    FVec Ideal ⟨2, ![E, H]⟩ .f32 :=
  aggT A (layer A (lin x0 W0 b0) W1 b1)

end Cert.Spec

end
-- ==== Proof.KiGlue.lean ====
import proofs.«149919_g68453188763984_cont_9to1_m_933_13_alg».proof.Proof.KiFold
import proofs.«149919_g68453188763984_cont_9to1_m_933_13_alg».proof.Proof.KiVal0
import proofs.«149919_g68453188763984_cont_9to1_m_933_13_alg».proof.Proof.KiVal1
import proofs.«149919_g68453188763984_cont_9to1_m_933_13_alg».proof.Proof.KiVal2
import proofs.«149919_g68453188763984_cont_9to1_m_933_13_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! # The program's two results are the specification's, over the extended reals

The eight arguments at launch are x₀, A, W₀, b₀, W₁, b₁, W₂, b₂. Region by region, what each region finds in its
arrays (read back through the fold of the buffer contents) and what it leaves in its result arrays are arrays of
the specification: the dense layer, the hyperedge sums, and the two updated node features. -/

/-- The node features at launch. -/
abbrev ax0 (c : Dev nD) : FVec Ideal ⟨2, ![10000, 128]⟩ .f32 := m ((c : Thread nD τ).loc main_arg0)
/-- The incidence matrix at launch. -/
abbrev aA (c : Dev nD) : FVec Ideal ⟨2, ![10000, 10000]⟩ .f32 := m ((c : Thread nD τ).loc main_arg1)
/-- The three weight matrices and biases at launch. -/
abbrev aW0 (c : Dev nD) : FVec Ideal ⟨2, ![32, 128]⟩ .f32 := m ((c : Thread nD τ).loc main_arg2)
abbrev ab0 (c : Dev nD) : FVec Ideal ⟨1, ![32]⟩ .f32 := m ((c : Thread nD τ).loc main_arg3)
abbrev aW1 (c : Dev nD) : FVec Ideal ⟨2, ![32, 32]⟩ .f32 := m ((c : Thread nD τ).loc main_arg4)
abbrev ab1 (c : Dev nD) : FVec Ideal ⟨1, ![32]⟩ .f32 := m ((c : Thread nD τ).loc main_arg5)
abbrev aW2 (c : Dev nD) : FVec Ideal ⟨2, ![32, 32]⟩ .f32 := m ((c : Thread nD τ).loc main_arg6)
abbrev ab2 (c : Dev nD) : FVec Ideal ⟨1, ![32]⟩ .f32 := m ((c : Thread nD τ).loc main_arg7)

/-- The dense layer of the specification. -/
abbrev sLin (c : Dev nD) : FVec Ideal ⟨2, ![10000, 32]⟩ .f32 := Cert.Spec.lin (ax0 m c) (aW0 m c) (ab0 m c)

/-! ## The first region -/

/-- The first region's first result is the dense layer. -/
theorem X0_eq (c : Dev nD) : X0 (V1 m ρ) c = sLin m c := by
  funext i
  obtain ⟨n, h, rfl⟩ : ∃ (n : Fin 10000) (h : Fin 32), i = ix2 n h := ⟨i 0, i 1, eq_ix2 i⟩
  show X0At (V1 m ρ) c n h = Cert.Spec.linAt (ax0 m c) (aW0 m c) (ab0 m c) n h
  unfold X0At Cert.Spec.linAt
  have e0 : r0x (V1 m ρ) c = ax0 m c := V1_main_arg0 m ρ c
  have eW : r0W (V1 m ρ) c = transpose S128x32 [1, 0] (aW0 m c) transposes_S32x128_S128x32_1_0 := V1_main_v3 m ρ c
  have eb : r0b (V1 m ρ) c = shapeCast S1x32 (ab0 m c) shapeCasts_S32_S1x32 := V1_main_v0 m ρ c
  rw [e0, eW, eb, castRow_S1x32_at]
  refine congrArg (· + ab0 m c (ix1 h)) (Finset.sum_congr rfl fun k _ => ?_)
  rw [transpose_S128x32_at]

/-- The first region's copy of the incidence matrix is the incidence matrix. -/
theorem A0_eq (c : Dev nD) : A0 (V1 m ρ) c = aA m c := by
  funext i
  exact congrFun (V1_main_arg1 m ρ c) i

/-- The first region's third result is the hyperedge sums of the dense layer. -/
theorem X1_eq (c : Dev nD) : X1 (V1 m ρ) c = Cert.Spec.aggT (aA m c) (sLin m c) := by
  funext i
  obtain ⟨e, h, rfl⟩ : ∃ (e : Fin 10000) (h : Fin 32), i = ix2 e h := ⟨i 0, i 1, eq_ix2 i⟩
  show X1At (V1 m ρ) c e h = Cert.Spec.aggTAt (aA m c) (sLin m c) e h
  unfold X1At Cert.Spec.aggTAt
  refine Finset.sum_congr rfl fun n _ => ?_
  have hx : sLin m c (ix2 n h) = X0At (V1 m ρ) c n h := by rw [← X0_eq m ρ c]; rfl
  have hA : r0A (V1 m ρ) c (ix2 n e) = aA m c (ix2 n e) := congrFun (V1_main_arg1 m ρ c) _
  rw [hx, hA, mul_comm]

/-! ## One layer of the specification, entry by entry -/

/-- The update a region computes at (n, h) from node features x, hyperedge sums y = Aᵀ·x, transposed weights and a
    bias is the specification's layer. -/
theorem layer_at (A : FVec Ideal ⟨2, ![10000, 10000]⟩ .f32) (x : FVec Ideal ⟨2, ![10000, 32]⟩ .f32)
    (W : FVec Ideal ⟨2, ![32, 32]⟩ .f32) (b : FVec Ideal ⟨1, ![32]⟩ .f32) (n : Fin 10000) (h : Fin 32) :
    max ((∑ k : Fin 32, (x (ix2 n k) + ∑ e : Fin 10000, A (ix2 n e) * Cert.Spec.aggT A x (ix2 e k)) * W (ix2 h k)) + b (ix1 h)) 0
      = Cert.Spec.layer A x W b (ix2 n h) := rfl

/-- The hyperedge sums a region accumulates at (e, h), with the factors in the region's order, are the
    specification's. -/
theorem aggT_at (A : FVec Ideal ⟨2, ![10000, 10000]⟩ .f32) (x : FVec Ideal ⟨2, ![10000, 32]⟩ .f32) (e : Fin 10000) (h : Fin 32) :
    (∑ n : Fin 10000, x (ix2 n h) * A (ix2 n e)) = Cert.Spec.aggT A x (ix2 e h) := by
  show _ = Cert.Spec.aggTAt A x e h
  unfold Cert.Spec.aggTAt
  exact Finset.sum_congr rfl fun n _ => mul_comm _ _

/-- The first layer of the specification. -/
abbrev sL1 (c : Dev nD) : FVec Ideal ⟨2, ![10000, 32]⟩ .f32 := Cert.Spec.layer (aA m c) (sLin m c) (aW1 m c) (ab1 m c)

/-! ## The second region: what it finds, and what it leaves -/

theorem r1A_eq (c : Dev nD) : r1A (V3 m ρ) c = aA m c :=
  (V3_main_v4_1 m ρ c).trans ((final0_5 (V1 m ρ) c).trans (A0_eq m ρ c))

theorem r1x_eq (c : Dev nD) : r1x (V3 m ρ) c = sLin m c :=
  (V3_main_v4_0 m ρ c).trans ((final0_4 (V1 m ρ) c).trans (X0_eq m ρ c))

theorem r1y_eq (c : Dev nD) : r1y (V3 m ρ) c = Cert.Spec.aggT (aA m c) (sLin m c) :=
  (V3_main_v4_2 m ρ c).trans ((final0_6 (V1 m ρ) c).trans (X1_eq m ρ c))

theorem r1W_eq (c : Dev nD) : r1W (V3 m ρ) c = transpose S32x32 [1, 0] (aW1 m c) transposes_S32x32_S32x32_1_0 :=
  V3_main_v5 m ρ c

theorem r1b_eq (c : Dev nD) : r1b (V3 m ρ) c = shapeCast S1x32 (ab1 m c) shapeCasts_S32_S1x32 :=
  V3_main_v1 m ρ c

/-- The second region's first result is the specification's first layer. -/
theorem XN1_eq (c : Dev nD) : XN1 (V3 m ρ) c = sL1 m c := by
  funext i
  obtain ⟨n, h, rfl⟩ : ∃ (n : Fin 10000) (h : Fin 32), i = ix2 n h := ⟨i 0, i 1, eq_ix2 i⟩
  show XN1At (V3 m ρ) c n h = Cert.Spec.layer (aA m c) (sLin m c) (aW1 m c) (ab1 m c) (ix2 n h)
  unfold XN1At
  rw [r1x_eq, r1A_eq, r1y_eq, r1W_eq, r1b_eq, castRow_S1x32_at, ← layer_at]
  refine congrArg (fun t => max (t + ab1 m c (ix1 h)) 0) (Finset.sum_congr rfl fun k _ => ?_)
  rw [transpose_S32x32_at]

/-- The second region's hyperedge sums are the specification's second result. -/
theorem Y1At_eq (c : Dev nD) (e : Fin 10000) (h : Fin 32) :
    Y1At (V3 m ρ) c e h = Cert.Spec.aggT (aA m c) (sL1 m c) (ix2 e h) := by
  unfold Y1At
  rw [← aggT_at, r1A_eq]
  refine Finset.sum_congr rfl fun n _ => ?_
  have hx : XN1At (V3 m ρ) c n h = sL1 m c (ix2 n h) := congrFun (XN1_eq m ρ c) (ix2 n h)
  rw [hx]

theorem Y1_eq (c : Dev nD) : Y1 (V3 m ρ) c = Cert.Spec.aggT (aA m c) (sL1 m c) := by
  funext i
  obtain ⟨e, h, rfl⟩ : ∃ (e : Fin 10000) (h : Fin 32), i = ix2 e h := ⟨i 0, i 1, eq_ix2 i⟩
  exact Y1At_eq m ρ c e h

theorem Y1b_eq (c : Dev nD) : Y1b (V3 m ρ) c = Cert.Spec.aggT (aA m c) (sL1 m c) := by
  funext i
  obtain ⟨e, h, rfl⟩ : ∃ (e : Fin 10000) (h : Fin 32), i = ix2 e h := ⟨i 0, i 1, eq_ix2 i⟩
  exact Y1At_eq m ρ c e h

/-! ## The third region: what it finds, and what it leaves -/

theorem r2A_eq (c : Dev nD) : r2A (V5 m ρ) c = aA m c :=
  (V5_main_v4_1 m ρ c).trans ((final0_5 (V1 m ρ) c).trans (A0_eq m ρ c))

theorem r2x_eq (c : Dev nD) : r2x (V5 m ρ) c = sL1 m c :=
  (V5_main_v6_0 m ρ c).trans ((final1_5 (V3 m ρ) c).trans (XN1_eq m ρ c))

theorem r2y_eq (c : Dev nD) : r2y (V5 m ρ) c = Cert.Spec.aggT (aA m c) (sL1 m c) :=
  (V5_main_v6_2 m ρ c).trans ((final1_7 (V3 m ρ) c).trans (Y1b_eq m ρ c))

theorem r2W_eq (c : Dev nD) : r2W (V5 m ρ) c = transpose S32x32 [1, 0] (aW2 m c) transposes_S32x32_S32x32_1_0 :=
  V5_main_v7 m ρ c

theorem r2b_eq (c : Dev nD) : r2b (V5 m ρ) c = shapeCast S1x32 (ab2 m c) shapeCasts_S32_S1x32 :=
  V5_main_v2 m ρ c

/-- The third region's result is the specification's second layer. -/
theorem XN2_eq (c : Dev nD) : XN2 (V5 m ρ) c = Cert.Spec.layer (aA m c) (sL1 m c) (aW2 m c) (ab2 m c) := by
  funext i
  obtain ⟨n, h, rfl⟩ : ∃ (n : Fin 10000) (h : Fin 32), i = ix2 n h := ⟨i 0, i 1, eq_ix2 i⟩
  show XN2At (V5 m ρ) c n h = Cert.Spec.layer (aA m c) (sL1 m c) (aW2 m c) (ab2 m c) (ix2 n h)
  unfold XN2At
  rw [r2x_eq, r2A_eq, r2y_eq, r2W_eq, r2b_eq, castRow_S1x32_at, ← layer_at]
  refine congrArg (fun t => max (t + ab2 m c (ix1 h)) 0) (Finset.sum_congr rfl fun k _ => ?_)
  rw [transpose_S32x32_at]

/-! ## The two results -/

/-- The program's first result array ends at the specification's first result. -/
theorem res_v8 (c : Dev nD) :
    W6 m ρ c (Proc.devRef .tc main_v8)
      = Cert.Spec.out0 (ax0 m c) (aA m c) (aW0 m c) (ab0 m c) (aW1 m c) (ab1 m c) (aW2 m c) (ab2 m c) :=
  (W6_main_v8 m ρ c).trans ((final2_5 (V5 m ρ) c).trans (XN2_eq m ρ c))

/-- The program's second result array ends at the specification's second result. -/
theorem res_v6_1 (c : Dev nD) :
    W6 m ρ c (Proc.devRef .tc main_v6_1)
      = Cert.Spec.out1 (ax0 m c) (aA m c) (aW0 m c) (ab0 m c) (aW1 m c) (ab1 m c) :=
  (W6_main_v6_1 m ρ c).trans ((final1_6 (V3 m ρ) c).trans (Y1_eq m ρ c))

end Cert.KernelIdeal.Val

end
-- ==== Proof.KiValue.lean ====
import proofs.«149919_g68453188763984_cont_9to1_m_933_13_alg».proof.Proof.KiGlue

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Over the extended reals, from any memory with zero counters: every weakly fair execution of the program on the
    TensorCores terminates, nothing faulting, and every final state holds the specification's two results in the
    program's two result arrays and each argument array at its launch contents. -/
theorem value_all : θ_run defs (onTc (τ := τ) (main (F := Ideal))) ⟨m, fun _ => 0, ρ⟩ (fun r => ∀ c : Dev nD,
      r.2.mem ((c.tc : Thread nD τ).loc main_v8)
        = Cert.Spec.out0 (ax0 m c) (aA m c) (aW0 m c) (ab0 m c) (aW1 m c) (ab1 m c) (aW2 m c) (ab2 m c)
      ∧ r.2.mem ((c.tc : Thread nD τ).loc main_v6_1)
        = Cert.Spec.out1 (ax0 m c) (aA m c) (aW0 m c) (ab0 m c) (aW1 m c) (ab1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v8 (by decide))).trans (res_v8 m ρ c),
    (h c _ (mem_uc main_v6_1 (by decide))).trans (res_v6_1 m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.KernelIdeal.Val

end
-- ==== Proof.RefSpec.lean ====
/-
  The reference program computes the specification. Its operations are read one at a time, each at an
  index (p, h): a transpose swaps the two coordinates, a product's entry is the sum over the contracted
  coordinate, a bias laid along every row reads b(h), the literal 1.0 is the extended real one and
  the literal 0.0 is zero. Stage by stage the reference's named intermediates are then the arrays of
  the specification:
    x₀·W₀ᵀ + b₀,  Aᵀ·x,  A·(Aᵀ·x),  max((1·x + A·(Aᵀ·x))·Wᵀ + b, 0)   (twice).
-/
import proofs.«149919_g68453188763984_cont_9to1_m_933_13_alg».proof.Proof.Gen.ReferenceIdeal.Read
import proofs.«149919_g68453188763984_cont_9to1_m_933_13_alg».proof.Proof.Spec
import Idealize.ShloMosaic.Lib.IdealHost

noncomputable section

open scoped BigOperators

namespace Cert.RefSpec

open Cert.ReferenceIdeal Cert.ReferenceIdeal.Read Idealize.ShloMosaic Idealize.ShloMosaic.ValueIdx

/-- Two rank-2 indices are equal when their two coordinates are. -/
local macro "idx2_eq" : tactic =>
  `(tactic| (funext a; match a with | ⟨0, _⟩ => rfl | ⟨1, _⟩ => rfl))

/-- A rank-1 index is its one coordinate. -/
local macro "idx1_eq" : tactic =>
  `(tactic| (funext a; match a with | ⟨0, _⟩ => rfl))

/-! ## The two literals -/

/-- The literal 1.0, broadcast to every entry, is one. -/
theorem one_at_v8 (i : S10000x32.Idx) : val_main_v8 (F := Ideal) i = 1 := by
  rw [val_main_v8_apply, val_main_cst_apply, Ideal.ofBits_def, Ideal.ofBits_one_f32]

theorem one_at_v20 (i : S10000x32.Idx) : val_main_v20 (F := Ideal) i = 1 := by
  rw [val_main_v20_apply, val_main_cst_0_apply, Ideal.ofBits_def, Ideal.ofBits_one_f32]

/-- The literal 0.0, broadcast to every entry, is zero. -/
theorem zero_at_call0 (i : S10000x32.Idx) : val_main_call0_v0 (F := Ideal) i = 0 := by
  rw [val_main_call0_v0_apply, val_main_call0_cst_apply, Ideal.ofBits_def, Ideal.ofBits_zero_f32]

theorem zero_at_call1 (i : S10000x32.Idx) : val_main_call1_v0 (F := Ideal) i = 0 := by
  rw [val_main_call1_v0_apply, val_main_call1_cst_apply, Ideal.ofBits_def, Ideal.ofBits_zero_f32]

/-! ## The dense layer x₀·W₀ᵀ + b₀ -/

/-- W₀ᵀ at (k, h) is W₀ at (h, k). -/
theorem v0_at (x2 : (⟨S32x128, .f32⟩ : BufTy).Contents (Elt Ideal)) (k : Fin 128) (h : Fin 32) :
    val_main_v0 (F := Ideal) x2 (ix2 k h) = x2 (ix2 h k) :=
  (val_main_v0_apply x2 _).trans (congrArg x2 (by idx2_eq))

/-- Entry (p, h) of x₀·W₀ᵀ. -/
theorem v1_at (x0 : (⟨S10000x128, .f32⟩ : BufTy).Contents (Elt Ideal)) (x2 : (⟨S32x128, .f32⟩ : BufTy).Contents (Elt Ideal)) (p : Fin 10000) (h : Fin 32) :
    val_main_v1 (F := Ideal) x0 x2 (ix2 p h) = ∑ k : Fin 128, x0 (ix2 p k) * x2 (ix2 h k) := by
  rw [val_main_v1_apply]
  refine Finset.sum_congr rfl fun k _ => ?_
  rw [show ridx_main_v1 (ix2 p h) k = ix2 k h by idx2_eq, v0_at,
    show lidx_main_v1 (ix2 p h) k = ix2 p k by idx2_eq]

/-- The bias b₀ laid along every row reads b₀(h) at (p, h). -/
theorem v3_at (x3 : (⟨S32, .f32⟩ : BufTy).Contents (Elt Ideal)) (p : Fin 10000) (h : Fin 32) :
    val_main_v3 (F := Ideal) x3 (ix2 p h) = x3 (ix1 h) := by
  rw [val_main_v3_apply, val_main_v2_apply]
  exact congrArg x3 (by idx1_eq)

/-- The first stage is the specification's dense layer. -/
theorem v4_eq (x0 : (⟨S10000x128, .f32⟩ : BufTy).Contents (Elt Ideal)) (x2 : (⟨S32x128, .f32⟩ : BufTy).Contents (Elt Ideal)) (x3 : (⟨S32, .f32⟩ : BufTy).Contents (Elt Ideal)) :
    val_main_v4 (F := Ideal) x0 x2 x3 = Cert.Spec.lin x0 x2 x3 := by
  funext i
  obtain ⟨p, h, rfl⟩ : ∃ (p : Fin 10000) (h : Fin 32), i = ix2 p h := ⟨i 0, i 1, eq_ix2 i⟩
  rw [Cert.Spec.lin_apply, val_main_v4_apply, v1_at, v3_at]
  rfl

/-! ## The first layer -/

/-- Aᵀ at (e, n) is A at (n, e). -/
theorem v5_at (x1 : (⟨S10000x10000, .f32⟩ : BufTy).Contents (Elt Ideal)) (e n : Fin 10000) :
    val_main_v5 (F := Ideal) x1 (ix2 e n) = x1 (ix2 n e) :=
  (val_main_v5_apply x1 _).trans (congrArg x1 (by idx2_eq))

/-- The hyperedge sums of the first layer. -/
theorem v6_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) :
    val_main_v6 (F := Ideal) x0 x1 x2 x3 = Cert.Spec.aggT x1 (Cert.Spec.lin x0 x2 x3) := by
  funext i
  obtain ⟨e, h, rfl⟩ : ∃ (e : Fin 10000) (h : Fin 32), i = ix2 e h := ⟨i 0, i 1, eq_ix2 i⟩
  rw [Cert.Spec.aggT_apply, val_main_v6_apply, v4_eq]
  unfold Cert.Spec.aggTAt
  refine Finset.sum_congr rfl fun n _ => ?_
  rw [show lidx_main_v6 (ix2 e h) n = ix2 e n by idx2_eq, v5_at,
    show ridx_main_v6 (ix2 e h) n = ix2 n h by idx2_eq]

/-- The node sums of the first layer. -/
theorem v7_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) :
    val_main_v7 (F := Ideal) x0 x1 x2 x3
      = Cert.Spec.agg x1 (Cert.Spec.aggT x1 (Cert.Spec.lin x0 x2 x3)) := by
  funext i
  obtain ⟨n, h, rfl⟩ : ∃ (n : Fin 10000) (h : Fin 32), i = ix2 n h := ⟨i 0, i 1, eq_ix2 i⟩
  rw [Cert.Spec.agg_apply, val_main_v7_apply, v6_eq]
  unfold Cert.Spec.aggAt
  refine Finset.sum_congr rfl fun e _ => ?_
  rw [show lidx_main_v7 (ix2 n h) e = ix2 n e by idx2_eq,
    show ridx_main_v7 (ix2 n h) e = ix2 e h by idx2_eq]

/-- 1·x + m at an index is x + m. -/
theorem v10_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (i : S10000x32.Idx) :
    val_main_v10 (F := Ideal) x0 x1 x2 x3 i
      = Cert.Spec.lin x0 x2 x3 i + Cert.Spec.agg x1 (Cert.Spec.aggT x1 (Cert.Spec.lin x0 x2 x3)) i := by
  rw [val_main_v10_apply, val_main_v9_apply, one_at_v8, v4_eq, v7_eq, Ideal.mulf_def, one_mul,
    Ideal.addf_def]

/-- W₁ᵀ at (k, h) is W₁ at (h, k). -/
theorem v11_at (x4 : (⟨S32x32, .f32⟩ : BufTy).Contents (Elt Ideal)) (k h : Fin 32) :
    val_main_v11 (F := Ideal) x4 (ix2 k h) = x4 (ix2 h k) :=
  (val_main_v11_apply x4 _).trans (congrArg x4 (by idx2_eq))

/-- The bias b₁ laid along every row reads b₁(h) at (p, h). -/
theorem v14_at (x5 : (⟨S32, .f32⟩ : BufTy).Contents (Elt Ideal)) (p : Fin 10000) (h : Fin 32) :
    val_main_v14 (F := Ideal) x5 (ix2 p h) = x5 (ix1 h) := by
  rw [val_main_v14_apply, val_main_v13_apply]
  exact congrArg x5 (by idx1_eq)

/-- The first layer's result is the specification's layer applied to the dense layer. -/
theorem v16_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v16 (F := Ideal) x0 x1 x2 x3 x4 x5
      = Cert.Spec.layer x1 (Cert.Spec.lin x0 x2 x3) x4 x5 := by
  funext i
  obtain ⟨n, h, rfl⟩ : ∃ (n : Fin 10000) (h : Fin 32), i = ix2 n h := ⟨i 0, i 1, eq_ix2 i⟩
  unfold Cert.Spec.layer
  rw [Cert.Spec.gin_apply, val_main_v16_apply, val_main_v15_apply, val_main_v12_apply, v14_at,
    zero_at_call0, Ideal.maximumf_def, Ideal.addf_def]
  unfold Cert.Spec.ginAt
  refine congrArg (fun t => max (t + x5 (ix1 h)) 0) (Finset.sum_congr rfl fun k _ => ?_)
  rw [show lidx_main_v12 (ix2 n h) k = ix2 n k by idx2_eq, v10_at,
    show ridx_main_v12 (ix2 n h) k = ix2 k h by idx2_eq, v11_at]

/-! ## The second layer -/

/-- Aᵀ at (e, n) is A at (n, e). -/
theorem v17_at (x1 : (⟨S10000x10000, .f32⟩ : BufTy).Contents (Elt Ideal)) (e n : Fin 10000) :
    val_main_v17 (F := Ideal) x1 (ix2 e n) = x1 (ix2 n e) :=
  (val_main_v17_apply x1 _).trans (congrArg x1 (by idx2_eq))

/-- The hyperedge sums of the second layer: the reference's second result. -/
theorem v18_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v18 (F := Ideal) x0 x1 x2 x3 x4 x5
      = Cert.Spec.aggT x1 (Cert.Spec.layer x1 (Cert.Spec.lin x0 x2 x3) x4 x5) := by
  funext i
  obtain ⟨e, h, rfl⟩ : ∃ (e : Fin 10000) (h : Fin 32), i = ix2 e h := ⟨i 0, i 1, eq_ix2 i⟩
  rw [Cert.Spec.aggT_apply, val_main_v18_apply, v16_eq]
  unfold Cert.Spec.aggTAt
  refine Finset.sum_congr rfl fun n _ => ?_
  rw [show lidx_main_v18 (ix2 e h) n = ix2 e n by idx2_eq, v17_at,
    show ridx_main_v18 (ix2 e h) n = ix2 n h by idx2_eq]

/-- The node sums of the second layer. -/
theorem v19_eq (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v19 (F := Ideal) x0 x1 x2 x3 x4 x5
      = Cert.Spec.agg x1 (Cert.Spec.aggT x1 (Cert.Spec.layer x1 (Cert.Spec.lin x0 x2 x3) x4 x5)) := by
  funext i
  obtain ⟨n, h, rfl⟩ : ∃ (n : Fin 10000) (h : Fin 32), i = ix2 n h := ⟨i 0, i 1, eq_ix2 i⟩
  rw [Cert.Spec.agg_apply, val_main_v19_apply, v18_eq]
  unfold Cert.Spec.aggAt
  refine Finset.sum_congr rfl fun e _ => ?_
  rw [show lidx_main_v19 (ix2 n h) e = ix2 n e by idx2_eq,
    show ridx_main_v19 (ix2 n h) e = ix2 e h by idx2_eq]

/-- 1·x + m at an index is x + m. -/
theorem v22_at (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (i : S10000x32.Idx) :
    val_main_v22 (F := Ideal) x0 x1 x2 x3 x4 x5 i
      = Cert.Spec.layer x1 (Cert.Spec.lin x0 x2 x3) x4 x5 i
        + Cert.Spec.agg x1 (Cert.Spec.aggT x1 (Cert.Spec.layer x1 (Cert.Spec.lin x0 x2 x3) x4 x5)) i := by
  rw [val_main_v22_apply, val_main_v21_apply, one_at_v20, v16_eq, v19_eq, Ideal.mulf_def, one_mul,
    Ideal.addf_def]

/-- W₂ᵀ at (k, h) is W₂ at (h, k). -/
theorem v23_at (x6 : (⟨S32x32, .f32⟩ : BufTy).Contents (Elt Ideal)) (k h : Fin 32) :
    val_main_v23 (F := Ideal) x6 (ix2 k h) = x6 (ix2 h k) :=
  (val_main_v23_apply x6 _).trans (congrArg x6 (by idx2_eq))

/-- The bias b₂ laid along every row reads b₂(h) at (p, h). -/
theorem v26_at (x7 : (⟨S32, .f32⟩ : BufTy).Contents (Elt Ideal)) (p : Fin 10000) (h : Fin 32) :
    val_main_v26 (F := Ideal) x7 (ix2 p h) = x7 (ix1 h) := by
  rw [val_main_v26_apply, val_main_v25_apply]
  exact congrArg x7 (by idx1_eq)

/-! ## The two results -/

/-- The reference's first result is the specification's first result. -/
theorem ref_out0 (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) :
    Cert.ReferenceIdeal.Read.val_main_v28 (F := Ideal) x0 x1 x2 x3 x4 x5 x6 x7
      = Cert.Spec.out0 x0 x1 x2 x3 x4 x5 x6 x7 := by
  funext i
  obtain ⟨n, h, rfl⟩ : ∃ (n : Fin 10000) (h : Fin 32), i = ix2 n h := ⟨i 0, i 1, eq_ix2 i⟩
  unfold Cert.Spec.out0
  generalize hX : Cert.Spec.layer x1 (Cert.Spec.lin x0 x2 x3) x4 x5 = X
  unfold Cert.Spec.layer
  rw [Cert.Spec.gin_apply, val_main_v28_apply, val_main_v27_apply, val_main_v24_apply, v26_at,
    zero_at_call1, Ideal.maximumf_def, Ideal.addf_def]
  unfold Cert.Spec.ginAt
  refine congrArg (fun t => max (t + x7 (ix1 h)) 0) (Finset.sum_congr rfl fun k _ => ?_)
  rw [show lidx_main_v24 (ix2 n h) k = ix2 n k by idx2_eq, v22_at, hX,
    show ridx_main_v24 (ix2 n h) k = ix2 k h by idx2_eq, v23_at]

/-- The reference's second result is the specification's second result. -/
theorem ref_out1 (x0 : (⟨S10000x128, .f32⟩ : BufTy).Contents (Elt Ideal)) (x1 : (⟨S10000x10000, .f32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    Cert.ReferenceIdeal.Read.val_main_v18 (F := Ideal) x0 x1 x2 x3 x4 x5
      = Cert.Spec.out1 x0 x1 x2 x3 x4 x5 :=
  v18_eq x0 x1 x2 x3 x4 x5

end Cert.RefSpec

end
-- ==== Proof.lean ====
/-
  The certificate of a two-layer hypergraph isomorphism network kernel against its array-level reference.

  Both programs compute, entry by entry over the extended reals (Proof/Spec.lean),
      x = x₀·W₀ᵀ + b₀,   and twice   x₁ = Aᵀ·x,  m = A·x₁,  x ← max((x + m)·Wᵀ + b, 0),
  and return the last x and the last x₁. The reference does it with whole-array products. The kernel does it in
  three passes over row slabs of the incidence matrix A: a pass computes its slab's rows of the dense layer and
  adds the slab's contribution xᵀ·A (rows of the slab only) to an accumulator kept between grid points, which it
  transposes out at the last point; since the slabs partition the rows, the accumulated sum is the sum over all
  rows, and a finite sum of extended reals may be regrouped freely. Rounding to the narrower float format is the
  identity over the extended reals. No law used needs finiteness of the inputs.

  The frames: each kernel region runs to its end at every grid point without fault and changes only its result
  arrays; the arguments are never among them. The region bodies are run symbolically once per kind of grid
  point (first, middle, last), the accumulator's contents after each point being part of the regions' invariant.
-/
import proofs.«149919_g68453188763984_cont_9to1_m_933_13_alg».proof.Defs
import proofs.«149919_g68453188763984_cont_9to1_m_933_13_alg».proof.Proof.Gen.Kernel
import proofs.«149919_g68453188763984_cont_9to1_m_933_13_alg».proof.Proof.Gen.KernelIdeal
import proofs.«149919_g68453188763984_cont_9to1_m_933_13_alg».proof.Proof.Gen.ReferenceIdeal
import proofs.«149919_g68453188763984_cont_9to1_m_933_13_alg».proof.Proof.Gen.Pre_finite_inputs
import proofs.«149919_g68453188763984_cont_9to1_m_933_13_alg».proof.Proof.Gen.ReferenceIdeal.Run
import proofs.«149919_g68453188763984_cont_9to1_m_933_13_alg».proof.Proof.Gen.ReferenceIdeal.Read
import proofs.«149919_g68453188763984_cont_9to1_m_933_13_alg».proof.Proof.KbFrame
import proofs.«149919_g68453188763984_cont_9to1_m_933_13_alg».proof.Proof.KiFrame
import proofs.«149919_g68453188763984_cont_9to1_m_933_13_alg».proof.Proof.KiValue
import proofs.«149919_g68453188763984_cont_9to1_m_933_13_alg».proof.Proof.RefSpec
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel :=
  fun m ρ _ => Cert.Kernel.Fr.frame_all (F := Bits) m ρ

/-- So does the same program read over the extended reals. -/
theorem frame_ki : Cert.frame_KernelIdeal :=
  fun m ρ _ => Cert.KernelIdeal.Fr.frame_all (F := Ideal) m ρ

/-- The reference is host operations only: its run, with the results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Over the extended reals both programs end with the specification's two arrays of arguments that agree. -/
theorem algebraic :
    Cert.algebraic_KernelIdeal_ReferenceIdeal := by
  intro m ρ m' ρ' _ hagree
  refine ⟨_, _, Cert.KernelIdeal.Val.value_all m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  refine ⟨(h c).1.trans ?_, (h c).2.1.trans ?_, (h c).2.2⟩
  · rw [Cert.ReferenceIdeal.Read.val_main_v28_eq, Cert.RefSpec.ref_out0, e0, e1, e2, e3, e4, e5, e6, e7]
  · rw [Cert.ReferenceIdeal.Read.val_main_v18_eq, Cert.RefSpec.ref_out1, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
